-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v95)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1000x128 : Shape := ⟨2, ![1000, 128]⟩
abbrev S128x128 : Shape := ⟨2, ![128, 128]⟩
abbrev S1x128 : Shape := ⟨2, ![1, 128]⟩
abbrev S128 : Shape := ⟨1, ![128]⟩
abbrev S2x600000 : Shape := ⟨2, ![2, 600000]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S2x600000 : S_.BroadcastsInDim S2x600000 (![] : Fin 0 → Fin S2x600000.rank)
  reducesTo_S2x600000_S_d0_1 : S2x600000.ReducesTo [0, 1] S_

variable [Facts]

def fn_part3 {F : FTy → Type} [FloatOps F] (main_arg10 : IVec S2x600000 32) (main_v48 : IVec S_ 1) (main_v50 : IVec S2x600000 1) : IVec S_ 1 :=
  let main_c_19 : IVec S_ 32 := constantI S_ 32 50000#32
  let main_v51 : IVec S2x600000 32 := broadcastInDim S2x600000 ![] bcast_S_S2x600000 main_c_19
  let main_v52 : IVec S2x600000 1 := cmpi .slt main_arg10 main_v51
  let main_v53 : IVec S2x600000 1 := andi main_v50 main_v52
  let main_c_20 : IVec S_ 1 := constantI S_ 1 1#1
  let main_v54 : IVec S_ 1 := (fun x v => Host.reduce IntOp.andi x v reducesTo_S2x600000_S_d0_1 h_S_) main_v53 main_c_20
  let main_v55 : IVec S_ 1 := andi main_v48 main_v54
  main_v55

def fn_part2 {F : FTy → Type} [FloatOps F] (main_arg7 : FVec F S128 .f32) (main_arg8 : FVec F S128 .f32) (main_arg9 : FVec F S128 .f32) (main_arg10 : IVec S2x600000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S2x600000 32 := broadcastInDim S2x600000 ![] bcast_S_S2x600000 main_c_18
  let main_v50 : IVec S2x600000 1 := cmpi .sge main_arg10 main_v49
  fn_part3 (F := F) main_arg10 main_v48 main_v50

def fn_part1 {F : FTy → Type} [FloatOps F] (main_arg4 : FVec F S128x128 .f32) (main_arg5 : FVec F S128x128 .f32) (main_arg6 : FVec F S1x128 .f32) (main_arg7 : FVec F S128 .f32) (main_arg8 : FVec F S128 .f32) (main_arg9 : FVec F S128 .f32) (main_arg10 : IVec S2x600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S1000x128 .f32) (main_arg2 : FVec F S128x128 .f32) (main_arg3 : FVec F S128x128 .f32) (main_arg4 : FVec F S128x128 .f32) (main_arg5 : FVec F S128x128 .f32) (main_arg6 : FVec F S1x128 .f32) (main_arg7 : FVec F S128 .f32) (main_arg8 : FVec F S128 .f32) (main_arg9 : FVec F S128 .f32) (main_arg10 : IVec S2x600000 32) (main_arg11 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S1000x128 : Shape := ⟨2, ![1000, 128]⟩
abbrev S128x128 : Shape := ⟨2, ![128, 128]⟩
abbrev S1x128 : Shape := ⟨2, ![1, 128]⟩
abbrev S128 : Shape := ⟨1, ![128]⟩
abbrev S2x600000 : Shape := ⟨2, ![2, 600000]⟩
abbrev S600000 : Shape := ⟨1, ![600000]⟩
abbrev S1x600000 : Shape := ⟨2, ![1, 600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S602112x128 : Shape := ⟨2, ![602112, 128]⟩
abbrev S602112 : Shape := ⟨1, ![602112]⟩
abbrev S602112x1 : Shape := ⟨2, ![602112, 1]⟩
abbrev S4096x128 : Shape := ⟨2, ![4096, 128]⟩
abbrev S4096x1 : Shape := ⟨2, ![4096, 1]⟩
abbrev S2000x128 : Shape := ⟨2, ![2000, 128]⟩

abbrev nBuf : Space → Nat
  | .hbm => 164
  | .vmem => 32
  | .smem => 0
  | _ => 0

abbrev hbmTy0_0 (i : Nat) : BufTy := match i % 128 with
  | 0 => ⟨S50000x128, .f32⟩
  | 1 => ⟨S1000x128, .f32⟩
  | 2 => ⟨S128x128, .f32⟩
  | 3 => ⟨S128x128, .f32⟩
  | 4 => ⟨S128x128, .f32⟩
  | 5 => ⟨S128x128, .f32⟩
  | 6 => ⟨S1x128, .f32⟩
  | 7 => ⟨S128, .f32⟩
  | 8 => ⟨S128, .f32⟩
  | 9 => ⟨S128, .f32⟩
  | 10 => ⟨S2x600000, .i32⟩
  | 11 => ⟨S600000, .i32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i32⟩
  | 19 => ⟨S_, .f32⟩
  | 20 => ⟨S600000, .f32⟩
  | 21 => ⟨S_, .f32⟩
  | 22 => ⟨S50000, .f32⟩
  | 23 => ⟨S600000x1, .i32⟩
  | 24 => ⟨S50000, .f32⟩
  | 25 => ⟨S_, .f32⟩
  | 26 => ⟨S50000, .f32⟩
  | 27 => ⟨S600000x1, .i32⟩
  | 28 => ⟨S50000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S600000, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x128, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S_, .i32⟩
  | 77 => ⟨S600000, .i32⟩
  | 78 => ⟨S600000, .i32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S_, .i32⟩
  | 89 => ⟨S_, .f32⟩
  | 90 => ⟨S602112x128, .f32⟩
  | 91 => ⟨S_, .i32⟩
  | 92 => ⟨S_, .f32⟩
  | 93 => ⟨S602112x128, .f32⟩
  | 94 => ⟨S_, .i32⟩
  | 95 => ⟨S_, .f32⟩
  | 96 => ⟨S602112x128, .f32⟩
  | 97 => ⟨S_, .i32⟩
  | 98 => ⟨S_, .f32⟩
  | 99 => ⟨S602112x128, .f32⟩
  | 100 => ⟨S_, .i32⟩
  | 101 => ⟨S_, .f32⟩
  | 102 => ⟨S602112, .f32⟩
  | 103 => ⟨S602112x1, .f32⟩
  | 104 => ⟨S602112x128, .f32⟩
  | 105 => ⟨S600000x128, .f32⟩
  | 106 => ⟨S602112x128, .f32⟩
  | 107 => ⟨S600000x128, .f32⟩
  | 108 => ⟨S_, .f32⟩
  | 109 => ⟨S50000x128, .f32⟩
  | 110 => ⟨S600000x1, .i32⟩
  | 111 => ⟨S50000x128, .f32⟩
  | 112 => ⟨S_, .f32⟩
  | 113 => ⟨S50000x128, .f32⟩
  | 114 => ⟨S600000x1, .i32⟩
  | 115 => ⟨S50000x128, .f32⟩
  | 116 => ⟨S1x128, .f32⟩
  | 117 => ⟨S50000x128, .f32⟩
  | 118 => ⟨S_, .f32⟩
  | 119 => ⟨S128, .f32⟩
  | 120 => ⟨S_, .f32⟩
  | 121 => ⟨S128, .f32⟩
  | 122 => ⟨S128, .f32⟩
  | 123 => ⟨S_, .i32⟩
  | 124 => ⟨S_, .f32⟩
  | 125 => ⟨S128, .f32⟩
  | 126 => ⟨S1x128, .f32⟩
  | 127 => ⟨S_, .f32⟩
  | _ => ⟨S50000x128, .f32⟩

abbrev hbmTy0_1 (i : Nat) : BufTy := match i % 128 with
  | 0 => ⟨S1x128, .f32⟩
  | 1 => ⟨S1x128, .f32⟩
  | 2 => ⟨S50000x128, .f32⟩
  | 3 => ⟨S50000x128, .f32⟩
  | 4 => ⟨S50000x128, .f32⟩
  | 5 => ⟨S_, .f32⟩
  | 6 => ⟨S_, .f32⟩
  | 7 => ⟨S_, .f32⟩
  | 8 => ⟨S_, .f32⟩
  | 9 => ⟨S128, .f32⟩
  | 10 => ⟨S128, .f32⟩
  | 11 => ⟨S128, .f32⟩
  | 12 => ⟨S_, .f32⟩
  | 13 => ⟨S_, .i1⟩
  | 14 => ⟨S_, .f32⟩
  | 15 => ⟨S_, .f32⟩
  | 16 => ⟨S128, .f32⟩
  | 17 => ⟨S128, .f32⟩
  | 18 => ⟨S1x128, .f32⟩
  | 19 => ⟨S50000x128, .f32⟩
  | 20 => ⟨S50000x128, .f32⟩
  | 21 => ⟨S_, .f32⟩
  | 22 => ⟨S128, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S128x128, .f32⟩
  | 35 => ⟨S1000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S4096x1, .f32⟩
  | .local _ .vmem, ⟨6, _⟩ => ⟨S4096x1, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S128x128, .f32⟩
  | .local _ .vmem, ⟨14, _⟩ => ⟨S4096x1, .f32⟩
  | .local _ .vmem, ⟨15, _⟩ => ⟨S4096x1, .f32⟩
  | .local _ .vmem, ⟨16, _⟩ => ⟨S4096x128, .f32⟩
  | .local _ .vmem, ⟨17, _⟩ => ⟨S4096x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S2000x128, .f32⟩
  | .local _ .vmem, ⟨28, _⟩ => ⟨S2000x128, .f32⟩
  | .local _ .vmem, ⟨29, _⟩ => ⟨S1000x128, .f32⟩
  | .local _ .vmem, ⟨30, _⟩ => ⟨S128x128, .f32⟩
  | .local _ .vmem, ⟨31, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_c_13 : Ref sig .tc := ⟨.hbm, 79, rfl⟩
abbrev main_v52 : Ref sig .tc := ⟨.hbm, 80, rfl⟩
abbrev main_v53 : Ref sig .tc := ⟨.hbm, 81, rfl⟩
abbrev main_c_14 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_15 : Ref sig .tc := ⟨.hbm, 88, rfl⟩
abbrev main_call0_v0 : Ref sig .tc := ⟨.hbm, 89, rfl⟩
abbrev main_v59 : Ref sig .tc := ⟨.hbm, 90, rfl⟩
abbrev main_c_16 : Ref sig .tc := ⟨.hbm, 91, rfl⟩
abbrev main_call1_v0 : Ref sig .tc := ⟨.hbm, 92, rfl⟩
abbrev main_v60 : Ref sig .tc := ⟨.hbm, 93, rfl⟩
abbrev main_c_17 : Ref sig .tc := ⟨.hbm, 94, rfl⟩
abbrev main_call2_v0 : Ref sig .tc := ⟨.hbm, 95, rfl⟩
abbrev main_v61 : Ref sig .tc := ⟨.hbm, 96, rfl⟩
abbrev main_c_18 : Ref sig .tc := ⟨.hbm, 97, rfl⟩
abbrev main_call3_v0 : Ref sig .tc := ⟨.hbm, 98, rfl⟩
abbrev main_v62 : Ref sig .tc := ⟨.hbm, 99, rfl⟩
abbrev main_c_19 : Ref sig .tc := ⟨.hbm, 100, rfl⟩
abbrev main_call4_v0 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_20 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_21 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_22 : Ref sig .tc := ⟨.hbm, 118, rfl⟩
abbrev main_v77 : Ref sig .tc := ⟨.hbm, 119, rfl⟩
abbrev main_cst_23 : Ref sig .tc := ⟨.hbm, 120, rfl⟩
abbrev main_v78 : Ref sig .tc := ⟨.hbm, 121, rfl⟩
abbrev main_v79 : Ref sig .tc := ⟨.hbm, 122, rfl⟩
abbrev main_c_24 : Ref sig .tc := ⟨.hbm, 123, rfl⟩
abbrev main_call5_cst : Ref sig .tc := ⟨.hbm, 124, rfl⟩
abbrev main_call5_v0 : Ref sig .tc := ⟨.hbm, 125, rfl⟩
abbrev main_call5_v1 : Ref sig .tc := ⟨.hbm, 126, rfl⟩
abbrev main_call5_cst_0 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_v5 : Ref sig .tc := ⟨.hbm, 131, rfl⟩
abbrev main_call5_v6 : Ref sig .tc := ⟨.hbm, 132, rfl⟩
abbrev main_call5_v7 : Ref sig .tc := ⟨.hbm, 133, rfl⟩
abbrev main_call5_cst_1 : Ref sig .tc := ⟨.hbm, 134, rfl⟩
abbrev main_call5_v8 : Ref sig .tc := ⟨.hbm, 135, rfl⟩
abbrev main_call5_cst_2 : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_call5_cst_3 : Ref sig .tc := ⟨.hbm, 140, rfl⟩
abbrev main_call5_v12 : Ref sig .tc := ⟨.hbm, 141, rfl⟩
abbrev main_call5_cst_4 : Ref sig .tc := ⟨.hbm, 142, rfl⟩
abbrev main_call5_call0_v0 : Ref sig .tc := ⟨.hbm, 143, rfl⟩
abbrev main_call5_call0_v1 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_cst_25 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg2_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem6_0 : DmaSem sig := 27
abbrev cc2_sem6_1 : DmaSem sig := 28
abbrev cc3_sem0_0 : DmaSem sig := 29
abbrev cc3_sem1_0 : DmaSem sig := 30
abbrev cc3_sem2_0 : DmaSem sig := 31

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![147], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1000x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1000x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  pads_S600000x128_S602112x128_021120_000 : S600000x128.Pads (![0, 0] : Fin 2 → Nat) ![2112, 0] ![0, 0] S602112x128
  h_S_ : 0 < S_.numel
  pads_S600000_S602112_021120 : S600000.Pads (![0] : Fin 1 → Nat) ![2112] ![0] S602112
  shapeCasts_S602112_S602112x1 : S602112.ShapeCasts S602112x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S602112x128_S600000x128_0_0 : S602112x128.Slices ![0, 0] S600000x128
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S1x128_S1x128_0_0 : ∀ a, (![0, 0] : Fin 2 → Nat) a + S1x128.size a ≤ S1x128.size a
  h_S1x128 : 0 < S1x128.numel
  broadcasts_S1x128_S2000x128 : S1x128.Broadcasts S2000x128
  shapeCasts_S2000x128_S2000x128 : S2000x128.ShapeCasts S2000x128
  shapeCasts_S1x128_S1x128 : S1x128.ShapeCasts S1x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  transposes_S128x128_S128x128_1_0 : S128x128.Transposes [1, 0] S128x128
  inb_S1000x128_S1000x128_0_0 : ∀ a, (![0, 0] : Fin 2 → Nat) a + S1000x128.size a ≤ S1000x128.size a
  h_S1000x128 : 0 < S1000x128.numel
  shapeCasts_S128x128_S128x128 : S128x128.ShapeCasts S128x128
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  gather_S1000x128_S600000x1_S600000x128_1_0_n_n_0_1_1128_wf : GatherDims.WF S1000x128 S600000x1 S600000x128 [1] [0] [] [0] [] 1 ![1, 128]
  dot_S4096x128_S128x128_S4096x128_1_0_0_1_n_n_wf : DotDims.WF S4096x128 S128x128 S4096x128 [1] [0] [0] [1] [] []
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S602112x128.size a
  hwx0_0 : ∀ i : grid0.Coords, EltTy.bits .f32 = 32 ∨ (Rect.block (s := S602112x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S602112x128.size a
  hwx0_1 : ∀ i : grid0.Coords, EltTy.bits .f32 = 32 ∨ (Rect.block (s := S602112x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S602112x1.size a
  hwx0_3 : ∀ i : grid0.Coords, EltTy.bits .f32 = 32 ∨ (Rect.block (s := S602112x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S602112x128.size a
  hwx0_4 : ∀ i : grid0.Coords, EltTy.bits .f32 = 32 ∨ (Rect.block (s := S602112x128) S4096x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S602112x128.size a
  hwx1_0 : ∀ i : grid1.Coords, EltTy.bits .f32 = 32 ∨ (Rect.block (s := S602112x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S602112x128.size a
  hwx1_1 : ∀ i : grid1.Coords, EltTy.bits .f32 = 32 ∨ (Rect.block (s := S602112x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S602112x1.size a
  hwx1_3 : ∀ i : grid1.Coords, EltTy.bits .f32 = 32 ∨ (Rect.block (s := S602112x1) S4096x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S602112x128.size a
  hwx1_4 : ∀ i : grid1.Coords, EltTy.bits .f32 = 32 ∨ (Rect.block (s := S602112x128) S4096x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S1000x128.size a
  hwx3_0 : ∀ i : grid3.Coords, EltTy.bits .f32 = 32 ∨ (Rect.block (s := S1000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S1000x128.size a
  hwx3_2 : ∀ i : grid3.Coords, EltTy.bits .f32 = 32 ∨ (Rect.block (s := S1000x128) S1000x128.size (cc3_transform_2 i) (hinb3_2 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S1000x128_S600000x1_S600000x128_1_0_n_n_0_1_1128 : GatherDims S1000x128 S600000x1 S600000x128 where
  offsetDims := [1]
  collapsedSliceDims := [0]
  operandBatchingDims := []
  startIndicesBatchingDims := []
  startIndexMap := [0]
  indexVectorDim := 1
  sliceSizes := ![1, 128]
  wf := gather_S1000x128_S600000x1_S600000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v59) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v64) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v65) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v61) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S4096x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v67) S4096x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v74) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v75) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v76) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S1000x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v96) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v97) S1000x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S1000x128 : Shape := ⟨2, ![1000, 128]⟩
abbrev S128x128 : Shape := ⟨2, ![128, 128]⟩
abbrev S1x128 : Shape := ⟨2, ![1, 128]⟩
abbrev S128 : Shape := ⟨1, ![128]⟩
abbrev S2x600000 : Shape := ⟨2, ![2, 600000]⟩
abbrev S600000 : Shape := ⟨1, ![600000]⟩
abbrev S_ : Shape := ⟨0, ![]⟩
abbrev S1x600000 : Shape := ⟨2, ![1, 600000]⟩
abbrev S600000x1 : Shape := ⟨2, ![600000, 1]⟩
abbrev S600000x128 : Shape := ⟨2, ![600000, 128]⟩
abbrev S50000 : Shape := ⟨1, ![50000]⟩

abbrev nBuf : Space → Nat
  | .hbm => 207
  | .vmem => 0
  | .smem => 0
  | _ => 0

abbrev hbmTy0_0 (i : Nat) : BufTy := match i % 128 with
  | 0 => ⟨S50000x128, .f32⟩
  | 1 => ⟨S1000x128, .f32⟩
  | 2 => ⟨S128x128, .f32⟩
  | 3 => ⟨S128x128, .f32⟩
  | 4 => ⟨S128x128, .f32⟩
  | 5 => ⟨S128x128, .f32⟩
  | 6 => ⟨S1x128, .f32⟩
  | 7 => ⟨S128, .f32⟩
  | 8 => ⟨S128, .f32⟩
  | 9 => ⟨S128, .f32⟩
  | 10 => ⟨S2x600000, .i32⟩
  | 11 => ⟨S600000, .i32⟩
  | 12 => ⟨S_, .i32⟩
  | 13 => ⟨S600000, .i32⟩
  | 14 => ⟨S600000, .i32⟩
  | 15 => ⟨S1x600000, .i32⟩
  | 16 => ⟨S600000, .i32⟩
  | 17 => ⟨S1x600000, .i32⟩
  | 18 => ⟨S600000, .i32⟩
  | 19 => ⟨S50000x128, .f32⟩
  | 20 => ⟨S50000x128, .f32⟩
  | 21 => ⟨S50000x128, .f32⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S600000x128, .f32⟩
  | 41 => ⟨S600000x128, .f32⟩
  | 42 => ⟨S_, .f32⟩
  | 43 => ⟨S600000, .f32⟩
  | 44 => ⟨S_, .f32⟩
  | 45 => ⟨S50000, .f32⟩
  | 46 => ⟨S600000x1, .i32⟩
  | 47 => ⟨S50000, .f32⟩
  | 48 => ⟨S_, .f32⟩
  | 49 => ⟨S50000, .f32⟩
  | 50 => ⟨S600000x1, .i32⟩
  | 51 => ⟨S50000, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000, .f32⟩
  | 70 => ⟨S600000, .f32⟩
  | 71 => ⟨S600000, .f32⟩
  | 72 => ⟨S600000x1, .f32⟩
  | 73 => ⟨S600000x128, .f32⟩
  | 74 => ⟨S600000x128, .f32⟩
  | 75 => ⟨S_, .f32⟩
  | 76 => ⟨S50000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S50000x128, .f32⟩
  | 86 => ⟨S50000x128, .f32⟩
  | 87 => ⟨S_, .i32⟩
  | 88 => ⟨S600000, .i32⟩
  | 89 => ⟨S600000, .i32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000x128, .f32⟩
  | 108 => ⟨S600000x128, .f32⟩
  | 109 => ⟨S600000x128, .f32⟩
  | 110 => ⟨S_, .f32⟩
  | 111 => ⟨S600000, .f32⟩
  | 112 => ⟨S_, .f32⟩
  | 113 => ⟨S50000, .f32⟩
  | 114 => ⟨S600000x1, .i32⟩
  | 115 => ⟨S50000, .f32⟩
  | 116 => ⟨S_, .f32⟩
  | 117 => ⟨S50000, .f32⟩
  | 118 => ⟨S600000x1, .i32⟩
  | 119 => ⟨S50000, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S50000x128, .f32⟩

abbrev hbmTy0_1 (i : Nat) : BufTy := match i % 128 with
  | 0 => ⟨S600000, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000, .f32⟩
  | 10 => ⟨S600000, .f32⟩
  | 11 => ⟨S600000, .f32⟩
  | 12 => ⟨S600000x1, .f32⟩
  | 13 => ⟨S600000x128, .f32⟩
  | 14 => ⟨S600000x128, .f32⟩
  | 15 => ⟨S_, .f32⟩
  | 16 => ⟨S50000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S_, .f32⟩
  | 34 => ⟨S128, .f32⟩
  | 35 => ⟨S_, .f32⟩
  | 36 => ⟨S128, .f32⟩
  | 37 => ⟨S128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S_, .f32⟩
  | 50 => ⟨S_, .f32⟩
  | 51 => ⟨S_, .f32⟩
  | 52 => ⟨S128, .f32⟩
  | 53 => ⟨S128, .f32⟩
  | 54 => ⟨S128, .f32⟩
  | 55 => ⟨S_, .f32⟩
  | 56 => ⟨S_, .i1⟩
  | 57 => ⟨S_, .f32⟩
  | 58 => ⟨S_, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S128x128, .f32⟩
  | 78 => ⟨S1000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_c_17 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_v78 : Ref sig .tc := ⟨.hbm, 111, rfl⟩
abbrev main_cst_19 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_20 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_21 : Ref sig .tc := ⟨.hbm, 120, rfl⟩
abbrev main_v85 : Ref sig .tc := ⟨.hbm, 121, rfl⟩
abbrev main_v86 : Ref sig .tc := ⟨.hbm, 122, rfl⟩
abbrev main_c_22 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_23 : Ref sig .tc := ⟨.hbm, 129, rfl⟩
abbrev main_v92 : Ref sig .tc := ⟨.hbm, 130, rfl⟩
abbrev main_v93 : Ref sig .tc := ⟨.hbm, 131, rfl⟩
abbrev main_c_24 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_25 : Ref sig .tc := ⟨.hbm, 143, rfl⟩
abbrev main_v104 : Ref sig .tc := ⟨.hbm, 144, rfl⟩
abbrev main_c_26 : Ref sig .tc := ⟨.hbm, 145, rfl⟩
abbrev main_v105 : Ref sig .tc := ⟨.hbm, 146, rfl⟩
abbrev main_v106 : Ref sig .tc := ⟨.hbm, 147, rfl⟩
abbrev main_c_27 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_28 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_29 : Ref sig .tc := ⟨.hbm, 161, rfl⟩
abbrev main_v118 : Ref sig .tc := ⟨.hbm, 162, rfl⟩
abbrev main_cst_30 : Ref sig .tc := ⟨.hbm, 163, rfl⟩
abbrev main_v119 : Ref sig .tc := ⟨.hbm, 164, rfl⟩
abbrev main_v120 : Ref sig .tc := ⟨.hbm, 165, rfl⟩
abbrev main_c_31 : Ref sig .tc := ⟨.hbm, 166, rfl⟩
abbrev main_call0_cst : Ref sig .tc := ⟨.hbm, 167, rfl⟩
abbrev main_call0_v0 : Ref sig .tc := ⟨.hbm, 168, rfl⟩
abbrev main_call0_v1 : Ref sig .tc := ⟨.hbm, 169, rfl⟩
abbrev main_call0_cst_0 : Ref sig .tc := ⟨.hbm, 170, rfl⟩
abbrev main_call0_v2 : Ref sig .tc := ⟨.hbm, 171, rfl⟩
abbrev main_call0_v3 : Ref sig .tc := ⟨.hbm, 172, rfl⟩
abbrev main_call0_v4 : Ref sig .tc := ⟨.hbm, 173, rfl⟩
abbrev main_call0_v5 : Ref sig .tc := ⟨.hbm, 174, rfl⟩
abbrev main_call0_v6 : Ref sig .tc := ⟨.hbm, 175, rfl⟩
abbrev main_call0_v7 : Ref sig .tc := ⟨.hbm, 176, rfl⟩
abbrev main_call0_cst_1 : Ref sig .tc := ⟨.hbm, 177, rfl⟩
abbrev main_call0_v8 : Ref sig .tc := ⟨.hbm, 178, rfl⟩
abbrev main_call0_cst_2 : Ref sig .tc := ⟨.hbm, 179, rfl⟩
abbrev main_call0_v9 : Ref sig .tc := ⟨.hbm, 180, rfl⟩
abbrev main_call0_v10 : Ref sig .tc := ⟨.hbm, 181, rfl⟩
abbrev main_call0_v11 : Ref sig .tc := ⟨.hbm, 182, rfl⟩
abbrev main_call0_cst_3 : Ref sig .tc := ⟨.hbm, 183, rfl⟩
abbrev main_call0_v12 : Ref sig .tc := ⟨.hbm, 184, rfl⟩
abbrev main_call0_cst_4 : Ref sig .tc := ⟨.hbm, 185, rfl⟩
abbrev main_call0_call0_v0 : Ref sig .tc := ⟨.hbm, 186, rfl⟩
abbrev main_call0_call0_v1 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_cst_32 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S1x128_S50000x128_0_1 : S1x128.BroadcastsInDim S50000x128 (![0, 1] : Fin 2 → Fin S50000x128.rank)
  bcast_S600000_S600000x1_0 : S600000.BroadcastsInDim S600000x1 (![0] : Fin 1 → Fin S600000x1.rank)
  bcast_S_S50000 : S_.BroadcastsInDim S50000 (![] : Fin 0 → Fin S50000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S128_S1x128_1 : S128.BroadcastsInDim S1x128 (![1] : Fin 1 → Fin S1x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S128x128_S128x128_1_0 : S128x128.Transposes [1, 0] S128x128
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  gather_S1000x128_S600000x1_S600000x128_1_0_n_n_0_1_1128_wf : GatherDims.WF S1000x128 S600000x1 S600000x128 [1] [0] [] [0] [] 1 ![1, 128]
  dot_S600000x128_S128x128_S600000x128_1_0_0_1_n_n_wf : DotDims.WF S600000x128 S128x128 S600000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  scatter_S50000x128_S600000x1_S600000x128_1_0_0_1_wf : ScatterDims.WF S50000x128 S600000x1 S600000x128 [1] [0] [0] 1
  dot_S1000x128_S128x128_S1000x128_1_0_0_1_n_n_wf : DotDims.WF S1000x128 S128x128 S1000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S1000x128_S600000x1_S600000x128_1_0_n_n_0_1_1128 : GatherDims S1000x128 S600000x1 S600000x128 where
  offsetDims := [1]
  collapsedSliceDims := [0]
  operandBatchingDims := []
  startIndicesBatchingDims := []
  startIndexMap := [0]
  indexVectorDim := 1
  sliceSizes := ![1, 128]
  wf := gather_S1000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

class Facts : Prop extends Facts₀ where

variable [Facts]
-- ==== Proof.KerRun.lean ====
/-
  The kernel program's run from the launch to the return, with every unscoped buffer of every core named: each
  final state holds, at every such buffer, the contents the fold of segment boundaries ends at.
-/
import proofs.«137193_j39762807226645_2_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main on the TensorCores terminates, nothing
    faulting, and every final state holds at each unscoped buffer `b` of each core `c` the last boundary's contents
    `Gen.W20 m ρ c b`: the launch over @main's segments, the last thread state read against the final state. -/
theorem run_W20 : θ_run defs (onTc (τ := τ) (main (F := F))) ⟨m, fun _ => 0, ρ⟩ (fun r => ∀ c : Dev nD,
      ∀ b ∈ Pipeline.ucRefs τ sig, r.2.mem (((c : Thread nD τ)).1, b) = Gen.W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h => h)

/-- The first result's buffer in a final state the run ends in. -/
theorem read_v95 {r : PUnit × MemSt nD τ sig (Elt F)}
    (h : ∀ c : Dev nD, ∀ b ∈ Pipeline.ucRefs τ sig, r.2.mem (((c : Thread nD τ)).1, b) = Gen.W20 m ρ c b) (c : Dev nD) :
    r.2.mem (((c : Thread nD τ)).1, Proc.devRef .tc main_v95) = Gen.W20 m ρ c (Proc.devRef .tc main_v95) :=
  h c _ (Gen.mem_uc main_v95 (by decide))

/-- The second result's buffer in a final state the run ends in. -/
theorem read_v97 {r : PUnit × MemSt nD τ sig (Elt F)}
    (h : ∀ c : Dev nD, ∀ b ∈ Pipeline.ucRefs τ sig, r.2.mem (((c : Thread nD τ)).1, b) = Gen.W20 m ρ c b) (c : Dev nD) :
    r.2.mem (((c : Thread nD τ)).1, Proc.devRef .tc main_v97) = Gen.W20 m ρ c (Proc.devRef .tc main_v97) :=
  h c _ (Gen.mem_uc main_v97 (by decide))

end Cert.KernelIdeal.HandRun

end
-- ==== Proof.KSpec.lean ====
/-
  The kernel program's stages as pure functions of the argument arrays, at the extended reals: the edge list's two rows, the degree counts and the symmetric edge weight, the gathered embeddings, the three matrix-product regions as index-by-index sums, the two segment sums, batch normalisation.
-/
import proofs.«137193_j39762807226645_2_alg».proof.KernelIdeal
import proofs.«137193_j39762807226645_2_alg».proof.Proof.Gen.KernelIdeal
import Idealize.ShloMosaic.PureOps.Ideal
import Idealize.ShloMosaic.Lib.ValueIdx

noncomputable section

namespace Cert.KernelIdeal.KSpec

open Cert.KernelIdeal Cert.KernelIdeal.Facts₀ Cert.KernelIdeal.Facts Idealize.ShloMosaic Idealize.ShloMosaic.ValueIdx
open scoped BigOperators

/-- The first row of the edge list: the source entity of every edge. -/
def src (ei : IVec S2x600000 32) : IVec S600000 32 :=
  shapeCast S600000 (extractStridedSlice S1x600000 ![0, 0] ei slices_S2x600000_S1x600000_0_0) shapeCasts_S1x600000_S600000
/-- The second row of the edge list: the target entity of every edge. -/
def tgt (ei : IVec S2x600000 32) : IVec S600000 32 :=
  shapeCast S600000 (extractStridedSlice S1x600000 ![1, 0] ei slices_S2x600000_S1x600000_1_0) shapeCasts_S1x600000_S600000
/-- Twice the relation type: the row of the forward relation embedding. -/
def et2 (et : IVec S600000 32) : IVec S600000 32 :=
  muli (broadcastInDim S600000 ![] bcast_S_S600000 (constantI S_ 32 2#32)) et
/-- Twice the relation type plus one: the row of the inverse relation embedding. -/
def et2p1 (et : IVec S600000 32) : IVec S600000 32 :=
  addi (et2 et) (broadcastInDim S600000 ![] bcast_S_S600000 (constantI S_ 32 1#32))
/-- A negative index counted from the end of an axis of extent n. -/
def wrap (n : BitVec 32) (v : IVec S600000 32) : IVec S600000 32 :=
  select (cmpi .slt v (broadcastInDim S600000 ![] bcast_S_S600000 (constantI S_ 32 0#32)))
    (addi v (broadcastInDim S600000 ![] bcast_S_S600000 (constantI S_ 32 n))) v
/-- A vector of indices as one column of start indices. -/
def col (v : IVec S600000 32) : IVec S600000x1 32 := broadcastInDim S600000x1 ![0] bcast_S600000_S600000x1_0 v
/-- One per edge. -/
def ones : FVec Ideal S600000 .f32 :=
  broadcastInDim S600000 ![] bcast_S_S600000 (constant (F := Ideal) S_ .f32 0x3F800000#32)
/-- Zero per entity. -/
def zeros1 : FVec Ideal S50000 .f32 :=
  broadcastInDim S50000 ![] bcast_S_S50000 (constant (F := Ideal) S_ .f32 0x00000000#32)
/-- How many edges name each entity in the index vector idx. -/
def cnt (idx : IVec S600000 32) : FVec Ideal S50000 .f32 :=
  Host.scatterAdd (F := Ideal) scatter_S50000_S600000x1_S600000_n_0_0_1 zeros1 (col idx) ones
/-- Per edge, the count of the entity the edge names. -/
def deg (c : FVec Ideal S50000 .f32) (idx : IVec S600000 32) : FVec Ideal S600000 .f32 :=
  Host.gather gather_S50000_S600000x1_S600000_n_0_n_n_0_1_1 c (col (wrap 50000#32 idx))
/-- The symmetric edge weight: one over the square root of the product of the two degrees. -/
def ew (a b : IVec S600000 32) : FVec Ideal S600000 .f32 :=
  Host.rsqrt (F := Ideal) (mulf (deg (cnt a) a) (deg (cnt b) b))
/-- The entity embedding of the entity each edge names. -/
def rowsE (x_e : FVec Ideal S50000x128 .f32) (idx : IVec S600000 32) : FVec Ideal S600000x128 .f32 :=
  Host.gather gather_S50000x128_S600000x1_S600000x128_1_0_n_n_0_1_1128 x_e (col (wrap 50000#32 idx))
/-- The relation embedding of the row each edge names. -/
def rowsR (x_r : FVec Ideal S1000x128 .f32) (idx : IVec S600000 32) : FVec Ideal S600000x128 .f32 :=
  Host.gather gather_S1000x128_S600000x1_S600000x128_1_0_n_n_0_1_1128 x_r (col (wrap 1000#32 idx))
/-- Zero per entity and feature. -/
def zeros2 : FVec Ideal S50000x128 .f32 :=
  broadcastInDim S50000x128 ![] bcast_S_S50000x128 (constant (F := Ideal) S_ .f32 0x00000000#32)
/-- The per-edge messages summed into the entity each edge names through the column idx. -/
def segsum (idx : IVec S600000x1 32) (msg : FVec Ideal S600000x128 .f32) : FVec Ideal S50000x128 .f32 :=
  Host.scatterAdd (F := Ideal) scatter_S50000x128_S600000x1_S600000x128_1_0_0_1 zeros2 idx msg
/-- A feature vector repeated over all entities. -/
def rep (v : FVec Ideal S128 .f32) : FVec Ideal S50000x128 .f32 :=
  broadcastInDim S50000x128 ![0, 1] bcast_S1x128_S50000x128_0_1 (broadcastInDim S1x128 ![1] bcast_S128_S1x128_1 v)
/-- The batch mean over the entities, per feature. -/
def mean (x : FVec Ideal S50000x128 .f32) : FVec Ideal S128 .f32 :=
  Host.divf (F := Ideal) (Host.reduceAdd (F := Ideal) x (constant (F := Ideal) S_ .f32 0x00000000#32) reducesTo_S50000x128_S128_d0 h_S_)
    (broadcastInDim S128 ![] bcast_S_S128 (constant (F := Ideal) S_ .f32 0x47435000#32))
/-- The batch variance over the entities, per feature (the mean of the squared deviations, guarded by the
    count of degrees of freedom being positive). -/
def var (x : FVec Ideal S50000x128 .f32) : FVec Ideal S128 .f32 :=
  select
    (broadcastInDim S128 ![] bcast_S_S128
      (cmpf .ogt (subf (constant (F := Ideal) S_ .f32 0x47435000#32) (sitofp (F := Ideal) .f32 (constantI S_ 32 0#32)))
        (constant (F := Ideal) S_ .f32 0x00000000#32)))
    (Host.divf (F := Ideal)
      (Host.reduceAdd (F := Ideal)
        (mulf
          (subf x (broadcastInDim S50000x128 ![0, 1] bcast_S1x128_S50000x128_0_1
            (Host.divf (F := Ideal)
              (broadcastInDim S1x128 ![1] bcast_S128_S1x128_1
                (Host.reduceAdd (F := Ideal) x (constant (F := Ideal) S_ .f32 0x00000000#32) reducesTo_S50000x128_S128_d0 h_S_))
              (broadcastInDim S1x128 ![] bcast_S_S1x128 (constant (F := Ideal) S_ .f32 0x47435000#32)))))
          (subf x (broadcastInDim S50000x128 ![0, 1] bcast_S1x128_S50000x128_0_1
            (Host.divf (F := Ideal)
              (broadcastInDim S1x128 ![1] bcast_S128_S1x128_1
                (Host.reduceAdd (F := Ideal) x (constant (F := Ideal) S_ .f32 0x00000000#32) reducesTo_S50000x128_S128_d0 h_S_))
              (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128
        (subf (constant (F := Ideal) S_ .f32 0x47435000#32) (sitofp (F := Ideal) .f32 (constantI S_ 32 0#32)))))
    (broadcastInDim S128 ![] bcast_S_S128 (id (constant (F := Ideal) S_ .f32 0x7FC00000#32)))
/-- Batch normalisation over the entities: centre, scale by one over the root of the variance plus epsilon,
    then the learned scale and shift. -/
def tail (x : FVec Ideal S50000x128 .f32) (gamma beta : FVec Ideal S128 .f32) : FVec Ideal S50000x128 .f32 :=
  addf (mulf (mulf (subf x (rep (mean x)))
      (rep (Host.rsqrt (F := Ideal) (addf (var x) (broadcastInDim S128 ![] bcast_S_S128 (constant (F := Ideal) S_ .f32 0x3727C5AC#32))))))
    (rep gamma)) (rep beta)
/-- The relation projection's weight, transposed. -/
def wT (w_rel : FVec Ideal S128x128 .f32) : FVec Ideal S128x128 .f32 :=
  transpose S128x128 [1, 0] w_rel transposes_S128x128_S128x128_1_0

/-- The per-edge rows padded with zero rows up to a whole number of blocks. -/
def padRows (x : FVec Ideal S600000x128 .f32) : FVec Ideal S602112x128 .f32 :=
  pad S602112x128 ![0, 0] ![2112, 0] ![0, 0] x (sitofp (F := Ideal) .f32 (constantI S_ 32 0#32)) pads_S600000x128_S602112x128_021120_000 h_S_
/-- The per-edge weights padded with zeros up to a whole number of blocks. -/
def padVec (x : FVec Ideal S600000 .f32) : FVec Ideal S602112 .f32 :=
  pad S602112 ![0] ![2112] ![0] x (sitofp (F := Ideal) .f32 (constantI S_ 32 0#32)) pads_S600000_S602112_021120 h_S_
/-- The padded edge weights as one column. -/
def ewCol (ei : IVec S2x600000 32) : FVec Ideal S602112x1 .f32 :=
  shapeCast S602112x1 (padVec (ew (src ei) (tgt ei))) shapeCasts_S602112_S602112x1
/-- The rows of the real edges out of the padded result. -/
def sliceRows (y : FVec Ideal S602112x128 .f32) : FVec Ideal S600000x128 .f32 :=
  extractStridedSlice S600000x128 ![0, 0] y slices_S602112x128_S600000x128_0_0
/-- The bias as one row. -/
def bias2 (b : FVec Ideal S128 .f32) : FVec Ideal S1x128 .f32 := shapeCast S1x128 b shapeCasts_S128_S1x128

/-- The message region's result array: row e is ((xs e − xr e) · ew e) times the weight matrix. -/
def Gmsg (xs xr : FVec Ideal S602112x128 .f32) (w : FVec Ideal S128x128 .f32) (ewc : FVec Ideal S602112x1 .f32) :
    FVec Ideal S602112x128 .f32 :=
  fun i => ∑ k : Fin 128, ((xs (ix2 (i 0) k) - xr (ix2 (i 0) k)) * ewc (ix2 (i 0) (0 : Fin 1))) * w (ix2 k (i 1))
/-- The combine region's result array: ((x − self_loop) W + fwd + bwd) · (1/3) + bias. -/
def Gcomb (x : FVec Ideal S50000x128 .f32) (sl : FVec Ideal S1x128 .f32) (w : FVec Ideal S128x128 .f32)
    (f b : FVec Ideal S50000x128 .f32) (bias : FVec Ideal S1x128 .f32) : FVec Ideal S50000x128 .f32 :=
  fun i => ((∑ k : Fin 128, (x (ix2 (i 0) k) - sl (ix2 (0 : Fin 1) k)) * w (ix2 k (i 1))) + f i + b i) * ((1 / 3 : ℝ) : EReal)
    + bias (ix2 (0 : Fin 1) (i 1))
/-- The relation-projection region's result array: x_r times the transposed weight. -/
def Grel (xr : FVec Ideal S1000x128 .f32) (wt : FVec Ideal S128x128 .f32) : FVec Ideal S1000x128 .f32 :=
  fun i => ∑ k : Fin 128, xr (ix2 (i 0) k) * wt (ix2 k (i 1))

/-- The forward messages of the real edges. -/
def msgFwd (x_e : FVec Ideal S50000x128 .f32) (x_r : FVec Ideal S1000x128 .f32) (w : FVec Ideal S128x128 .f32)
    (ei : IVec S2x600000 32) (et : IVec S600000 32) : FVec Ideal S600000x128 .f32 :=
  sliceRows (Gmsg (padRows (rowsE x_e (src ei))) (padRows (rowsR x_r (et2 et))) w (ewCol ei))
/-- The backward messages of the real edges. -/
def msgBwd (x_e : FVec Ideal S50000x128 .f32) (x_r : FVec Ideal S1000x128 .f32) (w : FVec Ideal S128x128 .f32)
    (ei : IVec S2x600000 32) (et : IVec S600000 32) : FVec Ideal S600000x128 .f32 :=
  sliceRows (Gmsg (padRows (rowsE x_e (tgt ei))) (padRows (rowsR x_r (et2p1 et))) w (ewCol ei))
/-- The layer's output before batch normalisation. -/
def comb (x_e : FVec Ideal S50000x128 .f32) (x_r : FVec Ideal S1000x128 .f32) (w_loop w_fwd w_bwd : FVec Ideal S128x128 .f32)
    (sl : FVec Ideal S1x128 .f32) (bias : FVec Ideal S128 .f32) (ei : IVec S2x600000 32) (et : IVec S600000 32) :
    FVec Ideal S50000x128 .f32 :=
  Gcomb x_e sl w_loop (segsum (col (tgt ei)) (msgFwd x_e x_r w_fwd ei et)) (segsum (col (src ei)) (msgBwd x_e x_r w_bwd ei et)) (bias2 bias)
/-- The new relation embeddings. -/
def rel (x_r : FVec Ideal S1000x128 .f32) (w_rel : FVec Ideal S128x128 .f32) : FVec Ideal S1000x128 .f32 := Grel x_r (wT w_rel)

end Cert.KernelIdeal.KSpec

end
-- ==== Proof.KerFoldA.lean ====
/-
  The host operations before the first region, read as functions of the buffers they start from: the gathered
  rows, the edge weight and the two rows of the edge list after the long first stretch, and the padded arrays
  after the ten short stretches that follow; the argument buffers pass through both unchanged.
-/
import proofs.«137193_j39762807226645_2_alg».proof.Proof.Gen.KernelIdeal.Frame
import proofs.«137193_j39762807226645_2_alg».proof.Proof.KSpec

set_option maxRecDepth 16384

noncomputable section

namespace Cert.KernelIdeal.HandRun

open Cert.KernelIdeal Cert.KernelIdeal.Gen Cert.KernelIdeal.Facts₀ Cert.KernelIdeal.Facts
open Idealize.ShloMosaic Idealize.ShloMosaic.TcCoe Idealize.ShloMosaic.ValueIdx

/-! ## The first stretch: the edge list's rows, the degrees' weight, the gathered embeddings -/

theorem s0_v1 (X : Valuation τ sig (Elt Ideal)) :
    StableHlo.after (hostOps0 (F := Ideal)) X (Proc.devRef .tc main_v1) = KSpec.src (X (Proc.devRef .tc main_arg10)) := by
  after_results_simp; rfl
theorem s0_v3 (X : Valuation τ sig (Elt Ideal)) :
    StableHlo.after (hostOps0 (F := Ideal)) X (Proc.devRef .tc main_v3) = KSpec.tgt (X (Proc.devRef .tc main_arg10)) := by
  after_results_simp; rfl
theorem s0_v28 (X : Valuation τ sig (Elt Ideal)) :
    StableHlo.after (hostOps0 (F := Ideal)) X (Proc.devRef .tc main_v28)
      = KSpec.ew (KSpec.src (X (Proc.devRef .tc main_arg10))) (KSpec.tgt (X (Proc.devRef .tc main_arg10))) := by
  after_results_simp; rfl
theorem s0_v35 (X : Valuation τ sig (Elt Ideal)) :
    StableHlo.after (hostOps0 (F := Ideal)) X (Proc.devRef .tc main_v35)
      = KSpec.rowsE (X (Proc.devRef .tc main_arg0)) (KSpec.src (X (Proc.devRef .tc main_arg10))) := by
  after_results_simp; rfl
theorem s0_v42 (X : Valuation τ sig (Elt Ideal)) :
    StableHlo.after (hostOps0 (F := Ideal)) X (Proc.devRef .tc main_v42)
      = KSpec.rowsE (X (Proc.devRef .tc main_arg0)) (KSpec.tgt (X (Proc.devRef .tc main_arg10))) := by
  after_results_simp; rfl
theorem s0_v49 (X : Valuation τ sig (Elt Ideal)) :
    StableHlo.after (hostOps0 (F := Ideal)) X (Proc.devRef .tc main_v49)
      = KSpec.rowsR (X (Proc.devRef .tc main_arg1)) (KSpec.et2 (X (Proc.devRef .tc main_arg11))) := by
  after_results_simp; rfl
theorem s0_v58 (X : Valuation τ sig (Elt Ideal)) :
    StableHlo.after (hostOps0 (F := Ideal)) X (Proc.devRef .tc main_v58)
      = KSpec.rowsR (X (Proc.devRef .tc main_arg1)) (KSpec.et2p1 (X (Proc.devRef .tc main_arg11))) := by
  after_results_simp; rfl
theorem s0_c15 (X : Valuation τ sig (Elt Ideal)) :
    StableHlo.after (hostOps0 (F := Ideal)) X (Proc.devRef .tc main_c_15) = constantI S_ 32 0#32 := by
  after_results_simp
theorem s0_arg0 (X : Valuation τ sig (Elt Ideal)) :
    StableHlo.after (hostOps0 (F := Ideal)) X (Proc.devRef .tc main_arg0) = X (Proc.devRef .tc main_arg0) := by
  after_results_simp
theorem s0_arg1 (X : Valuation τ sig (Elt Ideal)) :
    StableHlo.after (hostOps0 (F := Ideal)) X (Proc.devRef .tc main_arg1) = X (Proc.devRef .tc main_arg1) := by
  after_results_simp
theorem s0_arg2 (X : Valuation τ sig (Elt Ideal)) :
    StableHlo.after (hostOps0 (F := Ideal)) X (Proc.devRef .tc main_arg2) = X (Proc.devRef .tc main_arg2) := by
  after_results_simp
theorem s0_arg3 (X : Valuation τ sig (Elt Ideal)) :
    StableHlo.after (hostOps0 (F := Ideal)) X (Proc.devRef .tc main_arg3) = X (Proc.devRef .tc main_arg3) := by
  after_results_simp
theorem s0_arg4 (X : Valuation τ sig (Elt Ideal)) :
    StableHlo.after (hostOps0 (F := Ideal)) X (Proc.devRef .tc main_arg4) = X (Proc.devRef .tc main_arg4) := by
  after_results_simp
theorem s0_arg5 (X : Valuation τ sig (Elt Ideal)) :
    StableHlo.after (hostOps0 (F := Ideal)) X (Proc.devRef .tc main_arg5) = X (Proc.devRef .tc main_arg5) := by
  after_results_simp
theorem s0_arg6 (X : Valuation τ sig (Elt Ideal)) :
    StableHlo.after (hostOps0 (F := Ideal)) X (Proc.devRef .tc main_arg6) = X (Proc.devRef .tc main_arg6) := by
  after_results_simp
theorem s0_arg7 (X : Valuation τ sig (Elt Ideal)) :
    StableHlo.after (hostOps0 (F := Ideal)) X (Proc.devRef .tc main_arg7) = X (Proc.devRef .tc main_arg7) := by
  after_results_simp
theorem s0_arg8 (X : Valuation τ sig (Elt Ideal)) :
    StableHlo.after (hostOps0 (F := Ideal)) X (Proc.devRef .tc main_arg8) = X (Proc.devRef .tc main_arg8) := by
  after_results_simp
theorem s0_arg9 (X : Valuation τ sig (Elt Ideal)) :
    StableHlo.after (hostOps0 (F := Ideal)) X (Proc.devRef .tc main_arg9) = X (Proc.devRef .tc main_arg9) := by
  after_results_simp

/-! ## The ten short stretches: the four gathered arrays and the weight padded to whole blocks -/

/-- The buffer contents after the ten short stretches, from contents `X`. -/
abbrev afterP (X : Valuation τ sig (Elt Ideal)) : Valuation τ sig (Elt Ideal) :=
  StableHlo.after hostOps0_10 (StableHlo.after hostOps0_9 (StableHlo.after hostOps0_8 (StableHlo.after hostOps0_7
    (StableHlo.after hostOps0_6 (StableHlo.after hostOps0_5 (StableHlo.after hostOps0_4 (StableHlo.after hostOps0_3
      (StableHlo.after hostOps0_2 (StableHlo.after hostOps0_1 X)))))))))

theorem P_v59 (X : Valuation τ sig (Elt Ideal)) (h : X (Proc.devRef .tc main_c_15) = constantI S_ 32 0#32) :
    afterP X (Proc.devRef .tc main_v59) = KSpec.padRows (X (Proc.devRef .tc main_v35)) := by
  after_results_simp; rw [h]; rfl
theorem P_v60 (X : Valuation τ sig (Elt Ideal)) : afterP X (Proc.devRef .tc main_v60) = KSpec.padRows (X (Proc.devRef .tc main_v49)) := by
  after_results_simp; rfl
theorem P_v61 (X : Valuation τ sig (Elt Ideal)) : afterP X (Proc.devRef .tc main_v61) = KSpec.padRows (X (Proc.devRef .tc main_v42)) := by
  after_results_simp; rfl
theorem P_v62 (X : Valuation τ sig (Elt Ideal)) : afterP X (Proc.devRef .tc main_v62) = KSpec.padRows (X (Proc.devRef .tc main_v58)) := by
  after_results_simp; rfl
theorem P_v64 (X : Valuation τ sig (Elt Ideal)) :
    afterP X (Proc.devRef .tc main_v64) = shapeCast S602112x1 (KSpec.padVec (X (Proc.devRef .tc main_v28))) Facts₀.shapeCasts_S602112_S602112x1 := by
  after_results_simp; rfl
theorem P_v1 (X : Valuation τ sig (Elt Ideal)) : afterP X (Proc.devRef .tc main_v1) = X (Proc.devRef .tc main_v1) := by
  after_results_simp
theorem P_v3 (X : Valuation τ sig (Elt Ideal)) : afterP X (Proc.devRef .tc main_v3) = X (Proc.devRef .tc main_v3) := by
  after_results_simp
theorem P_arg0 (X : Valuation τ sig (Elt Ideal)) : afterP X (Proc.devRef .tc main_arg0) = X (Proc.devRef .tc main_arg0) := by
  after_results_simp
theorem P_arg1 (X : Valuation τ sig (Elt Ideal)) : afterP X (Proc.devRef .tc main_arg1) = X (Proc.devRef .tc main_arg1) := by
  after_results_simp
theorem P_arg2 (X : Valuation τ sig (Elt Ideal)) : afterP X (Proc.devRef .tc main_arg2) = X (Proc.devRef .tc main_arg2) := by
  after_results_simp
theorem P_arg3 (X : Valuation τ sig (Elt Ideal)) : afterP X (Proc.devRef .tc main_arg3) = X (Proc.devRef .tc main_arg3) := by
  after_results_simp
theorem P_arg4 (X : Valuation τ sig (Elt Ideal)) : afterP X (Proc.devRef .tc main_arg4) = X (Proc.devRef .tc main_arg4) := by
  after_results_simp
theorem P_arg5 (X : Valuation τ sig (Elt Ideal)) : afterP X (Proc.devRef .tc main_arg5) = X (Proc.devRef .tc main_arg5) := by
  after_results_simp
theorem P_arg6 (X : Valuation τ sig (Elt Ideal)) : afterP X (Proc.devRef .tc main_arg6) = X (Proc.devRef .tc main_arg6) := by
  after_results_simp
theorem P_arg7 (X : Valuation τ sig (Elt Ideal)) : afterP X (Proc.devRef .tc main_arg7) = X (Proc.devRef .tc main_arg7) := by
  after_results_simp
theorem P_arg8 (X : Valuation τ sig (Elt Ideal)) : afterP X (Proc.devRef .tc main_arg8) = X (Proc.devRef .tc main_arg8) := by
  after_results_simp
theorem P_arg9 (X : Valuation τ sig (Elt Ideal)) : afterP X (Proc.devRef .tc main_arg9) = X (Proc.devRef .tc main_arg9) := by
  after_results_simp

end Cert.KernelIdeal.HandRun

end
-- ==== Proof.KerFold.lean ====
/-
  The kernel program's two result buffers at the last segment boundary, as functions of the argument arrays:
  the fold of boundaries walked from the launch memory, each host stretch read as the composition of its
  operations and each region's result array taken from the hypothesis that states its value.
-/
import proofs.«137193_j39762807226645_2_alg».proof.Proof.KerFoldA

set_option maxRecDepth 16384

noncomputable section

namespace Cert.KernelIdeal.HandRun

open Cert.KernelIdeal Cert.KernelIdeal.Gen Cert.KernelIdeal.Facts₀ Cert.KernelIdeal.Facts
open Idealize.ShloMosaic Idealize.ShloMosaic.TcCoe Idealize.ShloMosaic.ValueIdx

/-! ## The later host stretches, from any contents -/

/-- The rows of the real edges out of the first message region's padded result. -/
theorem B_v66 (X : Valuation τ sig (Elt Ideal)) :
    StableHlo.after (hostOps1 (F := Ideal)) X (Proc.devRef .tc main_v66) = KSpec.sliceRows (X (Proc.devRef .tc main_v65)) := by
  after_results; rfl
/-- That stretch writes one buffer only. -/
theorem B_keep (X : Valuation τ sig (Elt Ideal)) {r : Ref sig .tc} (h : r ≠ main_v66) :
    StableHlo.after (hostOps1 (F := Ideal)) X (Proc.devRef .tc r) = X (Proc.devRef .tc r) := by
  simp only [StableHlo.after_cons, StableHlo.after_nil]
  exact StableHlo.unary_result_ne _ _ _ _ _ _ h

theorem C_v71 (X : Valuation τ sig (Elt Ideal)) :
    StableHlo.after (hostOps2 (F := Ideal)) X (Proc.devRef .tc main_v71)
      = KSpec.segsum (KSpec.col (X (Proc.devRef .tc main_v3))) (X (Proc.devRef .tc main_v66)) := by
  after_results; rfl
theorem C_v74 (X : Valuation τ sig (Elt Ideal)) :
    StableHlo.after (hostOps2 (F := Ideal)) X (Proc.devRef .tc main_v74)
      = KSpec.segsum (KSpec.col (X (Proc.devRef .tc main_v1))) (KSpec.sliceRows (X (Proc.devRef .tc main_v67))) := by
  after_results; rfl
theorem C_v75 (X : Valuation τ sig (Elt Ideal)) :
    StableHlo.after (hostOps2 (F := Ideal)) X (Proc.devRef .tc main_v75) = KSpec.bias2 (X (Proc.devRef .tc main_arg7)) := by
  after_results; rfl
theorem C_arg0 (X : Valuation τ sig (Elt Ideal)) :
    StableHlo.after (hostOps2 (F := Ideal)) X (Proc.devRef .tc main_arg0) = X (Proc.devRef .tc main_arg0) := by
  after_results
theorem C_arg1 (X : Valuation τ sig (Elt Ideal)) :
    StableHlo.after (hostOps2 (F := Ideal)) X (Proc.devRef .tc main_arg1) = X (Proc.devRef .tc main_arg1) := by
  after_results
theorem C_arg2 (X : Valuation τ sig (Elt Ideal)) :
    StableHlo.after (hostOps2 (F := Ideal)) X (Proc.devRef .tc main_arg2) = X (Proc.devRef .tc main_arg2) := by
  after_results
theorem C_arg5 (X : Valuation τ sig (Elt Ideal)) :
    StableHlo.after (hostOps2 (F := Ideal)) X (Proc.devRef .tc main_arg5) = X (Proc.devRef .tc main_arg5) := by
  after_results
theorem C_arg6 (X : Valuation τ sig (Elt Ideal)) :
    StableHlo.after (hostOps2 (F := Ideal)) X (Proc.devRef .tc main_arg6) = X (Proc.devRef .tc main_arg6) := by
  after_results
theorem C_arg8 (X : Valuation τ sig (Elt Ideal)) :
    StableHlo.after (hostOps2 (F := Ideal)) X (Proc.devRef .tc main_arg8) = X (Proc.devRef .tc main_arg8) := by
  after_results
theorem C_arg9 (X : Valuation τ sig (Elt Ideal)) :
    StableHlo.after (hostOps2 (F := Ideal)) X (Proc.devRef .tc main_arg9) = X (Proc.devRef .tc main_arg9) := by
  after_results

/-- The buffer contents after the three host stretches between the combine region and the last region. -/
abbrev afterD (X : Valuation τ sig (Elt Ideal)) : Valuation τ sig (Elt Ideal) :=
  StableHlo.after hostOps3_2 (StableHlo.after hostOps3_1 (StableHlo.after hostOps3 X))

/-- Batch normalisation of the combine region's result. -/
theorem D_v95 (X : Valuation τ sig (Elt Ideal)) :
    afterD X (Proc.devRef .tc main_v95)
      = KSpec.tail (X (Proc.devRef .tc main_v76)) (X (Proc.devRef .tc main_arg8)) (X (Proc.devRef .tc main_arg9)) := by
  after_results_simp; rfl
theorem D_v96 (X : Valuation τ sig (Elt Ideal)) : afterD X (Proc.devRef .tc main_v96) = KSpec.wT (X (Proc.devRef .tc main_arg5)) := by
  after_results_simp; rfl
theorem D_arg1 (X : Valuation τ sig (Elt Ideal)) : afterD X (Proc.devRef .tc main_arg1) = X (Proc.devRef .tc main_arg1) := by
  after_results_simp

/-! ## The regions' values, as hypotheses -/

/-- The first message region's result array, at any entry contents. -/
abbrev RegionVal0 : Prop := ∀ (V : (c : Dev nD) → (b : Ref sig .tc) → Buf (Elt Ideal) ((c : Thread nD τ).loc b)) (c : Dev nD),
  (Gen.dat0 (F := Ideal) V c).arrAt 4 cfg0.N = KSpec.Gmsg (V c main_v59) (V c main_v60) (V c main_arg3) (V c main_v64)
/-- The second message region's result array, at any entry contents. -/
abbrev RegionVal1 : Prop := ∀ (V : (c : Dev nD) → (b : Ref sig .tc) → Buf (Elt Ideal) ((c : Thread nD τ).loc b)) (c : Dev nD),
  (Gen.dat1 (F := Ideal) V c).arrAt 4 cfg1.N = KSpec.Gmsg (V c main_v61) (V c main_v62) (V c main_arg4) (V c main_v64)
/-- The combine region's result array, at any entry contents. -/
abbrev RegionVal2 : Prop := ∀ (V : (c : Dev nD) → (b : Ref sig .tc) → Buf (Elt Ideal) ((c : Thread nD τ).loc b)) (c : Dev nD),
  (Gen.dat2 (F := Ideal) V c).arrAt 6 cfg2.N
    = KSpec.Gcomb (V c main_arg0) (V c main_arg6) (V c main_arg2) (V c main_v71) (V c main_v74) (V c main_v75)
/-- The relation-projection region's result array, at any entry contents. -/
abbrev RegionVal3 : Prop := ∀ (V : (c : Dev nD) → (b : Ref sig .tc) → Buf (Elt Ideal) ((c : Thread nD τ).loc b)) (c : Dev nD),
  (Gen.dat3 (F := Ideal) V c).arrAt 2 cfg3.N = KSpec.Grel (V c main_arg1) (V c main_v96)

theorem Gmsg_congr {a a' b b' : FVec Ideal S602112x128 .f32} {w w' : FVec Ideal S128x128 .f32} {e e' : FVec Ideal S602112x1 .f32}
    (h1 : a = a') (h2 : b = b') (h3 : w = w') (h4 : e = e') : KSpec.Gmsg a b w e = KSpec.Gmsg a' b' w' e' := by
  subst h1 h2 h3 h4; rfl
theorem Gcomb_congr {x x' : FVec Ideal S50000x128 .f32} {sl sl' : FVec Ideal S1x128 .f32} {w w' : FVec Ideal S128x128 .f32}
    {f f' b b' : FVec Ideal S50000x128 .f32} {bi bi' : FVec Ideal S1x128 .f32}
    (h1 : x = x') (h2 : sl = sl') (h3 : w = w') (h4 : f = f') (h5 : b = b') (h6 : bi = bi') :
    KSpec.Gcomb x sl w f b bi = KSpec.Gcomb x' sl' w' f' b' bi' := by
  subst h1 h2 h3 h4 h5 h6; rfl
theorem tail_congr {x x' : FVec Ideal S50000x128 .f32} {g g' b b' : FVec Ideal S128 .f32}
    (h1 : x = x') (h2 : g = g') (h3 : b = b') : KSpec.tail x g b = KSpec.tail x' g' b' := by
  subst h1 h2 h3; rfl
theorem Grel_congr {x x' : FVec Ideal S1000x128 .f32} {w w' : FVec Ideal S128x128 .f32}
    (h1 : x = x') (h2 : w = w') : KSpec.Grel x w = KSpec.Grel x' w' := by
  subst h1 h2; rfl

/-! ## The fold, boundary by boundary -/

variable (m : (ℓ : Loc nD τ sig) → Buf (Elt Ideal) ℓ) (ρ : Dev nD → PrngReg) (c : Dev nD)

set_option quotPrecheck false
local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)
local notation "a8" => m ((c : Thread nD τ).loc main_arg8)
local notation "a9" => m ((c : Thread nD τ).loc main_arg9)
local notation "a10" => m ((c : Thread nD τ).loc main_arg10)
local notation "a11" => m ((c : Thread nD τ).loc main_arg11)

/-! ### At the first region's entry -/

theorem W11_v59 : W11 m ρ c (Proc.devRef .tc main_v59) = KSpec.padRows (KSpec.rowsE a0 (KSpec.src a10)) :=
  (P_v59 (W1 m ρ c) (s0_c15 (W0 m ρ c))).trans (congrArg KSpec.padRows (s0_v35 (W0 m ρ c)))
theorem W11_v60 : W11 m ρ c (Proc.devRef .tc main_v60) = KSpec.padRows (KSpec.rowsR a1 (KSpec.et2 a11)) :=
  (P_v60 (W1 m ρ c)).trans (congrArg KSpec.padRows (s0_v49 (W0 m ρ c)))
theorem W11_v61 : W11 m ρ c (Proc.devRef .tc main_v61) = KSpec.padRows (KSpec.rowsE a0 (KSpec.tgt a10)) :=
  (P_v61 (W1 m ρ c)).trans (congrArg KSpec.padRows (s0_v42 (W0 m ρ c)))
theorem W11_v62 : W11 m ρ c (Proc.devRef .tc main_v62) = KSpec.padRows (KSpec.rowsR a1 (KSpec.et2p1 a11)) :=
  (P_v62 (W1 m ρ c)).trans (congrArg KSpec.padRows (s0_v58 (W0 m ρ c)))
theorem W11_v64 : W11 m ρ c (Proc.devRef .tc main_v64) = KSpec.ewCol a10 :=
  (P_v64 (W1 m ρ c)).trans
    (congrArg (fun x => shapeCast S602112x1 (KSpec.padVec x) Facts₀.shapeCasts_S602112_S602112x1) (s0_v28 (W0 m ρ c)))
theorem W11_v1 : W11 m ρ c (Proc.devRef .tc main_v1) = KSpec.src a10 := (P_v1 (W1 m ρ c)).trans (s0_v1 (W0 m ρ c))
theorem W11_v3 : W11 m ρ c (Proc.devRef .tc main_v3) = KSpec.tgt a10 := (P_v3 (W1 m ρ c)).trans (s0_v3 (W0 m ρ c))
theorem W11_arg0 : W11 m ρ c (Proc.devRef .tc main_arg0) = a0 := (P_arg0 (W1 m ρ c)).trans (s0_arg0 (W0 m ρ c))
theorem W11_arg1 : W11 m ρ c (Proc.devRef .tc main_arg1) = a1 := (P_arg1 (W1 m ρ c)).trans (s0_arg1 (W0 m ρ c))
theorem W11_arg2 : W11 m ρ c (Proc.devRef .tc main_arg2) = a2 := (P_arg2 (W1 m ρ c)).trans (s0_arg2 (W0 m ρ c))
theorem W11_arg3 : W11 m ρ c (Proc.devRef .tc main_arg3) = a3 := (P_arg3 (W1 m ρ c)).trans (s0_arg3 (W0 m ρ c))
theorem W11_arg4 : W11 m ρ c (Proc.devRef .tc main_arg4) = a4 := (P_arg4 (W1 m ρ c)).trans (s0_arg4 (W0 m ρ c))
theorem W11_arg5 : W11 m ρ c (Proc.devRef .tc main_arg5) = a5 := (P_arg5 (W1 m ρ c)).trans (s0_arg5 (W0 m ρ c))
theorem W11_arg6 : W11 m ρ c (Proc.devRef .tc main_arg6) = a6 := (P_arg6 (W1 m ρ c)).trans (s0_arg6 (W0 m ρ c))
theorem W11_arg7 : W11 m ρ c (Proc.devRef .tc main_arg7) = a7 := (P_arg7 (W1 m ρ c)).trans (s0_arg7 (W0 m ρ c))
theorem W11_arg8 : W11 m ρ c (Proc.devRef .tc main_arg8) = a8 := (P_arg8 (W1 m ρ c)).trans (s0_arg8 (W0 m ρ c))
theorem W11_arg9 : W11 m ρ c (Proc.devRef .tc main_arg9) = a9 := (P_arg9 (W1 m ρ c)).trans (s0_arg9 (W0 m ρ c))

/-! ### Through the two message regions -/

/-- A buffer that neither the first message region nor the stretch after it writes. -/
theorem W13_eq_W11 (b : Ref sig .tc) (h0 : ∀ w, Pipeline.arrRef spec0 w ≠ b) (h1 : b ≠ main_v66) :
    W13 m ρ c (Proc.devRef .tc b) = W11 m ρ c (Proc.devRef .tc b) :=
  (B_keep (W12 m ρ c) h1).trans (W12_of_ne m ρ c b h0)
/-- A buffer that nothing writes from the first region's entry to the second region's exit. -/
theorem W14_eq_W11 (b : Ref sig .tc) (h0 : ∀ w, Pipeline.arrRef spec0 w ≠ b) (h1 : b ≠ main_v66)
    (h2 : ∀ w, Pipeline.arrRef spec1 w ≠ b) : W14 m ρ c (Proc.devRef .tc b) = W11 m ρ c (Proc.devRef .tc b) :=
  (W14_of_ne m ρ c b h2).trans (W13_eq_W11 m ρ c b h0 h1)

/-- The edge-weight column is an input of the first message region: it leaves the region as it entered. -/
theorem W13_v64 : W13 m ρ c (Proc.devRef .tc main_v64) = KSpec.ewCol a10 :=
  (B_keep (W12 m ρ c) (by decide)).trans ((W12_arr m ρ c 3).trans
    ((((dat0 (V11 m ρ) c).arrAt_in 3 rfl _).trans (A_eq0 (V11 m ρ) c 3)).trans (W11_v64 m ρ c)))

theorem W12_v65 (hf0 : RegionVal0) :
    W12 m ρ c (Proc.devRef .tc main_v65)
      = KSpec.Gmsg (KSpec.padRows (KSpec.rowsE a0 (KSpec.src a10))) (KSpec.padRows (KSpec.rowsR a1 (KSpec.et2 a11))) a3 (KSpec.ewCol a10) :=
  (W12_arr m ρ c 4).trans ((hf0 (V11 m ρ) c).trans
    (Gmsg_congr (W11_v59 m ρ c) (W11_v60 m ρ c) (W11_arg3 m ρ c) (W11_v64 m ρ c)))

theorem W13_v66 (hf0 : RegionVal0) : W13 m ρ c (Proc.devRef .tc main_v66) = KSpec.msgFwd a0 a1 a3 a10 a11 :=
  (B_v66 (W12 m ρ c)).trans (congrArg KSpec.sliceRows (W12_v65 m ρ c hf0))

theorem W14_v67 (hf1 : RegionVal1) :
    W14 m ρ c (Proc.devRef .tc main_v67)
      = KSpec.Gmsg (KSpec.padRows (KSpec.rowsE a0 (KSpec.tgt a10))) (KSpec.padRows (KSpec.rowsR a1 (KSpec.et2p1 a11))) a4 (KSpec.ewCol a10) :=
  (W14_arr m ρ c 4).trans ((hf1 (V13 m ρ) c).trans
    (Gmsg_congr ((W13_eq_W11 m ρ c main_v61 (by decide) (by decide)).trans (W11_v61 m ρ c))
      ((W13_eq_W11 m ρ c main_v62 (by decide) (by decide)).trans (W11_v62 m ρ c))
      ((W13_eq_W11 m ρ c main_arg4 (by decide) (by decide)).trans (W11_arg4 m ρ c))
      (W13_v64 m ρ c)))

/-! ### At the combine region's entry -/

theorem W15_v71 (hf0 : RegionVal0) :
    W15 m ρ c (Proc.devRef .tc main_v71) = KSpec.segsum (KSpec.col (KSpec.tgt a10)) (KSpec.msgFwd a0 a1 a3 a10 a11) :=
  (C_v71 (W14 m ρ c)).trans (congrArg₂ (fun i x => KSpec.segsum (KSpec.col i) x)
    ((W14_eq_W11 m ρ c main_v3 (by decide) (by decide) (by decide)).trans (W11_v3 m ρ c))
    ((W14_of_ne m ρ c main_v66 (by decide)).trans (W13_v66 m ρ c hf0)))
theorem W15_v74 (hf1 : RegionVal1) :
    W15 m ρ c (Proc.devRef .tc main_v74) = KSpec.segsum (KSpec.col (KSpec.src a10)) (KSpec.msgBwd a0 a1 a4 a10 a11) :=
  (C_v74 (W14 m ρ c)).trans (congrArg₂ (fun i x => KSpec.segsum (KSpec.col i) (KSpec.sliceRows x))
    ((W14_eq_W11 m ρ c main_v1 (by decide) (by decide) (by decide)).trans (W11_v1 m ρ c))
    (W14_v67 m ρ c hf1))
theorem W15_v75 : W15 m ρ c (Proc.devRef .tc main_v75) = KSpec.bias2 a7 :=
  (C_v75 (W14 m ρ c)).trans (congrArg KSpec.bias2
    ((W14_eq_W11 m ρ c main_arg7 (by decide) (by decide) (by decide)).trans (W11_arg7 m ρ c)))
theorem W15_arg0 : W15 m ρ c (Proc.devRef .tc main_arg0) = a0 :=
  (C_arg0 (W14 m ρ c)).trans ((W14_eq_W11 m ρ c main_arg0 (by decide) (by decide) (by decide)).trans (W11_arg0 m ρ c))
theorem W15_arg1 : W15 m ρ c (Proc.devRef .tc main_arg1) = a1 :=
  (C_arg1 (W14 m ρ c)).trans ((W14_eq_W11 m ρ c main_arg1 (by decide) (by decide) (by decide)).trans (W11_arg1 m ρ c))
theorem W15_arg2 : W15 m ρ c (Proc.devRef .tc main_arg2) = a2 :=
  (C_arg2 (W14 m ρ c)).trans ((W14_eq_W11 m ρ c main_arg2 (by decide) (by decide) (by decide)).trans (W11_arg2 m ρ c))
theorem W15_arg5 : W15 m ρ c (Proc.devRef .tc main_arg5) = a5 :=
  (C_arg5 (W14 m ρ c)).trans ((W14_eq_W11 m ρ c main_arg5 (by decide) (by decide) (by decide)).trans (W11_arg5 m ρ c))
theorem W15_arg6 : W15 m ρ c (Proc.devRef .tc main_arg6) = a6 :=
  (C_arg6 (W14 m ρ c)).trans ((W14_eq_W11 m ρ c main_arg6 (by decide) (by decide) (by decide)).trans (W11_arg6 m ρ c))
theorem W15_arg8 : W15 m ρ c (Proc.devRef .tc main_arg8) = a8 :=
  (C_arg8 (W14 m ρ c)).trans ((W14_eq_W11 m ρ c main_arg8 (by decide) (by decide) (by decide)).trans (W11_arg8 m ρ c))
theorem W15_arg9 : W15 m ρ c (Proc.devRef .tc main_arg9) = a9 :=
  (C_arg9 (W14 m ρ c)).trans ((W14_eq_W11 m ρ c main_arg9 (by decide) (by decide) (by decide)).trans (W11_arg9 m ρ c))

/-! ### The combine region, batch normalisation, the relation projection -/

theorem W16_v76 (hf0 : RegionVal0) (hf1 : RegionVal1) (hf2 : RegionVal2) :
    W16 m ρ c (Proc.devRef .tc main_v76) = KSpec.comb a0 a1 a2 a3 a4 a6 a7 a10 a11 :=
  (W16_arr m ρ c 6).trans ((hf2 (V15 m ρ) c).trans
    (Gcomb_congr (W15_arg0 m ρ c) (W15_arg6 m ρ c) (W15_arg2 m ρ c) (W15_v71 m ρ c hf0) (W15_v74 m ρ c hf1) (W15_v75 m ρ c)))

/-- The first result: the layer's output, batch-normalised. -/
theorem out0_K (hf0 : RegionVal0) (hf1 : RegionVal1) (hf2 : RegionVal2) :
    Gen.W20 (F := Ideal) m ρ c (Proc.devRef .tc main_v95) = KSpec.tail (KSpec.comb a0 a1 a2 a3 a4 a6 a7 a10 a11) a8 a9 :=
  (W20_of_ne m ρ c main_v95 (by decide)).trans ((D_v95 (W16 m ρ c)).trans
    (tail_congr (W16_v76 m ρ c hf0 hf1 hf2)
      ((W16_of_ne m ρ c main_arg8 (by decide)).trans (W15_arg8 m ρ c))
      ((W16_of_ne m ρ c main_arg9 (by decide)).trans (W15_arg9 m ρ c))))

/-- The second result: the new relation embeddings. -/
theorem out1_K (hf3 : RegionVal3) :
    Gen.W20 (F := Ideal) m ρ c (Proc.devRef .tc main_v97) = KSpec.rel a1 a5 :=
  (W20_arr m ρ c 2).trans ((hf3 (V19 m ρ) c).trans
    (Grel_congr ((D_arg1 (W16 m ρ c)).trans ((W16_of_ne m ρ c main_arg1 (by decide)).trans (W15_arg1 m ρ c)))
      ((D_v96 (W16 m ρ c)).trans (congrArg KSpec.wT ((W16_of_ne m ρ c main_arg5 (by decide)).trans (W15_arg5 m ρ c))))))

end Cert.KernelIdeal.HandRun

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.MsgPay.lean ====
/-
  The message regions' block product read at an index: entry (p, q) of the block is the sum over the
  contracted coordinate k of ((xs p k − xr p k) · ew p) · W k q. The format changes on the way into the
  product and the casts to the same shape are the identity at the extended reals; the weight column is laid
  along the rows; the product accumulates into zero.
-/
import proofs.«137193_j39762807226645_2_alg».proof.Proof.Gen.KernelIdeal.Frame
import proofs.«137193_j39762807226645_2_alg».proof.Proof.KSpec
import proofs.«137193_j39762807226645_2_alg».proof.Proof.LibColumn

set_option maxRecDepth 16384

noncomputable section

namespace Cert.KernelIdeal.RegVal

open Cert.KernelIdeal Cert.KernelIdeal.Facts₀ Cert.KernelIdeal.Facts Idealize.ShloMosaic Idealize.ShloMosaic.ValueIdx
open scoped BigOperators

/-- A [4096,128] by [128,128] product accumulated into zero, at (p, q): the sum over the contracted coordinate. -/
theorem matmul_zero_at {φ₁ φ₂ : FTy} (A : FVec Ideal S4096x128 φ₁) (B : FVec Ideal S128x128 φ₂) (p : Fin 4096) (q : Fin 128) :
    FloatOps.matmul dot_S4096x128_S128x128_S4096x128_1_0_0_1_n_n none A B (constant (F := Ideal) S4096x128 .f32 0x00000000#32) (ix2 p q)
      = ∑ k : Fin 128, A (ix2 p k) * B (ix2 k q) := by
  rw [Ideal.matmul_constant_zero_apply,
    ← Equiv.sum_comp (contrEquiv1 dot_S4096x128_S128x128_S4096x128_1_0_0_1_n_n 128 rfl rfl).symm]
  refine Finset.sum_congr rfl fun c _ => ?_
  have c2 := contrEquiv1_symm_val dot_S4096x128_S128x128_S4096x128_1_0_0_1_n_n 128 rfl rfl c
  have l2 : dot_S4096x128_S128x128_S4096x128_1_0_0_1_n_n.lhsIdx (ix2 p q) ((contrEquiv1 _ 128 rfl rfl).symm c) = ix2 p c := by
    funext ax; apply Fin.ext
    match ax with
    | ⟨0, _⟩ => simp [DotDims.lhsIdx, dot_S4096x128_S128x128_S4096x128_1_0_0_1_n_n]; rfl
    | ⟨1, _⟩ => simp [DotDims.lhsIdx, dot_S4096x128_S128x128_S4096x128_1_0_0_1_n_n]; exact c2
  have r2 : dot_S4096x128_S128x128_S4096x128_1_0_0_1_n_n.rhsIdx (ix2 p q) ((contrEquiv1 _ 128 rfl rfl).symm c) = ix2 c q := by
    funext ax; apply Fin.ext
    match ax with
    | ⟨0, _⟩ => simp [DotDims.rhsIdx, dot_S4096x128_S128x128_S4096x128_1_0_0_1_n_n]; exact c2
    | ⟨1, _⟩ => simp [DotDims.rhsIdx, dot_S4096x128_S128x128_S4096x128_1_0_0_1_n_n]; rfl
  rw [l2, r2]

/-- The first message region's block product at (p, q). -/
theorem pay0_apply (v0 v2 : Vec Ideal S4096x128 .f32) (v5 : Vec Ideal S4096x1 .f32) (v10 : Vec Ideal S128x128 .f32)
    (p : Fin 4096) (q : Fin 128) :
    Gen.k0_pay1 (F := Ideal) v0 v2 v5 v10 (ix2 p q)
      = ∑ k : Fin 128, ((v0 (ix2 p k) - v2 (ix2 p k)) * v5 (ix2 p (0 : Fin 1))) * v10 (ix2 k q) := by
  unfold Gen.k0_pay1
  refine (matmul_zero_at _ _ p q).trans ?_
  refine Finset.sum_congr rfl fun k _ => ?_
  rw [truncf_apply, truncf_apply, mulf_apply, subf_apply, shapeCast_self, shapeCast_self, shapeCast_self,
    Cert.Lib.broadcastTo_a1_ab_apply]

/-- The second message region's block product at (p, q). -/
theorem pay1_apply (v0 v2 : Vec Ideal S4096x128 .f32) (v5 : Vec Ideal S4096x1 .f32) (v10 : Vec Ideal S128x128 .f32)
    (p : Fin 4096) (q : Fin 128) :
    Gen.k1_pay1 (F := Ideal) v0 v2 v5 v10 (ix2 p q)
      = ∑ k : Fin 128, ((v0 (ix2 p k) - v2 (ix2 p k)) * v5 (ix2 p (0 : Fin 1))) * v10 (ix2 k q) := by
  unfold Gen.k1_pay1
  refine (matmul_zero_at _ _ p q).trans ?_
  refine Finset.sum_congr rfl fun k _ => ?_
  rw [truncf_apply, truncf_apply, mulf_apply, subf_apply, shapeCast_self, shapeCast_self, shapeCast_self,
    Cert.Lib.broadcastTo_a1_ab_apply]

end Cert.KernelIdeal.RegVal

end
-- ==== Proof.Msg0Value.lean ====
/-
  The first message region's result array. Every grid point writes back one block of 4096 rows: entry
  (p, q) of the block product over the staged blocks is entry (4096 t + p, q) of the message array, whose row r
  is ((xs r − xr r) · ew r) times the weight matrix. The 147 blocks cover the 602112 padded rows, so after the
  region the result array is the message array of the operand arrays.
-/
import proofs.«137193_j39762807226645_2_alg».proof.Proof.MsgPay
import Idealize.ShloMosaic.Lib.Pipeline.Value

set_option maxRecDepth 16384

noncomputable section

namespace Cert.KernelIdeal.RegVal

open Cert.KernelIdeal Cert.KernelIdeal.Gen Cert.KernelIdeal.Facts₀ Cert.KernelIdeal.Facts
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The staged blocks are read at zero offsets. -/
theorem zero_offsets0 : (![0, 0] : Fin 2 → Nat) = fun _ => 0 := funext fun a => by fin_cases a <;> rfl

/-- The index maps, decided over the grid: the two row operands, the weight column and the result move with the
    grid point along the rows and stay at column block 0; the weight matrix stays at block (0, 0). -/
theorem index_maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- One entry of a block product against the message array: when the blocks' rows p and columns q are the arrays'
    rows r and columns s, entry (p, q) of the block product is entry (r, s) of the message array. -/
theorem entry0 (xs xr : FVec Ideal S602112x128 .f32) (w : FVec Ideal S128x128 .f32) (ewc : FVec Ideal S602112x1 .f32)
    (b0 b1 : Vec Ideal S4096x128 .f32) (b2 : Vec Ideal S128x128 .f32) (b3 : Vec Ideal S4096x1 .f32)
    (p : Fin 4096) (q : Fin 128) (r : Fin 602112) (s : Fin 128)
    (h0 : ∀ k : Fin 128, b0 (ix2 p k) = xs (ix2 r k))
    (h1 : ∀ k : Fin 128, b1 (ix2 p k) = xr (ix2 r k))
    (h2 : ∀ k : Fin 128, b2 (ix2 k q) = w (ix2 k s))
    (h3 : b3 (ix2 p (0 : Fin 1)) = ewc (ix2 r (0 : Fin 1))) :
    Gen.k0_pay1 (F := Ideal) b0 b1 b3 b2 (ix2 p q) = KSpec.Gmsg xs xr w ewc (ix2 r s) := by
  rw [pay0_apply]
  show _ = ∑ k : Fin 128, ((xs (ix2 r k) - xr (ix2 r k)) * ewc (ix2 r (0 : Fin 1))) * w (ix2 k s)
  refine Finset.sum_congr rfl fun k _ => ?_
  rw [h0 k, h1 k, h2 k, h3]

/-- What grid point t writes back is block t of the message array of the operand arrays as the region finds them. -/
theorem written0 (c : Dev nD) (t : Fin cfg0.N) :
    (dat0 (F := Ideal) V c).flushed 4 t
      = ((cfg0.win 4).blk t).view.read (Elt Ideal) (KSpec.Gmsg (V c main_v59) (V c main_v60) (V c main_arg3) (V c main_v64)) := by
  show (cfg0.win 4).cut (grid0.coords t) ((dat0 V c).after 4 t) = _
  rw [after0_4]
  unfold out0_4
  rw [View.canon_unit_zero zero_offsets0]
  simp only [View.ld_unit_zero (S := S4096x128) zero_offsets0, View.ld_unit_zero (S := S4096x1) zero_offsets0,
    View.ld_unit_zero (S := S128x128) zero_offsets0]
  obtain ⟨e00, e01, e10, e11, e20, e21, e30, e31, e40, e41⟩ := index_maps0 t
  funext j
  obtain ⟨p, q, rfl⟩ : ∃ (p : Fin 4096) (q : Fin 128), j = ix2 p q := ⟨j 0, j 1, eq_ix2 j⟩
  show k0_pay1 (iblk0 V c 0 t) (iblk0 V c 1 t) (iblk0 V c 3 t) (iblk0 V c 2 t) (ix2 p q)
      = KSpec.Gmsg (V c main_v59) (V c main_v60) (V c main_arg3) (V c main_v64) (((cfg0.win 4).blk t).view.emb (ix2 p q))
  have hr : ((((cfg0.win 4).blk t).view.emb (ix2 p q)) 0).val = win0_4.index t (0 : Fin 2) * 4096 + 1 * p.val := rfl
  have hs : ((((cfg0.win 4).blk t).view.emb (ix2 p q)) 1).val = win0_4.index t (1 : Fin 2) * 128 + 1 * q.val := rfl
  refine (entry0 (V c main_v59) (V c main_v60) (V c main_arg3) (V c main_v64) (iblk0 V c 0 t) (iblk0 V c 1 t) (iblk0 V c 2 t)
    (iblk0 V c 3 t) p q ((((cfg0.win 4).blk t).view.emb (ix2 p q)) 0) ((((cfg0.win 4).blk t).view.emb (ix2 p q)) 1) (fun k => ?_) (fun k => ?_) (fun k => ?_) ?_).trans
    (congrArg (KSpec.Gmsg (V c main_v59) (V c main_v60) (V c main_arg3) (V c main_v64)) (eq_ix2 (((cfg0.win 4).blk t).view.emb (ix2 p q))).symm)
  · show V c main_v59 (((cfg0.win 0).blk t).view.emb (ix2 p k)) = V c main_v59 (ix2 ((((cfg0.win 4).blk t).view.emb (ix2 p q)) 0) k)
    refine congrArg _ (funext fun a => Fin.ext ?_)
    match a with
    | ⟨0, _⟩ => show win0_0.index t (0 : Fin 2) * 4096 + 1 * p.val = ((((cfg0.win 4).blk t).view.emb (ix2 p q)) 0).val; rw [hr]; omega
    | ⟨1, _⟩ => show win0_0.index t (1 : Fin 2) * 128 + 1 * k.val = k.val; omega
  · show V c main_v60 (((cfg0.win 1).blk t).view.emb (ix2 p k)) = V c main_v60 (ix2 ((((cfg0.win 4).blk t).view.emb (ix2 p q)) 0) k)
    refine congrArg _ (funext fun a => Fin.ext ?_)
    match a with
    | ⟨0, _⟩ => show win0_1.index t (0 : Fin 2) * 4096 + 1 * p.val = ((((cfg0.win 4).blk t).view.emb (ix2 p q)) 0).val; rw [hr]; omega
    | ⟨1, _⟩ => show win0_1.index t (1 : Fin 2) * 128 + 1 * k.val = k.val; omega
  · show V c main_arg3 (((cfg0.win 2).blk t).view.emb (ix2 k q)) = V c main_arg3 (ix2 k ((((cfg0.win 4).blk t).view.emb (ix2 p q)) 1))
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = ((((cfg0.win 4).blk t).view.emb (ix2 p q)) 1).val; rw [hs]; omega
  · show V c main_v64 (((cfg0.win 3).blk t).view.emb (ix2 p (0 : Fin 1))) = V c main_v64 (ix2 ((((cfg0.win 4).blk t).view.emb (ix2 p q)) 0) (0 : Fin 1))
    refine congrArg _ (funext fun a => Fin.ext ?_)
    match a with
    | ⟨0, _⟩ => show win0_3.index t (0 : Fin 2) * 4096 + 1 * p.val = ((((cfg0.win 4).blk t).view.emb (ix2 p q)) 0).val; rw [hr]; omega
    | ⟨1, _⟩ => show win0_3.index t (1 : Fin 2) * 1 + 1 * 0 = 0; omega

/-- An index of the result array is in grid point t's block iff each coordinate is in the block's range on its axis. -/
theorem mem_block0 (t : Fin cfg0.N) (i : S602112x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v65).slice (win0_4.rect t)).set ↔ _
  rw [View.set_slice_whole, Rect.mem_set_unit]
  exact Iff.rfl

/-- The result array after the region: the 147 blocks of 4096 rows cover its 602112 rows (row r is in the block of
    grid point r / 4096), so it is the message array of the operand arrays as the region finds them. -/
theorem final0 (c : Dev nD) :
    (dat0 (F := Ideal) V c).arrAt 4 cfg0.N = KSpec.Gmsg (V c main_v59) (V c main_v60) (V c main_arg3) (V c main_v64) :=
  (dat0 V c).arrAt_eq_of_cover 4 (KSpec.Gmsg (V c main_v59) (V c main_v60) (V c main_arg3) (V c main_v64)) (fun t _ => written0 V c t) fun i => by
    have hi0 : (i 0).val < 602112 := (i 0).isLt
    have hi1 : (i 1).val < 128 := (i 1).isLt
    have hN : cfg0.N = 147 := N_0
    have ht : (i 0).val / 4096 < cfg0.N := by rw [hN]; omega
    obtain ⟨t, htv⟩ : ∃ t : Fin cfg0.N, t.val = (i 0).val / 4096 := ⟨⟨_, ht⟩, rfl⟩
    obtain ⟨e00, e01, e10, e11, e20, e21, e30, e31, e40, e41⟩ := index_maps0 t
    refine ⟨t, flush0_4 t, ?_⟩
    rw [mem_block0]
    intro a
    match a with
    | ⟨0, _⟩ =>
      show win0_4.index t (0 : Fin 2) * 4096 ≤ (i 0).val ∧ (i 0).val < win0_4.index t (0 : Fin 2) * 4096 + 4096
      omega
    | ⟨1, _⟩ =>
      show win0_4.index t (1 : Fin 2) * 128 ≤ (i 1).val ∧ (i 1).val < win0_4.index t (1 : Fin 2) * 128 + 128
      omega

end Cert.KernelIdeal.RegVal

end
-- ==== Proof.Msg1Value.lean ====
/-
  The second message region's result array. Every grid point writes back one block of 4096 rows: entry
  (p, q) of the block product over the staged blocks is entry (4096 t + p, q) of the message array, whose row r
  is ((xs r − xr r) · ew r) times the weight matrix. The 147 blocks cover the 602112 padded rows, so after the
  region the result array is the message array of the operand arrays.
-/
import proofs.«137193_j39762807226645_2_alg».proof.Proof.MsgPay
import Idealize.ShloMosaic.Lib.Pipeline.Value

set_option maxRecDepth 16384

noncomputable section

namespace Cert.KernelIdeal.RegVal

open Cert.KernelIdeal Cert.KernelIdeal.Gen Cert.KernelIdeal.Facts₀ Cert.KernelIdeal.Facts
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The staged blocks are read at zero offsets. -/
theorem zero_offsets1 : (![0, 0] : Fin 2 → Nat) = fun _ => 0 := funext fun a => by fin_cases a <;> rfl

/-- The index maps, decided over the grid: the two row operands, the weight column and the result move with the
    grid point along the rows and stay at column block 0; the weight matrix stays at block (0, 0). -/
theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- One entry of a block product against the message array: when the blocks' rows p and columns q are the arrays'
    rows r and columns s, entry (p, q) of the block product is entry (r, s) of the message array. -/
theorem entry1 (xs xr : FVec Ideal S602112x128 .f32) (w : FVec Ideal S128x128 .f32) (ewc : FVec Ideal S602112x1 .f32)
    (b0 b1 : Vec Ideal S4096x128 .f32) (b2 : Vec Ideal S128x128 .f32) (b3 : Vec Ideal S4096x1 .f32)
    (p : Fin 4096) (q : Fin 128) (r : Fin 602112) (s : Fin 128)
    (h0 : ∀ k : Fin 128, b0 (ix2 p k) = xs (ix2 r k))
    (h1 : ∀ k : Fin 128, b1 (ix2 p k) = xr (ix2 r k))
    (h2 : ∀ k : Fin 128, b2 (ix2 k q) = w (ix2 k s))
    (h3 : b3 (ix2 p (0 : Fin 1)) = ewc (ix2 r (0 : Fin 1))) :
    Gen.k1_pay1 (F := Ideal) b0 b1 b3 b2 (ix2 p q) = KSpec.Gmsg xs xr w ewc (ix2 r s) := by
  rw [pay1_apply]
  show _ = ∑ k : Fin 128, ((xs (ix2 r k) - xr (ix2 r k)) * ewc (ix2 r (0 : Fin 1))) * w (ix2 k s)
  refine Finset.sum_congr rfl fun k _ => ?_
  rw [h0 k, h1 k, h2 k, h3]

/-- What grid point t writes back is block t of the message array of the operand arrays as the region finds them. -/
theorem written1 (c : Dev nD) (t : Fin cfg1.N) :
    (dat1 (F := Ideal) V c).flushed 4 t
      = ((cfg1.win 4).blk t).view.read (Elt Ideal) (KSpec.Gmsg (V c main_v61) (V c main_v62) (V c main_arg4) (V c main_v64)) := by
  show (cfg1.win 4).cut (grid1.coords t) ((dat1 V c).after 4 t) = _
  rw [after1_4]
  unfold out1_4
  rw [View.canon_unit_zero zero_offsets1]
  simp only [View.ld_unit_zero (S := S4096x128) zero_offsets1, View.ld_unit_zero (S := S4096x1) zero_offsets1,
    View.ld_unit_zero (S := S128x128) zero_offsets1]
  obtain ⟨e00, e01, e10, e11, e20, e21, e30, e31, e40, e41⟩ := index_maps1 t
  funext j
  obtain ⟨p, q, rfl⟩ : ∃ (p : Fin 4096) (q : Fin 128), j = ix2 p q := ⟨j 0, j 1, eq_ix2 j⟩
  show k1_pay1 (iblk1 V c 0 t) (iblk1 V c 1 t) (iblk1 V c 3 t) (iblk1 V c 2 t) (ix2 p q)
      = KSpec.Gmsg (V c main_v61) (V c main_v62) (V c main_arg4) (V c main_v64) (((cfg1.win 4).blk t).view.emb (ix2 p q))
  have hr : ((((cfg1.win 4).blk t).view.emb (ix2 p q)) 0).val = win1_4.index t (0 : Fin 2) * 4096 + 1 * p.val := rfl
  have hs : ((((cfg1.win 4).blk t).view.emb (ix2 p q)) 1).val = win1_4.index t (1 : Fin 2) * 128 + 1 * q.val := rfl
  refine (entry1 (V c main_v61) (V c main_v62) (V c main_arg4) (V c main_v64) (iblk1 V c 0 t) (iblk1 V c 1 t) (iblk1 V c 2 t)
    (iblk1 V c 3 t) p q ((((cfg1.win 4).blk t).view.emb (ix2 p q)) 0) ((((cfg1.win 4).blk t).view.emb (ix2 p q)) 1) (fun k => ?_) (fun k => ?_) (fun k => ?_) ?_).trans
    (congrArg (KSpec.Gmsg (V c main_v61) (V c main_v62) (V c main_arg4) (V c main_v64)) (eq_ix2 (((cfg1.win 4).blk t).view.emb (ix2 p q))).symm)
  · show V c main_v61 (((cfg1.win 0).blk t).view.emb (ix2 p k)) = V c main_v61 (ix2 ((((cfg1.win 4).blk t).view.emb (ix2 p q)) 0) k)
    refine congrArg _ (funext fun a => Fin.ext ?_)
    match a with
    | ⟨0, _⟩ => show win1_0.index t (0 : Fin 2) * 4096 + 1 * p.val = ((((cfg1.win 4).blk t).view.emb (ix2 p q)) 0).val; rw [hr]; omega
    | ⟨1, _⟩ => show win1_0.index t (1 : Fin 2) * 128 + 1 * k.val = k.val; omega
  · show V c main_v62 (((cfg1.win 1).blk t).view.emb (ix2 p k)) = V c main_v62 (ix2 ((((cfg1.win 4).blk t).view.emb (ix2 p q)) 0) k)
    refine congrArg _ (funext fun a => Fin.ext ?_)
    match a with
    | ⟨0, _⟩ => show win1_1.index t (0 : Fin 2) * 4096 + 1 * p.val = ((((cfg1.win 4).blk t).view.emb (ix2 p q)) 0).val; rw [hr]; omega
    | ⟨1, _⟩ => show win1_1.index t (1 : Fin 2) * 128 + 1 * k.val = k.val; omega
  · show V c main_arg4 (((cfg1.win 2).blk t).view.emb (ix2 k q)) = V c main_arg4 (ix2 k ((((cfg1.win 4).blk t).view.emb (ix2 p q)) 1))
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = ((((cfg1.win 4).blk t).view.emb (ix2 p q)) 1).val; rw [hs]; omega
  · show V c main_v64 (((cfg1.win 3).blk t).view.emb (ix2 p (0 : Fin 1))) = V c main_v64 (ix2 ((((cfg1.win 4).blk t).view.emb (ix2 p q)) 0) (0 : Fin 1))
    refine congrArg _ (funext fun a => Fin.ext ?_)
    match a with
    | ⟨0, _⟩ => show win1_3.index t (0 : Fin 2) * 4096 + 1 * p.val = ((((cfg1.win 4).blk t).view.emb (ix2 p q)) 0).val; rw [hr]; omega
    | ⟨1, _⟩ => show win1_3.index t (1 : Fin 2) * 1 + 1 * 0 = 0; omega

/-- An index of the result array is in grid point t's block iff each coordinate is in the block's range on its axis. -/
theorem mem_block1 (t : Fin cfg1.N) (i : S602112x128.Idx) :
    i ∈ ((cfg1.win 4).blk t).view.set ↔ ∀ a : Fin 2, win1_4.index t a * S4096x128.size a ≤ (i a).val
      ∧ (i a).val < win1_4.index t a * S4096x128.size a + S4096x128.size a := by
  show i ∈ ((View.whole main_v67).slice (win1_4.rect t)).set ↔ _
  rw [View.set_slice_whole, Rect.mem_set_unit]
  exact Iff.rfl

/-- The result array after the region: the 147 blocks of 4096 rows cover its 602112 rows (row r is in the block of
    grid point r / 4096), so it is the message array of the operand arrays as the region finds them. -/
theorem final1 (c : Dev nD) :
    (dat1 (F := Ideal) V c).arrAt 4 cfg1.N = KSpec.Gmsg (V c main_v61) (V c main_v62) (V c main_arg4) (V c main_v64) :=
  (dat1 V c).arrAt_eq_of_cover 4 (KSpec.Gmsg (V c main_v61) (V c main_v62) (V c main_arg4) (V c main_v64)) (fun t _ => written1 V c t) fun i => by
    have hi0 : (i 0).val < 602112 := (i 0).isLt
    have hi1 : (i 1).val < 128 := (i 1).isLt
    have hN : cfg1.N = 147 := N_1
    have ht : (i 0).val / 4096 < cfg1.N := by rw [hN]; omega
    obtain ⟨t, htv⟩ : ∃ t : Fin cfg1.N, t.val = (i 0).val / 4096 := ⟨⟨_, ht⟩, rfl⟩
    obtain ⟨e00, e01, e10, e11, e20, e21, e30, e31, e40, e41⟩ := index_maps1 t
    refine ⟨t, flush1_4 t, ?_⟩
    rw [mem_block1]
    intro a
    match a with
    | ⟨0, _⟩ =>
      show win1_4.index t (0 : Fin 2) * 4096 ≤ (i 0).val ∧ (i 0).val < win1_4.index t (0 : Fin 2) * 4096 + 4096
      omega
    | ⟨1, _⟩ =>
      show win1_4.index t (1 : Fin 2) * 128 ≤ (i 1).val ∧ (i 1).val < win1_4.index t (1 : Fin 2) * 128 + 128
      omega

end Cert.KernelIdeal.RegVal

end
-- ==== Proof.MatmulAt.lean ====
/-
  A matrix product accumulated into the zero matrix, read at one entry at the extended reals: the entry (p, q) of
  A · B is the sum over the contracted coordinate k of A(p, k) · B(k, q).
-/
import Idealize.ShloMosaic.PureOps.Ideal
import Idealize.ShloMosaic.PureOps.Ideal.Laws
import Idealize.ShloMosaic.Lib.ValueIdx

noncomputable section

namespace Cert.KernelIdeal.RegVal

open Idealize.ShloMosaic Idealize.ShloMosaic.ValueIdx
open scoped BigOperators

/-- The product of an M×K by a K×N matrix (rows of the left times columns of the right, no batch axis) into the
    zero accumulator, at the entry (p, q): the sum over k of A(p, k) · B(k, q). -/
theorem matmul_zero_ix2 {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (p : Fin M) (q : Fin N) :
    matmul (⟨[1], [0], [0], [1], [], [], w⟩ : DotDims _ _ _) prec A B (constant (F := Ideal) ⟨2, ![M, N]⟩ .f32 0x00000000#32) (ix2 p q)
      = ∑ k : Fin K, A (ix2 p k) * B (ix2 k q) := by
  show FloatOps.matmul _ prec A B _ (ix2 p q) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 p q)
      ((contrEquiv1 _ K rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 p q)
      ((contrEquiv1 _ K rfl rfl).symm c) = ix2 c q := by
    funext ax; apply Fin.ext
    match ax with
    | ⟨0, _⟩ => simp [DotDims.rhsIdx]; exact c2
    | ⟨1, _⟩ => simp [DotDims.rhsIdx]; rfl
  rw [l2, r2]

end Cert.KernelIdeal.RegVal

end
-- ==== Proof.CombValue.lean ====
/-
  The combine region's result array: ((x − self_loop) · W + fwd + bwd) · (1/3) + bias, entry by entry, the
  matrix product as the sum over the contracted coordinate.
-/
import proofs.«137193_j39762807226645_2_alg».proof.Proof.Gen.KernelIdeal.Frame
import proofs.«137193_j39762807226645_2_alg».proof.Proof.KSpec
import proofs.«137193_j39762807226645_2_alg».proof.Proof.MatmulAt
import Idealize.ShloMosaic.Lib.ValueLayout

noncomputable section

namespace Cert.KernelIdeal.RegVal

open Cert.KernelIdeal Cert.KernelIdeal.Facts₀ Cert.KernelIdeal.Facts Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem zero_offsets2 : (![0, 0] : Fin 2 → Nat) = fun _ => 0 := funext fun a => by fin_cases a <;> rfl

/-- The named constant is one third. -/
theorem inv3_eq : Named.named (F := Ideal) Cert.KernelIdeal.κ "inv_3" (φ := .f32) 0x3EAAAAAB#32 = ((1 / 3 : ℝ) : EReal) :=
  IdealRules.named_const.ideal_named_scalar _ _ _ _ rfl

/-- The product of the centred block with the weight at the entry (p, q): the self-loop row is subtracted from
    every row before the product; the narrowing of the operands is the identity on extended reals. -/
theorem centred_matmul_at (v0 : Vec Ideal S2000x128 .f32) (v1 : Vec Ideal S1x128 .f32) (v5 : Vec Ideal S128x128 .f32)
    (p : Fin 2000) (q : Fin 128) :
    matmul dot_S2000x128_S128x128_S2000x128_1_0_0_1_n_n none
        (truncf .bf16 (subf v0 (broadcastTo S2000x128 v1 broadcasts_S1x128_S2000x128)) bitsLt_bf16_f32)
        (truncf .bf16 v5 bitsLt_bf16_f32) (constant (F := Ideal) S2000x128 .f32 0x00000000#32) (ix2 p q)
      = ∑ k : Fin 128, (v0 (ix2 p k) - v1 (ix2 (0 : Fin 1) k)) * v5 (ix2 k q) := by
  refine (matmul_zero_ix2 dot_S2000x128_S128x128_S2000x128_1_0_0_1_n_n_wf none _ _ p q).trans ?_
  refine Finset.sum_congr rfl fun k _ => ?_
  show (v0 (ix2 p k) - broadcastTo S2000x128 v1 broadcasts_S1x128_S2000x128 (ix2 p k)) * v5 (ix2 k q) = _
  rw [broadcastTo_1b_ab_apply]

/-- The region's stored value at the entry (p, q). -/
theorem combine_at (v0 : Vec Ideal S2000x128 .f32) (v1 : Vec Ideal S1x128 .f32) (v5 : Vec Ideal S128x128 .f32)
    (v8 v11 : Vec Ideal S2000x128 .f32) (v16 : Vec Ideal S1x128 .f32) (p : Fin 2000) (q : Fin 128) :
    Gen.k2_pay1 (F := Ideal) v0 v1 v5 v8 v11 v16 (ix2 p q)
      = ((∑ k : Fin 128, (v0 (ix2 p k) - v1 (ix2 (0 : Fin 1) k)) * v5 (ix2 k q)) + v8 (ix2 p q) + v11 (ix2 p q))
          * ((1 / 3 : ℝ) : EReal) + v16 (ix2 (0 : Fin 1) q) := by
  unfold Gen.k2_pay1
  simp only [shapeCast_self, addf_apply, mulf_apply, broadcast_apply]
  rw [centred_matmul_at, inv3_eq, broadcastTo_1b_ab_apply]

/-- The same at any index of the block. -/
theorem combine_eq (v0 : Vec Ideal S2000x128 .f32) (v1 : Vec Ideal S1x128 .f32) (v5 : Vec Ideal S128x128 .f32)
    (v8 v11 : Vec Ideal S2000x128 .f32) (v16 : Vec Ideal S1x128 .f32) (j : S2000x128.Idx) :
    Gen.k2_pay1 (F := Ideal) v0 v1 v5 v8 v11 v16 j
      = ((∑ k : Fin 128, (v0 (ix2 (j 0) k) - v1 (ix2 (0 : Fin 1) k)) * v5 (ix2 k (j 1))) + v8 j + v11 j)
          * ((1 / 3 : ℝ) : EReal) + v16 (ix2 (0 : Fin 1) (j 1)) := by
  obtain ⟨p, q, rfl⟩ : ∃ (p : Fin 2000) (q : Fin 128), j = ix2 p q := ⟨j 0, j 1, eq_ix2 j⟩
  exact combine_at v0 v1 v5 v8 v11 v16 p q

/-- The index maps over the grid: the row-blocked windows (the embeddings, the two message sums, the result) are
    at row block t at point t; the self-loop row, the weight and the bias stay at block (0, 0). -/
theorem comb_index : ∀ t : Fin cfg2.N, win2_6.index t (0 : Fin 2) = t.val ∧ win2_6.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0 :=
  (by decide +kernel : ∀ t : Fin grid2.N, _)

/-- The embeddings' block at point t read at (r, k) is the array at (2000 t + r, k). -/
theorem comb_read0 (c : Dev nD) (t : Fin cfg2.N) (y : S2000x128.Idx) (i : S50000x128.Idx)
    (h0 : (i 0).val = t.val * 2000 + (y 0).val) (h1 : (i 1).val = (y 1).val) :
    Gen.iblk2 V c 0 t y = V c main_arg0 i := by
  obtain ⟨-, -, e0, e1, -⟩ := comb_index t
  unfold Gen.iblk2
  rw [View.read_apply]
  show V c main_arg0 _ = V c main_arg0 _
  refine congrArg _ (funext fun a => Fin.ext ?_)
  match a with
  | ⟨0, _⟩ => show win2_0.index t (0 : Fin 2) * 2000 + 1 * (y 0).val = (i 0).val; omega
  | ⟨1, _⟩ => show win2_0.index t (1 : Fin 2) * 128 + 1 * (y 1).val = (i 1).val; omega

/-- The self-loop row's block read at an index is the array there. -/
theorem comb_read1 (c : Dev nD) (t : Fin cfg2.N) (y i : S1x128.Idx)
    (h0 : (i 0).val = (y 0).val) (h1 : (i 1).val = (y 1).val) :
    Gen.iblk2 V c 1 t y = V c main_arg6 i := by
  obtain ⟨-, -, -, -, e0, e1, -⟩ := comb_index t
  unfold Gen.iblk2
  rw [View.read_apply]
  show V c main_arg6 _ = V c main_arg6 _
  refine congrArg _ (funext fun a => Fin.ext ?_)
  match a with
  | ⟨0, _⟩ => show win2_1.index t (0 : Fin 2) * 1 + 1 * (y 0).val = (i 0).val; omega
  | ⟨1, _⟩ => show win2_1.index t (1 : Fin 2) * 128 + 1 * (y 1).val = (i 1).val; omega

/-- The weight's block read at an index is the array there. -/
theorem comb_read2 (c : Dev nD) (t : Fin cfg2.N) (y i : S128x128.Idx)
    (h0 : (i 0).val = (y 0).val) (h1 : (i 1).val = (y 1).val) :
    Gen.iblk2 V c 2 t y = V c main_arg2 i := by
  obtain ⟨-, -, -, -, -, -, e0, e1, -⟩ := comb_index t
  unfold Gen.iblk2
  rw [View.read_apply]
  show V c main_arg2 _ = V c main_arg2 _
  refine congrArg _ (funext fun a => Fin.ext ?_)
  match a with
  | ⟨0, _⟩ => show win2_2.index t (0 : Fin 2) * 128 + 1 * (y 0).val = (i 0).val; omega
  | ⟨1, _⟩ => show win2_2.index t (1 : Fin 2) * 128 + 1 * (y 1).val = (i 1).val; omega

/-- The forward sums' block at point t read at (r, q) is the array at (2000 t + r, q). -/
theorem comb_read3 (c : Dev nD) (t : Fin cfg2.N) (y : S2000x128.Idx) (i : S50000x128.Idx)
    (h0 : (i 0).val = t.val * 2000 + (y 0).val) (h1 : (i 1).val = (y 1).val) :
    Gen.iblk2 V c 3 t y = V c main_v71 i := by
  obtain ⟨-, -, -, -, -, -, -, -, e0, e1, -⟩ := comb_index t
  unfold Gen.iblk2
  rw [View.read_apply]
  show V c main_v71 _ = V c main_v71 _
  refine congrArg _ (funext fun a => Fin.ext ?_)
  match a with
  | ⟨0, _⟩ => show win2_3.index t (0 : Fin 2) * 2000 + 1 * (y 0).val = (i 0).val; omega
  | ⟨1, _⟩ => show win2_3.index t (1 : Fin 2) * 128 + 1 * (y 1).val = (i 1).val; omega

/-- The backward sums' block at point t read at (r, q) is the array at (2000 t + r, q). -/
theorem comb_read4 (c : Dev nD) (t : Fin cfg2.N) (y : S2000x128.Idx) (i : S50000x128.Idx)
    (h0 : (i 0).val = t.val * 2000 + (y 0).val) (h1 : (i 1).val = (y 1).val) :
    Gen.iblk2 V c 4 t y = V c main_v74 i := by
  obtain ⟨-, -, -, -, -, -, -, -, -, -, e0, e1, -⟩ := comb_index t
  unfold Gen.iblk2
  rw [View.read_apply]
  show V c main_v74 _ = V c main_v74 _
  refine congrArg _ (funext fun a => Fin.ext ?_)
  match a with
  | ⟨0, _⟩ => show win2_4.index t (0 : Fin 2) * 2000 + 1 * (y 0).val = (i 0).val; omega
  | ⟨1, _⟩ => show win2_4.index t (1 : Fin 2) * 128 + 1 * (y 1).val = (i 1).val; omega

/-- The bias row's block read at an index is the array there. -/
theorem comb_read5 (c : Dev nD) (t : Fin cfg2.N) (y i : S1x128.Idx)
    (h0 : (i 0).val = (y 0).val) (h1 : (i 1).val = (y 1).val) :
    Gen.iblk2 V c 5 t y = V c main_v75 i := by
  obtain ⟨-, -, -, -, -, -, -, -, -, -, -, -, e0, e1⟩ := comb_index t
  unfold Gen.iblk2
  rw [View.read_apply]
  show V c main_v75 _ = V c main_v75 _
  refine congrArg _ (funext fun a => Fin.ext ?_)
  match a with
  | ⟨0, _⟩ => show win2_5.index t (0 : Fin 2) * 1 + 1 * (y 0).val = (i 0).val; omega
  | ⟨1, _⟩ => show win2_5.index t (1 : Fin 2) * 128 + 1 * (y 1).val = (i 1).val; omega

/-- What point t writes back is row block t of the combined array. -/
theorem flushed2_eq (c : Dev nD) (t : Fin cfg2.N) :
    (Gen.dat2 (F := Ideal) V c).flushed 6 t
      = ((cfg2.win 6).blk t).view.read (Elt Ideal)
          (KSpec.Gcomb (V c main_arg0) (V c main_arg6) (V c main_arg2) (V c main_v71) (V c main_v74) (V c main_v75)) := by
  show (cfg2.win 6).cut (grid2.coords t) ((Gen.dat2 V c).after 6 t) = _
  rw [Gen.after2_6]
  unfold Gen.out2_6
  rw [View.canon_unit_zero zero_offsets2]
  simp only [View.ld_unit_zero (S := S2000x128) zero_offsets2, View.ld_unit_zero (S := S1x128) zero_offsets2,
    View.ld_unit_zero (S := S128x128) zero_offsets2]
  obtain ⟨e0, e1, -⟩ := comb_index t
  funext j
  refine (combine_eq (Gen.iblk2 V c 0 t) (Gen.iblk2 V c 1 t) (Gen.iblk2 V c 2 t) (Gen.iblk2 V c 3 t) (Gen.iblk2 V c 4 t)
    (Gen.iblk2 V c 5 t) ((win2 6).xinj (grid2.coords t) j)).trans ?_
  rw [View.read_apply]
  unfold KSpec.Gcomb
  have r0 : ((((cfg2.win 6).blk t).view.emb j) 0).val = t.val * 2000 + (j 0).val := by
    show win2_6.index t (0 : Fin 2) * 2000 + 1 * (j 0).val = _; omega
  have r1 : ((((cfg2.win 6).blk t).view.emb j) 1).val = (j 1).val := by
    show win2_6.index t (1 : Fin 2) * 128 + 1 * (j 1).val = _; omega
  refine congrArg₂ (· + ·) (congrArg₂ (· * ·) (congrArg₂ (· + ·) (congrArg₂ (· + ·)
    (Finset.sum_congr rfl fun k _ => congrArg₂ (· * ·) (congrArg₂ (· - ·) (comb_read0 V c t _ _ r0 rfl) (comb_read1 V c t _ _ rfl rfl))
      (comb_read2 V c t _ _ rfl r1))
    (comb_read3 V c t _ _ r0 r1)) (comb_read4 V c t _ _ r0 r1)) rfl) (comb_read5 V c t _ _ rfl r1)

/-- An index of the array is in point t's block iff each coordinate is in the block's range on its axis. -/
theorem mem_blk2 (t : Fin cfg2.N) (i : S50000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v76).slice (win2_6.rect t)).set ↔ _
  rw [View.set_slice_whole, Rect.mem_set_unit]
  exact Iff.rfl

/-- The region's result array is the combined array, entry by entry: row r is written by point r / 2000. -/
theorem final2 (c : Dev nD) :
    (Gen.dat2 (F := Ideal) V c).arrAt 6 cfg2.N
      = KSpec.Gcomb (V c main_arg0) (V c main_arg6) (V c main_arg2) (V c main_v71) (V c main_v74) (V c main_v75) :=
  (Gen.dat2 V c).arrAt_eq_of_cover 6 _ (fun t _ => flushed2_eq V c t) fun i => by
    have h0 : (i 0).val < 50000 := idx2_lt0 i
    have h1 : (i 1).val < 128 := idx2_lt1 i
    have hN : cfg2.N = 25 := Gen.N_2
    refine ⟨⟨(i 0).val / 2000, by rw [hN]; omega⟩, Gen.flush2_6 _, ?_⟩
    obtain ⟨e0, e1, -⟩ := comb_index ⟨(i 0).val / 2000, by rw [hN]; omega⟩
    rw [mem_blk2]
    intro a
    match a with
    | ⟨0, _⟩ =>
      show win2_6.index ⟨(i 0).val / 2000, _⟩ (0 : Fin 2) * 2000 ≤ (i 0).val
        ∧ (i 0).val < win2_6.index ⟨(i 0).val / 2000, _⟩ (0 : Fin 2) * 2000 + 2000
      rw [e0]; show (i 0).val / 2000 * 2000 ≤ (i 0).val ∧ (i 0).val < (i 0).val / 2000 * 2000 + 2000; omega
    | ⟨1, _⟩ =>
      show win2_6.index ⟨(i 0).val / 2000, _⟩ (1 : Fin 2) * 128 ≤ (i 1).val
        ∧ (i 1).val < win2_6.index ⟨(i 0).val / 2000, _⟩ (1 : Fin 2) * 128 + 128
      rw [e1]; omega

end Cert.KernelIdeal.RegVal

end
-- ==== Proof.RelValue.lean ====
/-
  The relation-projection region's result array: the product of the relation embeddings with the transposed
  weight, entry by entry, as the sum over the contracted coordinate.
-/
import proofs.«137193_j39762807226645_2_alg».proof.Proof.Gen.KernelIdeal.Frame
import proofs.«137193_j39762807226645_2_alg».proof.Proof.KSpec
import proofs.«137193_j39762807226645_2_alg».proof.Proof.MatmulAt
import Idealize.ShloMosaic.Lib.ValueLayout

noncomputable section

namespace Cert.KernelIdeal.RegVal

open Cert.KernelIdeal Cert.KernelIdeal.Facts₀ Cert.KernelIdeal.Facts Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-- The region's stored value at the entry (p, q): the sum over k of x(p, k) · w(k, q); the narrowing of the
    operands is the identity on extended reals. -/
theorem relprod_at (v0 : Vec Ideal S1000x128 .f32) (v2 : Vec Ideal S128x128 .f32) (p : Fin 1000) (q : Fin 128) :
    Gen.k3_pay1 (F := Ideal) v0 v2 (ix2 p q) = ∑ k : Fin 128, v0 (ix2 p k) * v2 (ix2 k q) := by
  unfold Gen.k3_pay1
  rw [shapeCast_self]
  exact matmul_zero_ix2 dot_S1000x128_S128x128_S1000x128_1_0_0_1_n_n_wf none _ _ p q

/-- The same at any index of the block. -/
theorem relprod_eq (v0 : Vec Ideal S1000x128 .f32) (v2 : Vec Ideal S128x128 .f32) (j : S1000x128.Idx) :
    Gen.k3_pay1 (F := Ideal) v0 v2 j = ∑ k : Fin 128, v0 (ix2 (j 0) k) * v2 (ix2 k (j 1)) := by
  obtain ⟨p, q, rfl⟩ : ∃ (p : Fin 1000) (q : Fin 128), j = ix2 p q := ⟨j 0, j 1, eq_ix2 j⟩
  exact relprod_at v0 v2 p q

/-- The region has one grid point and every window's block is the whole array: all block indices are zero. -/
theorem rel_index_zero : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- The embeddings' block read at an index is the array there. -/
theorem rel_read0 (c : Dev nD) (t : Fin cfg3.N) (y i : S1000x128.Idx) (h0 : (i 0).val = (y 0).val) (h1 : (i 1).val = (y 1).val) :
    Gen.iblk3 V c 0 t y = V c main_arg1 i := by
  obtain ⟨e0, e1, -, -, -, -⟩ := rel_index_zero t
  unfold Gen.iblk3
  rw [View.read_apply]
  show V c main_arg1 _ = V c main_arg1 _
  refine congrArg _ (funext fun a => Fin.ext ?_)
  match a with
  | ⟨0, _⟩ => show win3_0.index t (0 : Fin 2) * 1000 + 1 * (y 0).val = (i 0).val; omega
  | ⟨1, _⟩ => show win3_0.index t (1 : Fin 2) * 128 + 1 * (y 1).val = (i 1).val; omega

/-- The weight's block read at an index is the array there. -/
theorem rel_read1 (c : Dev nD) (t : Fin cfg3.N) (y i : S128x128.Idx) (h0 : (i 0).val = (y 0).val) (h1 : (i 1).val = (y 1).val) :
    Gen.iblk3 V c 1 t y = V c main_v96 i := by
  obtain ⟨-, -, e0, e1, -, -⟩ := rel_index_zero t
  unfold Gen.iblk3
  rw [View.read_apply]
  show V c main_v96 _ = V c main_v96 _
  refine congrArg _ (funext fun a => Fin.ext ?_)
  match a with
  | ⟨0, _⟩ => show win3_1.index t (0 : Fin 2) * 128 + 1 * (y 0).val = (i 0).val; omega
  | ⟨1, _⟩ => show win3_1.index t (1 : Fin 2) * 128 + 1 * (y 1).val = (i 1).val; omega

/-- What the one grid point writes back is its block of the product. -/
theorem flushed3_eq (c : Dev nD) (t : Fin cfg3.N) :
    (Gen.dat3 (F := Ideal) V c).flushed 2 t
      = ((cfg3.win 2).blk t).view.read (Elt Ideal) (KSpec.Grel (V c main_arg1) (V c main_v96)) := by
  show (cfg3.win 2).cut (grid3.coords t) ((Gen.dat3 V c).after 2 t) = _
  rw [Gen.after3_2]
  unfold Gen.out3_2
  rw [View.canon_unit_zero zero_offsets]
  simp only [View.ld_unit_zero (S := S1000x128) zero_offsets, View.ld_unit_zero (S := S128x128) zero_offsets]
  obtain ⟨-, -, -, -, e0, e1⟩ := rel_index_zero t
  funext j
  refine (relprod_eq (Gen.iblk3 V c 0 t) (Gen.iblk3 V c 1 t) ((win3 2).xinj (grid3.coords t) j)).trans ?_
  rw [View.read_apply]
  unfold KSpec.Grel
  refine Finset.sum_congr rfl fun k _ => ?_
  refine congrArg₂ (· * ·) (rel_read0 V c t _ _ ?_ ?_) (rel_read1 V c t _ _ ?_ ?_)
  · show win3_2.index t (0 : Fin 2) * 1000 + 1 * (j 0).val = (j 0).val; omega
  · rfl
  · rfl
  · show win3_2.index t (1 : Fin 2) * 128 + 1 * (j 1).val = (j 1).val; omega

/-- An index of the array is in the point's block iff each coordinate is in the block's range on its axis. -/
theorem mem_blk3 (t : Fin cfg3.N) (i : S1000x128.Idx) :
    i ∈ ((cfg3.win 2).blk t).view.set ↔ ∀ a : Fin 2, win3_2.index t a * S1000x128.size a ≤ (i a).val
      ∧ (i a).val < win3_2.index t a * S1000x128.size a + S1000x128.size a := by
  show i ∈ ((View.whole main_v97).slice (win3_2.rect t)).set ↔ _
  rw [View.set_slice_whole, Rect.mem_set_unit]
  exact Iff.rfl

/-- The region's result array is the product, entry by entry. -/
theorem final3 (c : Dev nD) :
    (Gen.dat3 (F := Ideal) V c).arrAt 2 cfg3.N = KSpec.Grel (V c main_arg1) (V c main_v96) :=
  (Gen.dat3 V c).arrAt_eq_of_cover 2 _ (fun t _ => flushed3_eq V c t) fun i => ⟨Gen.t3_0, Gen.flush3_2 Gen.t3_0, by
    obtain ⟨-, -, -, -, e0, e1⟩ := rel_index_zero Gen.t3_0
    rw [mem_blk3]
    intro a
    have h0 : (i 0).val < 1000 := (i 0).isLt
    have h1 : (i 1).val < 128 := (i 1).isLt
    match a with
    | ⟨0, _⟩ => show win3_2.index Gen.t3_0 (0 : Fin 2) * 1000 ≤ (i 0).val ∧ (i 0).val < win3_2.index Gen.t3_0 (0 : Fin 2) * 1000 + 1000; omega
    | ⟨1, _⟩ => show win3_2.index Gen.t3_0 (1 : Fin 2) * 128 ≤ (i 1).val ∧ (i 1).val < win3_2.index Gen.t3_0 (1 : Fin 2) * 128 + 128; omega⟩

end Cert.KernelIdeal.RegVal

end
-- ==== Proof.RefRun.lean ====
/-
  The reference program's @main as a straight line of its host operations, the call of the variance
  function (and, inside it, of the selection function) unfolded at the call site over the call's own
  buffers; and the run of that line: every weakly fair execution terminates with each buffer at the
  fold of the operations over the launch contents.
-/
import proofs.«137193_j39762807226645_2_alg».proof.Proof.Gen.ReferenceIdeal
import Idealize.ShloMosaic.Lib.StableHlo.Run

noncomputable section

namespace Cert.ReferenceIdeal.HandRun

open Cert.ReferenceIdeal Cert.ReferenceIdeal.Facts₀ Cert.ReferenceIdeal.Facts Idealize.ShloMosaic Idealize.ShloMosaic.TcCoe Idealize.SL.Sem

variable {F : FTy → Type} [FloatOps F]

/-- Operations 1 … 30 of the line. Twice the relation type, the two rows of the edge list, the self-loop term, and the forward message's matrix product. -/
abbrev ops0 : List (HloOp τ sig (Elt F)) :=
  [ StableHlo.nullary main_c (constantI S_ 32 2#32),
    StableHlo.unary main_c main_v0 (broadcastInDim S600000 ![] bcast_S_S600000 : (⟨S_, .i32⟩ : BufTy).Contents (Elt F) → (⟨S600000, .i32⟩ : BufTy).Contents (Elt F)),
    StableHlo.binary main_v0 main_arg11 main_v1 (muli : (⟨S600000, .i32⟩ : BufTy).Contents (Elt F) → (⟨S600000, .i32⟩ : BufTy).Contents (Elt F) → (⟨S600000, .i32⟩ : BufTy).Contents (Elt F)),
    StableHlo.unary main_arg10 main_v2 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v2 main_v3 rfl shapeCasts_S1x600000_S600000,
    StableHlo.unary main_arg10 main_v4 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v4 main_v5 rfl shapeCasts_S1x600000_S600000,
    StableHlo.unary main_arg6 main_v6 (broadcastInDim S50000x128 ![0, 1] bcast_S1x128_S50000x128_0_1 : (⟨S1x128, .f32⟩ : BufTy).Contents (Elt F) → (⟨S50000x128, .f32⟩ : BufTy).Contents (Elt F)),
    StableHlo.binary main_arg0 main_v6 main_v7 (subf : (⟨S50000x128, .f32⟩ : BufTy).Contents (Elt F) → (⟨S50000x128, .f32⟩ : BufTy).Contents (Elt F) → (⟨S50000x128, .f32⟩ : BufTy).Contents (Elt F)),
    StableHlo.binary main_v7 main_arg2 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_0 (constantI S_ 32 0#32),
    StableHlo.unary main_c_0 main_v9 (broadcastInDim S600000 ![] bcast_S_S600000 : (⟨S_, .i32⟩ : BufTy).Contents (Elt F) → (⟨S600000, .i32⟩ : BufTy).Contents (Elt F)),
    StableHlo.binary main_v3 main_v9 main_v10 (cmpi .slt : (⟨S600000, .i32⟩ : BufTy).Contents (Elt F) → (⟨S600000, .i32⟩ : BufTy).Contents (Elt F) → (⟨S600000, .i1⟩ : BufTy).Contents (Elt F)),
    StableHlo.nullary main_c_1 (constantI S_ 32 50000#32),
    StableHlo.unary main_c_1 main_v11 (broadcastInDim S600000 ![] bcast_S_S600000 : (⟨S_, .i32⟩ : BufTy).Contents (Elt F) → (⟨S600000, .i32⟩ : BufTy).Contents (Elt F)),
    StableHlo.binary main_v3 main_v11 main_v12 (addi : (⟨S600000, .i32⟩ : BufTy).Contents (Elt F) → (⟨S600000, .i32⟩ : BufTy).Contents (Elt F) → (⟨S600000, .i32⟩ : BufTy).Contents (Elt F)),
    StableHlo.ternary main_v10 main_v12 main_v3 main_v13 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v13 main_v14 (broadcastInDim S600000x1 ![0] bcast_S600000_S600000x1_0 : (⟨S600000, .i32⟩ : BufTy).Contents (Elt F) → (⟨S600000x1, .i32⟩ : BufTy).Contents (Elt F)),
    StableHlo.binary main_arg0 main_v14 main_v15 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_c_2 (constantI S_ 32 0#32),
    StableHlo.unary main_c_2 main_v16 (broadcastInDim S600000 ![] bcast_S_S600000 : (⟨S_, .i32⟩ : BufTy).Contents (Elt F) → (⟨S600000, .i32⟩ : BufTy).Contents (Elt F)),
    StableHlo.binary main_v1 main_v16 main_v17 (cmpi .slt : (⟨S600000, .i32⟩ : BufTy).Contents (Elt F) → (⟨S600000, .i32⟩ : BufTy).Contents (Elt F) → (⟨S600000, .i1⟩ : BufTy).Contents (Elt F)),
    StableHlo.nullary main_c_3 (constantI S_ 32 1000#32),
    StableHlo.unary main_c_3 main_v18 (broadcastInDim S600000 ![] bcast_S_S600000 : (⟨S_, .i32⟩ : BufTy).Contents (Elt F) → (⟨S600000, .i32⟩ : BufTy).Contents (Elt F)),
    StableHlo.binary main_v1 main_v18 main_v19 (addi : (⟨S600000, .i32⟩ : BufTy).Contents (Elt F) → (⟨S600000, .i32⟩ : BufTy).Contents (Elt F) → (⟨S600000, .i32⟩ : BufTy).Contents (Elt F)),
    StableHlo.ternary main_v17 main_v19 main_v1 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v20 main_v21 (broadcastInDim S600000x1 ![0] bcast_S600000_S600000x1_0 : (⟨S600000, .i32⟩ : BufTy).Contents (Elt F) → (⟨S600000x1, .i32⟩ : BufTy).Contents (Elt F)),
    StableHlo.binary main_arg1 main_v21 main_v22 ((fun x i => Host.gather gather_S1000x128_S600000x1_S600000x128_1_0_n_n_0_1_1128 x i) : (⟨S1000x128, .f32⟩ : BufTy).Contents (Elt F) → (⟨S600000x1, .i32⟩ : BufTy).Contents (Elt F) → (⟨S600000x128, .f32⟩ : BufTy).Contents (Elt F)),
    StableHlo.binary main_v15 main_v22 main_v23 (subf : (⟨S600000x128, .f32⟩ : BufTy).Contents (Elt F) → (⟨S600000x128, .f32⟩ : BufTy).Contents (Elt F) → (⟨S600000x128, .f32⟩ : BufTy).Contents (Elt F)),
    StableHlo.binary main_v23 main_arg3 main_v24 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)) ]

theorem ops0_sub : (ops0 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub ..⟩

theorem ops0_fresh : ∀ op ∈ (ops0 : List (HloOp τ sig (Elt F))), op.fresh = ∅ := by
  intro _ h; (repeat (cases h with | head => rfl | tail _ h => ?_)); exact nomatch h

/-- Operations 31 … 60 of the line. The edge counts per entity, the two degrees per edge and the forward edge weight. -/
abbrev ops1 : List (HloOp τ sig (Elt F)) :=
  [ StableHlo.nullary main_cst (constant S_ .f32 0x3F800000#32),
    StableHlo.unary main_cst main_v25 (broadcastInDim S600000 ![] bcast_S_S600000 : (⟨S_, .f32⟩ : BufTy).Contents (Elt F) → (⟨S600000, .f32⟩ : BufTy).Contents (Elt F)),
    StableHlo.nullary main_cst_4 (constant S_ .f32 0x00000000#32),
    StableHlo.unary main_cst_4 main_v26 (broadcastInDim S50000 ![] bcast_S_S50000 : (⟨S_, .f32⟩ : BufTy).Contents (Elt F) → (⟨S50000, .f32⟩ : BufTy).Contents (Elt F)),
    StableHlo.unary main_v3 main_v27 (broadcastInDim S600000x1 ![0] bcast_S600000_S600000x1_0 : (⟨S600000, .i32⟩ : BufTy).Contents (Elt F) → (⟨S600000x1, .i32⟩ : BufTy).Contents (Elt F)),
    StableHlo.ternary main_v26 main_v27 main_v25 main_v28 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_5 (constant S_ .f32 0x00000000#32),
    StableHlo.unary main_cst_5 main_v29 (broadcastInDim S50000 ![] bcast_S_S50000 : (⟨S_, .f32⟩ : BufTy).Contents (Elt F) → (⟨S50000, .f32⟩ : BufTy).Contents (Elt F)),
    StableHlo.unary main_v5 main_v30 (broadcastInDim S600000x1 ![0] bcast_S600000_S600000x1_0 : (⟨S600000, .i32⟩ : BufTy).Contents (Elt F) → (⟨S600000x1, .i32⟩ : BufTy).Contents (Elt F)),
    StableHlo.ternary main_v29 main_v30 main_v25 main_v31 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_c_6 (constantI S_ 32 0#32),
    StableHlo.unary main_c_6 main_v32 (broadcastInDim S600000 ![] bcast_S_S600000 : (⟨S_, .i32⟩ : BufTy).Contents (Elt F) → (⟨S600000, .i32⟩ : BufTy).Contents (Elt F)),
    StableHlo.binary main_v3 main_v32 main_v33 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 50000#32),
    StableHlo.unary main_c_7 main_v34 (broadcastInDim S600000 ![] bcast_S_S600000 : (⟨S_, .i32⟩ : BufTy).Contents (Elt F) → (⟨S600000, .i32⟩ : BufTy).Contents (Elt F)),
    StableHlo.binary main_v3 main_v34 main_v35 (addi : (⟨S600000, .i32⟩ : BufTy).Contents (Elt F) → (⟨S600000, .i32⟩ : BufTy).Contents (Elt F) → (⟨S600000, .i32⟩ : BufTy).Contents (Elt F)),
    StableHlo.ternary main_v33 main_v35 main_v3 main_v36 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v36 main_v37 (broadcastInDim S600000x1 ![0] bcast_S600000_S600000x1_0 : (⟨S600000, .i32⟩ : BufTy).Contents (Elt F) → (⟨S600000x1, .i32⟩ : BufTy).Contents (Elt F)),
    StableHlo.binary main_v28 main_v37 main_v38 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_8 (constantI S_ 32 0#32),
    StableHlo.unary main_c_8 main_v39 (broadcastInDim S600000 ![] bcast_S_S600000 : (⟨S_, .i32⟩ : BufTy).Contents (Elt F) → (⟨S600000, .i32⟩ : BufTy).Contents (Elt F)),
    StableHlo.binary main_v5 main_v39 main_v40 (cmpi .slt : (⟨S600000, .i32⟩ : BufTy).Contents (Elt F) → (⟨S600000, .i32⟩ : BufTy).Contents (Elt F) → (⟨S600000, .i1⟩ : BufTy).Contents (Elt F)),
    StableHlo.nullary main_c_9 (constantI S_ 32 50000#32),
    StableHlo.unary main_c_9 main_v41 (broadcastInDim S600000 ![] bcast_S_S600000 : (⟨S_, .i32⟩ : BufTy).Contents (Elt F) → (⟨S600000, .i32⟩ : BufTy).Contents (Elt F)),
    StableHlo.binary main_v5 main_v41 main_v42 (addi : (⟨S600000, .i32⟩ : BufTy).Contents (Elt F) → (⟨S600000, .i32⟩ : BufTy).Contents (Elt F) → (⟨S600000, .i32⟩ : BufTy).Contents (Elt F)),
    StableHlo.ternary main_v40 main_v42 main_v5 main_v43 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v43 main_v44 (broadcastInDim S600000x1 ![0] bcast_S600000_S600000x1_0 : (⟨S600000, .i32⟩ : BufTy).Contents (Elt F) → (⟨S600000x1, .i32⟩ : BufTy).Contents (Elt F)),
    StableHlo.binary main_v31 main_v44 main_v45 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v38 main_v45 main_v46 (mulf : (⟨S600000, .f32⟩ : BufTy).Contents (Elt F) → (⟨S600000, .f32⟩ : BufTy).Contents (Elt F) → (⟨S600000, .f32⟩ : BufTy).Contents (Elt F)),
    StableHlo.unary main_v46 main_v47 (Host.rsqrt : (⟨S600000, .f32⟩ : BufTy).Contents (Elt F) → (⟨S600000, .f32⟩ : BufTy).Contents (Elt F)) ]

theorem ops1_sub : (ops1 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub ..⟩

theorem ops1_fresh : ∀ op ∈ (ops1 : List (HloOp τ sig (Elt F))), op.fresh = ∅ := by
  intro _ h; (repeat (cases h with | head => rfl | tail _ h => ?_)); exact nomatch h

/-- Operations 61 … 90 of the line. The forward messages scattered into their targets, the inverse relation rows, the backward gathers. -/
abbrev ops2 : List (HloOp τ sig (Elt F)) :=
  [ StableHlo.unary main_v47 main_v48 (broadcastInDim S600000x1 ![0] bcast_S600000_S600000x1_0 : (⟨S600000, .f32⟩ : BufTy).Contents (Elt F) → (⟨S600000x1, .f32⟩ : BufTy).Contents (Elt F)),
    StableHlo.unary main_v48 main_v49 (broadcastInDim S600000x128 ![0, 1] bcast_S600000x1_S600000x128_0_1 : (⟨S600000x1, .f32⟩ : BufTy).Contents (Elt F) → (⟨S600000x128, .f32⟩ : BufTy).Contents (Elt F)),
    StableHlo.binary main_v24 main_v49 main_v50 (mulf : (⟨S600000x128, .f32⟩ : BufTy).Contents (Elt F) → (⟨S600000x128, .f32⟩ : BufTy).Contents (Elt F) → (⟨S600000x128, .f32⟩ : BufTy).Contents (Elt F)),
    StableHlo.nullary main_cst_10 (constant S_ .f32 0x00000000#32),
    StableHlo.unary main_cst_10 main_v51 (broadcastInDim S50000x128 ![] bcast_S_S50000x128 : (⟨S_, .f32⟩ : BufTy).Contents (Elt F) → (⟨S50000x128, .f32⟩ : BufTy).Contents (Elt F)),
    StableHlo.nullary main_c_11 (constantI S_ 32 0#32),
    StableHlo.unary main_c_11 main_v52 (broadcastInDim S600000 ![] bcast_S_S600000 : (⟨S_, .i32⟩ : BufTy).Contents (Elt F) → (⟨S600000, .i32⟩ : BufTy).Contents (Elt F)),
    StableHlo.binary main_v5 main_v52 main_v53 (cmpi .slt : (⟨S600000, .i32⟩ : BufTy).Contents (Elt F) → (⟨S600000, .i32⟩ : BufTy).Contents (Elt F) → (⟨S600000, .i1⟩ : BufTy).Contents (Elt F)),
    StableHlo.nullary main_c_12 (constantI S_ 32 50000#32),
    StableHlo.unary main_c_12 main_v54 (broadcastInDim S600000 ![] bcast_S_S600000 : (⟨S_, .i32⟩ : BufTy).Contents (Elt F) → (⟨S600000, .i32⟩ : BufTy).Contents (Elt F)),
    StableHlo.binary main_v5 main_v54 main_v55 (addi : (⟨S600000, .i32⟩ : BufTy).Contents (Elt F) → (⟨S600000, .i32⟩ : BufTy).Contents (Elt F) → (⟨S600000, .i32⟩ : BufTy).Contents (Elt F)),
    StableHlo.ternary main_v53 main_v55 main_v5 main_v56 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v56 main_v57 (broadcastInDim S600000x1 ![0] bcast_S600000_S600000x1_0 : (⟨S600000, .i32⟩ : BufTy).Contents (Elt F) → (⟨S600000x1, .i32⟩ : BufTy).Contents (Elt F)),
    StableHlo.ternary main_v51 main_v57 main_v50 main_v58 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v8 main_v58 main_v59 (addf : (⟨S50000x128, .f32⟩ : BufTy).Contents (Elt F) → (⟨S50000x128, .f32⟩ : BufTy).Contents (Elt F) → (⟨S50000x128, .f32⟩ : BufTy).Contents (Elt F)),
    StableHlo.nullary main_c_13 (constantI S_ 32 1#32),
    StableHlo.unary main_c_13 main_v60 (broadcastInDim S600000 ![] bcast_S_S600000 : (⟨S_, .i32⟩ : BufTy).Contents (Elt F) → (⟨S600000, .i32⟩ : BufTy).Contents (Elt F)),
    StableHlo.binary main_v1 main_v60 main_v61 (addi : (⟨S600000, .i32⟩ : BufTy).Contents (Elt F) → (⟨S600000, .i32⟩ : BufTy).Contents (Elt F) → (⟨S600000, .i32⟩ : BufTy).Contents (Elt F)),
    StableHlo.nullary main_c_14 (constantI S_ 32 0#32),
    StableHlo.unary main_c_14 main_v62 (broadcastInDim S600000 ![] bcast_S_S600000 : (⟨S_, .i32⟩ : BufTy).Contents (Elt F) → (⟨S600000, .i32⟩ : BufTy).Contents (Elt F)),
    StableHlo.binary main_v5 main_v62 main_v63 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 50000#32),
    StableHlo.unary main_c_15 main_v64 (broadcastInDim S600000 ![] bcast_S_S600000 : (⟨S_, .i32⟩ : BufTy).Contents (Elt F) → (⟨S600000, .i32⟩ : BufTy).Contents (Elt F)),
    StableHlo.binary main_v5 main_v64 main_v65 (addi : (⟨S600000, .i32⟩ : BufTy).Contents (Elt F) → (⟨S600000, .i32⟩ : BufTy).Contents (Elt F) → (⟨S600000, .i32⟩ : BufTy).Contents (Elt F)),
    StableHlo.ternary main_v63 main_v65 main_v5 main_v66 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v66 main_v67 (broadcastInDim S600000x1 ![0] bcast_S600000_S600000x1_0 : (⟨S600000, .i32⟩ : BufTy).Contents (Elt F) → (⟨S600000x1, .i32⟩ : BufTy).Contents (Elt F)),
    StableHlo.binary main_arg0 main_v67 main_v68 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_c_16 (constantI S_ 32 0#32),
    StableHlo.unary main_c_16 main_v69 (broadcastInDim S600000 ![] bcast_S_S600000 : (⟨S_, .i32⟩ : BufTy).Contents (Elt F) → (⟨S600000, .i32⟩ : BufTy).Contents (Elt F)),
    StableHlo.binary main_v61 main_v69 main_v70 (cmpi .slt : (⟨S600000, .i32⟩ : BufTy).Contents (Elt F) → (⟨S600000, .i32⟩ : BufTy).Contents (Elt F) → (⟨S600000, .i1⟩ : BufTy).Contents (Elt F)) ]

theorem ops2_sub : (ops2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub ..⟩

theorem ops2_fresh : ∀ op ∈ (ops2 : List (HloOp τ sig (Elt F))), op.fresh = ∅ := by
  intro _ h; (repeat (cases h with | head => rfl | tail _ h => ?_)); exact nomatch h

/-- Operations 91 … 120 of the line. The backward matrix product, the edge counts again and the first backward degree. -/
abbrev ops3 : List (HloOp τ sig (Elt F)) :=
  [ StableHlo.nullary main_c_17 (constantI S_ 32 1000#32),
    StableHlo.unary main_c_17 main_v71 (broadcastInDim S600000 ![] bcast_S_S600000 : (⟨S_, .i32⟩ : BufTy).Contents (Elt F) → (⟨S600000, .i32⟩ : BufTy).Contents (Elt F)),
    StableHlo.binary main_v61 main_v71 main_v72 (addi : (⟨S600000, .i32⟩ : BufTy).Contents (Elt F) → (⟨S600000, .i32⟩ : BufTy).Contents (Elt F) → (⟨S600000, .i32⟩ : BufTy).Contents (Elt F)),
    StableHlo.ternary main_v70 main_v72 main_v61 main_v73 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v73 main_v74 (broadcastInDim S600000x1 ![0] bcast_S600000_S600000x1_0 : (⟨S600000, .i32⟩ : BufTy).Contents (Elt F) → (⟨S600000x1, .i32⟩ : BufTy).Contents (Elt F)),
    StableHlo.binary main_arg1 main_v74 main_v75 ((fun x i => Host.gather gather_S1000x128_S600000x1_S600000x128_1_0_n_n_0_1_1128 x i) : (⟨S1000x128, .f32⟩ : BufTy).Contents (Elt F) → (⟨S600000x1, .i32⟩ : BufTy).Contents (Elt F) → (⟨S600000x128, .f32⟩ : BufTy).Contents (Elt F)),
    StableHlo.binary main_v68 main_v75 main_v76 (subf : (⟨S600000x128, .f32⟩ : BufTy).Contents (Elt F) → (⟨S600000x128, .f32⟩ : BufTy).Contents (Elt F) → (⟨S600000x128, .f32⟩ : BufTy).Contents (Elt F)),
    StableHlo.binary main_v76 main_arg4 main_v77 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_18 (constant S_ .f32 0x3F800000#32),
    StableHlo.unary main_cst_18 main_v78 (broadcastInDim S600000 ![] bcast_S_S600000 : (⟨S_, .f32⟩ : BufTy).Contents (Elt F) → (⟨S600000, .f32⟩ : BufTy).Contents (Elt F)),
    StableHlo.nullary main_cst_19 (constant S_ .f32 0x00000000#32),
    StableHlo.unary main_cst_19 main_v79 (broadcastInDim S50000 ![] bcast_S_S50000 : (⟨S_, .f32⟩ : BufTy).Contents (Elt F) → (⟨S50000, .f32⟩ : BufTy).Contents (Elt F)),
    StableHlo.unary main_v5 main_v80 (broadcastInDim S600000x1 ![0] bcast_S600000_S600000x1_0 : (⟨S600000, .i32⟩ : BufTy).Contents (Elt F) → (⟨S600000x1, .i32⟩ : BufTy).Contents (Elt F)),
    StableHlo.ternary main_v79 main_v80 main_v78 main_v81 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_20 (constant S_ .f32 0x00000000#32),
    StableHlo.unary main_cst_20 main_v82 (broadcastInDim S50000 ![] bcast_S_S50000 : (⟨S_, .f32⟩ : BufTy).Contents (Elt F) → (⟨S50000, .f32⟩ : BufTy).Contents (Elt F)),
    StableHlo.unary main_v3 main_v83 (broadcastInDim S600000x1 ![0] bcast_S600000_S600000x1_0 : (⟨S600000, .i32⟩ : BufTy).Contents (Elt F) → (⟨S600000x1, .i32⟩ : BufTy).Contents (Elt F)),
    StableHlo.ternary main_v82 main_v83 main_v78 main_v84 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_c_21 (constantI S_ 32 0#32),
    StableHlo.unary main_c_21 main_v85 (broadcastInDim S600000 ![] bcast_S_S600000 : (⟨S_, .i32⟩ : BufTy).Contents (Elt F) → (⟨S600000, .i32⟩ : BufTy).Contents (Elt F)),
    StableHlo.binary main_v5 main_v85 main_v86 (cmpi .slt : (⟨S600000, .i32⟩ : BufTy).Contents (Elt F) → (⟨S600000, .i32⟩ : BufTy).Contents (Elt F) → (⟨S600000, .i1⟩ : BufTy).Contents (Elt F)),
    StableHlo.nullary main_c_22 (constantI S_ 32 50000#32),
    StableHlo.unary main_c_22 main_v87 (broadcastInDim S600000 ![] bcast_S_S600000 : (⟨S_, .i32⟩ : BufTy).Contents (Elt F) → (⟨S600000, .i32⟩ : BufTy).Contents (Elt F)),
    StableHlo.binary main_v5 main_v87 main_v88 (addi : (⟨S600000, .i32⟩ : BufTy).Contents (Elt F) → (⟨S600000, .i32⟩ : BufTy).Contents (Elt F) → (⟨S600000, .i32⟩ : BufTy).Contents (Elt F)),
    StableHlo.ternary main_v86 main_v88 main_v5 main_v89 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v89 main_v90 (broadcastInDim S600000x1 ![0] bcast_S600000_S600000x1_0 : (⟨S600000, .i32⟩ : BufTy).Contents (Elt F) → (⟨S600000x1, .i32⟩ : BufTy).Contents (Elt F)),
    StableHlo.binary main_v81 main_v90 main_v91 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.nullary main_c_23 (constantI S_ 32 0#32),
    StableHlo.unary main_c_23 main_v92 (broadcastInDim S600000 ![] bcast_S_S600000 : (⟨S_, .i32⟩ : BufTy).Contents (Elt F) → (⟨S600000, .i32⟩ : BufTy).Contents (Elt F)),
    StableHlo.binary main_v3 main_v92 main_v93 (cmpi .slt : (⟨S600000, .i32⟩ : BufTy).Contents (Elt F) → (⟨S600000, .i32⟩ : BufTy).Contents (Elt F) → (⟨S600000, .i1⟩ : BufTy).Contents (Elt F)) ]

theorem ops3_sub : (ops3 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub ..⟩

theorem ops3_fresh : ∀ op ∈ (ops3 : List (HloOp τ sig (Elt F))), op.fresh = ∅ := by
  intro _ h; (repeat (cases h with | head => rfl | tail _ h => ?_)); exact nomatch h

/-- Operations 121 … 149 of the line. The backward edge weight and messages, their scatter, the division by three and the bias. -/
abbrev ops4 : List (HloOp τ sig (Elt F)) :=
  [ StableHlo.nullary main_c_24 (constantI S_ 32 50000#32),
    StableHlo.unary main_c_24 main_v94 (broadcastInDim S600000 ![] bcast_S_S600000 : (⟨S_, .i32⟩ : BufTy).Contents (Elt F) → (⟨S600000, .i32⟩ : BufTy).Contents (Elt F)),
    StableHlo.binary main_v3 main_v94 main_v95 (addi : (⟨S600000, .i32⟩ : BufTy).Contents (Elt F) → (⟨S600000, .i32⟩ : BufTy).Contents (Elt F) → (⟨S600000, .i32⟩ : BufTy).Contents (Elt F)),
    StableHlo.ternary main_v93 main_v95 main_v3 main_v96 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v96 main_v97 (broadcastInDim S600000x1 ![0] bcast_S600000_S600000x1_0 : (⟨S600000, .i32⟩ : BufTy).Contents (Elt F) → (⟨S600000x1, .i32⟩ : BufTy).Contents (Elt F)),
    StableHlo.binary main_v84 main_v97 main_v98 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    StableHlo.binary main_v91 main_v98 main_v99 (mulf : (⟨S600000, .f32⟩ : BufTy).Contents (Elt F) → (⟨S600000, .f32⟩ : BufTy).Contents (Elt F) → (⟨S600000, .f32⟩ : BufTy).Contents (Elt F)),
    StableHlo.unary main_v99 main_v100 (Host.rsqrt : (⟨S600000, .f32⟩ : BufTy).Contents (Elt F) → (⟨S600000, .f32⟩ : BufTy).Contents (Elt F)),
    StableHlo.unary main_v100 main_v101 (broadcastInDim S600000x1 ![0] bcast_S600000_S600000x1_0 : (⟨S600000, .f32⟩ : BufTy).Contents (Elt F) → (⟨S600000x1, .f32⟩ : BufTy).Contents (Elt F)),
    StableHlo.unary main_v101 main_v102 (broadcastInDim S600000x128 ![0, 1] bcast_S600000x1_S600000x128_0_1 : (⟨S600000x1, .f32⟩ : BufTy).Contents (Elt F) → (⟨S600000x128, .f32⟩ : BufTy).Contents (Elt F)),
    StableHlo.binary main_v77 main_v102 main_v103 (mulf : (⟨S600000x128, .f32⟩ : BufTy).Contents (Elt F) → (⟨S600000x128, .f32⟩ : BufTy).Contents (Elt F) → (⟨S600000x128, .f32⟩ : BufTy).Contents (Elt F)),
    StableHlo.nullary main_cst_25 (constant S_ .f32 0x00000000#32),
    StableHlo.unary main_cst_25 main_v104 (broadcastInDim S50000x128 ![] bcast_S_S50000x128 : (⟨S_, .f32⟩ : BufTy).Contents (Elt F) → (⟨S50000x128, .f32⟩ : BufTy).Contents (Elt F)),
    StableHlo.nullary main_c_26 (constantI S_ 32 0#32),
    StableHlo.unary main_c_26 main_v105 (broadcastInDim S600000 ![] bcast_S_S600000 : (⟨S_, .i32⟩ : BufTy).Contents (Elt F) → (⟨S600000, .i32⟩ : BufTy).Contents (Elt F)),
    StableHlo.binary main_v3 main_v105 main_v106 (cmpi .slt : (⟨S600000, .i32⟩ : BufTy).Contents (Elt F) → (⟨S600000, .i32⟩ : BufTy).Contents (Elt F) → (⟨S600000, .i1⟩ : BufTy).Contents (Elt F)),
    StableHlo.nullary main_c_27 (constantI S_ 32 50000#32),
    StableHlo.unary main_c_27 main_v107 (broadcastInDim S600000 ![] bcast_S_S600000 : (⟨S_, .i32⟩ : BufTy).Contents (Elt F) → (⟨S600000, .i32⟩ : BufTy).Contents (Elt F)),
    StableHlo.binary main_v3 main_v107 main_v108 (addi : (⟨S600000, .i32⟩ : BufTy).Contents (Elt F) → (⟨S600000, .i32⟩ : BufTy).Contents (Elt F) → (⟨S600000, .i32⟩ : BufTy).Contents (Elt F)),
    StableHlo.ternary main_v106 main_v108 main_v3 main_v109 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v109 main_v110 (broadcastInDim S600000x1 ![0] bcast_S600000_S600000x1_0 : (⟨S600000, .i32⟩ : BufTy).Contents (Elt F) → (⟨S600000x1, .i32⟩ : BufTy).Contents (Elt F)),
    StableHlo.ternary main_v104 main_v110 main_v103 main_v111 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v59 main_v111 main_v112 (addf : (⟨S50000x128, .f32⟩ : BufTy).Contents (Elt F) → (⟨S50000x128, .f32⟩ : BufTy).Contents (Elt F) → (⟨S50000x128, .f32⟩ : BufTy).Contents (Elt F)),
    StableHlo.nullary main_cst_28 (constant S_ .f32 0x40400000#32),
    StableHlo.unary main_cst_28 main_v113 (broadcastInDim S50000x128 ![] bcast_S_S50000x128 : (⟨S_, .f32⟩ : BufTy).Contents (Elt F) → (⟨S50000x128, .f32⟩ : BufTy).Contents (Elt F)),
    StableHlo.binary main_v112 main_v113 main_v114 (Host.divf : (⟨S50000x128, .f32⟩ : BufTy).Contents (Elt F) → (⟨S50000x128, .f32⟩ : BufTy).Contents (Elt F) → (⟨S50000x128, .f32⟩ : BufTy).Contents (Elt F)),
    StableHlo.unary main_arg7 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v116 main_v117 (addf : (⟨S50000x128, .f32⟩ : BufTy).Contents (Elt F) → (⟨S50000x128, .f32⟩ : BufTy).Contents (Elt F) → (⟨S50000x128, .f32⟩ : BufTy).Contents (Elt F)) ]

theorem ops4_sub : (ops4 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub ..⟩

theorem ops4_fresh : ∀ op ∈ (ops4 : List (HloOp τ sig (Elt F))), op.fresh = ∅ := by
  intro _ h; (repeat (cases h with | head => rfl | tail _ h => ?_)); exact nomatch h

/-- Operations 150 … 177 of the line. The batch mean, and the variance function's operations (the selection function's three last) over the call's buffers. -/
abbrev ops5 : List (HloOp τ sig (Elt F)) :=
  [ StableHlo.nullary main_cst_29 (constant S_ .f32 0x00000000#32),
    StableHlo.binary main_v117 main_cst_29 main_v118 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_30 (constant S_ .f32 0x47435000#32),
    StableHlo.unary main_cst_30 main_v119 (broadcastInDim S128 ![] bcast_S_S128 : (⟨S_, .f32⟩ : BufTy).Contents (Elt F) → (⟨S128, .f32⟩ : BufTy).Contents (Elt F)),
    StableHlo.binary main_v118 main_v119 main_v120 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary (.of main_call0_cst : StableHlo.TRef sig ⟨S_, .f32⟩) (constant S_ .f32 0x00000000#32),
    StableHlo.TRef.binary (.of main_v117 : StableHlo.TRef sig ⟨S50000x128, .f32⟩) (.of main_call0_cst : StableHlo.TRef sig ⟨S_, .f32⟩) (.of main_call0_v0 : StableHlo.TRef sig ⟨S128, .f32⟩) (fun x v => Host.reduceAdd x v reducesTo_S50000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x47435000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S50000x128, .f32⟩) (broadcastInDim S50000x128 ![0, 1] bcast_S1x128_S50000x128_0_1),
    StableHlo.TRef.binary (.of main_v117 : StableHlo.TRef sig ⟨S50000x128, .f32⟩) (.of main_call0_v4 : StableHlo.TRef sig ⟨S50000x128, .f32⟩) (.of main_call0_v5 : StableHlo.TRef sig ⟨S50000x128, .f32⟩) subf,
    StableHlo.TRef.binary (.of main_call0_v5 : StableHlo.TRef sig ⟨S50000x128, .f32⟩) (.of main_call0_v5 : StableHlo.TRef sig ⟨S50000x128, .f32⟩) (.of main_call0_v6 : StableHlo.TRef sig ⟨S50000x128, .f32⟩) mulf,
    StableHlo.TRef.unary (.of main_c_31 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47435000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S50000x128, .f32⟩) (.of main_call0_cst_2 : StableHlo.TRef sig ⟨S_, .f32⟩) (.of main_call0_v9 : StableHlo.TRef sig ⟨S128, .f32⟩) (fun x v => Host.reduceAdd x v reducesTo_S50000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v121 : StableHlo.TRef sig ⟨S128, .f32⟩) (fun p a b => select (broadcastInDim S128 ![] bcast_S_S128 p) a b) ]

theorem ops5_sub : (ops5 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

theorem ops5_fresh : ∀ op ∈ (ops5 : List (HloOp τ sig (Elt F))), op.fresh = ∅ := by
  intro _ h; (repeat (cases h with | head => rfl | tail _ h => ?_)); exact nomatch h

/-- Operations 178 … 195 of the line. The normalisation with the learned scale and shift, and the relation projection. -/
abbrev ops6 : List (HloOp τ sig (Elt F)) :=
  [ StableHlo.unary main_v120 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v123 main_v124 (subf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0x3727C5AC#32),
    StableHlo.unary main_cst_32 main_v125 (broadcastInDim S128 ![] bcast_S_S128 : (⟨S_, .f32⟩ : BufTy).Contents (Elt F) → (⟨S128, .f32⟩ : BufTy).Contents (Elt F)),
    StableHlo.binary main_v121 main_v125 main_v126 (addf : (⟨S128, .f32⟩ : BufTy).Contents (Elt F) → (⟨S128, .f32⟩ : BufTy).Contents (Elt F) → (⟨S128, .f32⟩ : BufTy).Contents (Elt F)),
    StableHlo.unary main_v126 main_v127 (Host.rsqrt : (⟨S128, .f32⟩ : BufTy).Contents (Elt F) → (⟨S128, .f32⟩ : BufTy).Contents (Elt F)),
    StableHlo.unary main_v127 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v129 main_v130 (mulf : (⟨S50000x128, .f32⟩ : BufTy).Contents (Elt F) → (⟨S50000x128, .f32⟩ : BufTy).Contents (Elt F) → (⟨S50000x128, .f32⟩ : BufTy).Contents (Elt F)),
    StableHlo.unary main_arg8 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v132 main_v133 (mulf : (⟨S50000x128, .f32⟩ : BufTy).Contents (Elt F) → (⟨S50000x128, .f32⟩ : BufTy).Contents (Elt F) → (⟨S50000x128, .f32⟩ : BufTy).Contents (Elt F)),
    StableHlo.unary main_arg9 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v135 main_v136 (addf : (⟨S50000x128, .f32⟩ : BufTy).Contents (Elt F) → (⟨S50000x128, .f32⟩ : BufTy).Contents (Elt F) → (⟨S50000x128, .f32⟩ : BufTy).Contents (Elt F)),
    StableHlo.unary main_arg5 main_v137 ((transpose S128x128 [1, 0] · transposes_S128x128_S128x128_1_0) : (⟨S128x128, .f32⟩ : BufTy).Contents (Elt F) → (⟨S128x128, .f32⟩ : BufTy).Contents (Elt F)),
    StableHlo.binary main_arg1 main_v137 main_v138 ((fun l r => Host.dotGeneral dot_S1000x128_S128x128_S1000x128_1_0_0_1_n_n none l r) : (⟨S1000x128, .f32⟩ : BufTy).Contents (Elt F) → (⟨S128x128, .f32⟩ : BufTy).Contents (Elt F) → (⟨S1000x128, .f32⟩ : BufTy).Contents (Elt F)) ]

theorem ops6_sub : (ops6 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub ..⟩

theorem ops6_fresh : ∀ op ∈ (ops6 : List (HloOp τ sig (Elt F))), op.fresh = ∅ := by
  intro _ h; (repeat (cases h with | head => rfl | tail _ h => ?_)); exact nomatch h

/-- The whole line: the three windows of @main, the variance function's operations in place of its call. -/
abbrev ops : List (HloOp τ sig (Elt F)) := (ops0 ++ ops1) ++ ((ops2 ++ ops3) ++ (ops4 ++ (ops5 ++ ops6)))

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

set_option maxRecDepth 8192 in
/-- The first window is its sixty operations in order. -/
theorem part0_eq (c : Dev nD) : main_part0 (F := F) c = StableHlo.seq (ops0 ++ ops1) := rfl
set_option maxRecDepth 8192 in
/-- The second window likewise. -/
theorem part1_eq (c : Dev nD) : main_part1 (F := F) c = StableHlo.seq (ops2 ++ ops3) := rfl
set_option maxRecDepth 8192 in
/-- The third window: the two functions' definitions unfold at their calls, the records at their fields. -/
theorem part2_eq (c : Dev nD) : main_part2 (F := F) c = StableHlo.seq (ops4 ++ (ops5 ++ ops6)) := by
  simp only [main_part2, fn_var.body, fn_where.body, bind_assoc, pure_bind]
  rfl

/-- @main is the whole line: its windows in order (`seq_append`). -/
theorem main_eq (c : Dev nD) : main (F := F) c = StableHlo.seq ops := by
  show (main_part0 c >>= fun _ => main_part1 c >>= fun _ => main_part2 c) = _
  rw [StableHlo.seq_append (ops0 ++ ops1), StableHlo.seq_append (ops2 ++ ops3), part0_eq, part1_eq, part2_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  forall_append (forall_append ops0_sub ops1_sub)
    (forall_append (forall_append ops2_sub ops3_sub) (forall_append ops4_sub (forall_append ops5_sub ops6_sub)))

theorem ops_fresh : ∀ op ∈ (ops : List (HloOp τ sig (Elt F))), op.fresh = ∅ := by
  intro op h
  simp only [ops, List.mem_append] at h
  rcases h with (h | h) | (h | h) | h | h | h
  exacts [ops0_fresh op h, ops1_fresh op h, ops2_fresh op h, ops3_fresh op h, ops4_fresh op h, ops5_fresh op h, ops6_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ (fun _ => ops_fresh)

end Cert.ReferenceIdeal.HandRun

end
-- ==== Proof.RSpec.lean ====
/-
  The reference program's stages as pure functions of the argument arrays, at the extended reals: the edge list's two rows, the degree counts and the symmetric edge weight, the gathered embeddings, the per-edge matrix products scaled by the edge weight, the two scatter-adds, the division by three, batch normalisation.
-/
import proofs.«137193_j39762807226645_2_alg».proof.ReferenceIdeal
import proofs.«137193_j39762807226645_2_alg».proof.Proof.Gen.ReferenceIdeal
import Idealize.ShloMosaic.PureOps.Ideal
import Idealize.ShloMosaic.Lib.ValueIdx

noncomputable section

namespace Cert.ReferenceIdeal.RSpec

open Cert.ReferenceIdeal Cert.ReferenceIdeal.Facts₀ Cert.ReferenceIdeal.Facts Idealize.ShloMosaic Idealize.ShloMosaic.ValueIdx
open scoped BigOperators

/-- The first row of the edge list: the source entity of every edge. -/
def src (ei : IVec S2x600000 32) : IVec S600000 32 :=
  shapeCast S600000 (extractStridedSlice S1x600000 ![0, 0] ei slices_S2x600000_S1x600000_0_0) shapeCasts_S1x600000_S600000
/-- The second row of the edge list: the target entity of every edge. -/
def tgt (ei : IVec S2x600000 32) : IVec S600000 32 :=
  shapeCast S600000 (extractStridedSlice S1x600000 ![1, 0] ei slices_S2x600000_S1x600000_1_0) shapeCasts_S1x600000_S600000
/-- Twice the relation type: the row of the forward relation embedding. -/
def et2 (et : IVec S600000 32) : IVec S600000 32 :=
  muli (broadcastInDim S600000 ![] bcast_S_S600000 (constantI S_ 32 2#32)) et
/-- Twice the relation type plus one: the row of the inverse relation embedding. -/
def et2p1 (et : IVec S600000 32) : IVec S600000 32 :=
  addi (et2 et) (broadcastInDim S600000 ![] bcast_S_S600000 (constantI S_ 32 1#32))
/-- A negative index counted from the end of an axis of extent n. -/
def wrap (n : BitVec 32) (v : IVec S600000 32) : IVec S600000 32 :=
  select (cmpi .slt v (broadcastInDim S600000 ![] bcast_S_S600000 (constantI S_ 32 0#32)))
    (addi v (broadcastInDim S600000 ![] bcast_S_S600000 (constantI S_ 32 n))) v
/-- A vector of indices as one column of start indices. -/
def col (v : IVec S600000 32) : IVec S600000x1 32 := broadcastInDim S600000x1 ![0] bcast_S600000_S600000x1_0 v
/-- One per edge. -/
def ones : FVec Ideal S600000 .f32 :=
  broadcastInDim S600000 ![] bcast_S_S600000 (constant (F := Ideal) S_ .f32 0x3F800000#32)
/-- Zero per entity. -/
def zeros1 : FVec Ideal S50000 .f32 :=
  broadcastInDim S50000 ![] bcast_S_S50000 (constant (F := Ideal) S_ .f32 0x00000000#32)
/-- How many edges name each entity in the index vector idx. -/
def cnt (idx : IVec S600000 32) : FVec Ideal S50000 .f32 :=
  Host.scatterAdd (F := Ideal) scatter_S50000_S600000x1_S600000_n_0_0_1 zeros1 (col idx) ones
/-- Per edge, the count of the entity the edge names. -/
def deg (c : FVec Ideal S50000 .f32) (idx : IVec S600000 32) : FVec Ideal S600000 .f32 :=
  Host.gather gather_S50000_S600000x1_S600000_n_0_n_n_0_1_1 c (col (wrap 50000#32 idx))
/-- The symmetric edge weight: one over the square root of the product of the two degrees. -/
def ew (a b : IVec S600000 32) : FVec Ideal S600000 .f32 :=
  Host.rsqrt (F := Ideal) (mulf (deg (cnt a) a) (deg (cnt b) b))
/-- The entity embedding of the entity each edge names. -/
def rowsE (x_e : FVec Ideal S50000x128 .f32) (idx : IVec S600000 32) : FVec Ideal S600000x128 .f32 :=
  Host.gather gather_S50000x128_S600000x1_S600000x128_1_0_n_n_0_1_1128 x_e (col (wrap 50000#32 idx))
/-- The relation embedding of the row each edge names. -/
def rowsR (x_r : FVec Ideal S1000x128 .f32) (idx : IVec S600000 32) : FVec Ideal S600000x128 .f32 :=
  Host.gather gather_S1000x128_S600000x1_S600000x128_1_0_n_n_0_1_1128 x_r (col (wrap 1000#32 idx))
/-- Zero per entity and feature. -/
def zeros2 : FVec Ideal S50000x128 .f32 :=
  broadcastInDim S50000x128 ![] bcast_S_S50000x128 (constant (F := Ideal) S_ .f32 0x00000000#32)
/-- The per-edge messages summed into the entity each edge names through the column idx. -/
def segsum (idx : IVec S600000x1 32) (msg : FVec Ideal S600000x128 .f32) : FVec Ideal S50000x128 .f32 :=
  Host.scatterAdd (F := Ideal) scatter_S50000x128_S600000x1_S600000x128_1_0_0_1 zeros2 idx msg
/-- A feature vector repeated over all entities. -/
def rep (v : FVec Ideal S128 .f32) : FVec Ideal S50000x128 .f32 :=
  broadcastInDim S50000x128 ![0, 1] bcast_S1x128_S50000x128_0_1 (broadcastInDim S1x128 ![1] bcast_S128_S1x128_1 v)
/-- The batch mean over the entities, per feature. -/
def mean (x : FVec Ideal S50000x128 .f32) : FVec Ideal S128 .f32 :=
  Host.divf (F := Ideal) (Host.reduceAdd (F := Ideal) x (constant (F := Ideal) S_ .f32 0x00000000#32) reducesTo_S50000x128_S128_d0 h_S_)
    (broadcastInDim S128 ![] bcast_S_S128 (constant (F := Ideal) S_ .f32 0x47435000#32))
/-- The batch variance over the entities, per feature (the mean of the squared deviations, guarded by the
    count of degrees of freedom being positive). -/
def var (x : FVec Ideal S50000x128 .f32) : FVec Ideal S128 .f32 :=
  select
    (broadcastInDim S128 ![] bcast_S_S128
      (cmpf .ogt (subf (constant (F := Ideal) S_ .f32 0x47435000#32) (sitofp (F := Ideal) .f32 (constantI S_ 32 0#32)))
        (constant (F := Ideal) S_ .f32 0x00000000#32)))
    (Host.divf (F := Ideal)
      (Host.reduceAdd (F := Ideal)
        (mulf
          (subf x (broadcastInDim S50000x128 ![0, 1] bcast_S1x128_S50000x128_0_1
            (Host.divf (F := Ideal)
              (broadcastInDim S1x128 ![1] bcast_S128_S1x128_1
                (Host.reduceAdd (F := Ideal) x (constant (F := Ideal) S_ .f32 0x00000000#32) reducesTo_S50000x128_S128_d0 h_S_))
              (broadcastInDim S1x128 ![] bcast_S_S1x128 (constant (F := Ideal) S_ .f32 0x47435000#32)))))
          (subf x (broadcastInDim S50000x128 ![0, 1] bcast_S1x128_S50000x128_0_1
            (Host.divf (F := Ideal)
              (broadcastInDim S1x128 ![1] bcast_S128_S1x128_1
                (Host.reduceAdd (F := Ideal) x (constant (F := Ideal) S_ .f32 0x00000000#32) reducesTo_S50000x128_S128_d0 h_S_))
              (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128
        (subf (constant (F := Ideal) S_ .f32 0x47435000#32) (sitofp (F := Ideal) .f32 (constantI S_ 32 0#32)))))
    (broadcastInDim S128 ![] bcast_S_S128 (id (constant (F := Ideal) S_ .f32 0x7FC00000#32)))
/-- Batch normalisation over the entities: centre, scale by one over the root of the variance plus epsilon,
    then the learned scale and shift. -/
def tail (x : FVec Ideal S50000x128 .f32) (gamma beta : FVec Ideal S128 .f32) : FVec Ideal S50000x128 .f32 :=
  addf (mulf (mulf (subf x (rep (mean x)))
      (rep (Host.rsqrt (F := Ideal) (addf (var x) (broadcastInDim S128 ![] bcast_S_S128 (constant (F := Ideal) S_ .f32 0x3727C5AC#32))))))
    (rep gamma)) (rep beta)
/-- The relation projection's weight, transposed. -/
def wT (w_rel : FVec Ideal S128x128 .f32) : FVec Ideal S128x128 .f32 :=
  transpose S128x128 [1, 0] w_rel transposes_S128x128_S128x128_1_0

/-- A per-edge scalar repeated over the features. -/
def repE (v : FVec Ideal S600000 .f32) : FVec Ideal S600000x128 .f32 :=
  broadcastInDim S600000x128 ![0, 1] bcast_S600000x1_S600000x128_0_1 (broadcastInDim S600000x1 ![0] bcast_S600000_S600000x1_0 v)
/-- The per-edge messages: (x_e[a] − x_r[r]) times the weight, scaled by the edge weight. -/
def msg (x_e : FVec Ideal S50000x128 .f32) (x_r : FVec Ideal S1000x128 .f32) (w : FVec Ideal S128x128 .f32)
    (a b r : IVec S600000 32) : FVec Ideal S600000x128 .f32 :=
  mulf (Host.dotGeneral (F := Ideal) dot_S600000x128_S128x128_S600000x128_1_0_0_1_n_n none (subf (rowsE x_e a) (rowsR x_r r)) w)
    (repE (ew a b))
/-- The layer's output before batch normalisation. -/
def comb (x_e : FVec Ideal S50000x128 .f32) (x_r : FVec Ideal S1000x128 .f32) (w_loop w_fwd w_bwd : FVec Ideal S128x128 .f32)
    (sl : FVec Ideal S1x128 .f32) (bias : FVec Ideal S128 .f32) (ei : IVec S2x600000 32) (et : IVec S600000 32) :
    FVec Ideal S50000x128 .f32 :=
  addf
    (Host.divf (F := Ideal)
      (addf
        (addf
          (Host.dotGeneral (F := Ideal) dot_S50000x128_S128x128_S50000x128_1_0_0_1_n_n none
            (subf x_e (broadcastInDim S50000x128 ![0, 1] bcast_S1x128_S50000x128_0_1 sl)) w_loop)
          (segsum (col (wrap 50000#32 (tgt ei))) (msg x_e x_r w_fwd (src ei) (tgt ei) (et2 et))))
        (segsum (col (wrap 50000#32 (src ei))) (msg x_e x_r w_bwd (tgt ei) (src ei) (et2p1 et))))
      (broadcastInDim S50000x128 ![] bcast_S_S50000x128 (constant (F := Ideal) S_ .f32 0x40400000#32)))
    (rep bias)
/-- The new relation embeddings. -/
def rel (x_r : FVec Ideal S1000x128 .f32) (w_rel : FVec Ideal S128x128 .f32) : FVec Ideal S1000x128 .f32 :=
  Host.dotGeneral (F := Ideal) dot_S1000x128_S128x128_S1000x128_1_0_0_1_n_n none x_r (wT w_rel)

end Cert.ReferenceIdeal.RSpec

end
-- ==== Proof.RefVal.lean ====
/-
  What the reference program's line leaves in its two result buffers, as the specification's functions of the
  argument arrays: the fold of the operations read off at the result buffers, and the arguments unchanged.
-/
import proofs.«137193_j39762807226645_2_alg».proof.Proof.RefRun
import proofs.«137193_j39762807226645_2_alg».proof.Proof.RSpec

noncomputable section

namespace Cert.ReferenceIdeal.HandRun

open Cert.ReferenceIdeal Cert.ReferenceIdeal.Facts₀ Cert.ReferenceIdeal.Facts Idealize.ShloMosaic Idealize.ShloMosaic.TcCoe Idealize.SL.Sem Idealize.ShloMosaic.StableHlo

/-- The fold over a concatenation is the fold over the second list from the fold over the first. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

attribute [local irreducible] Host.reduceAdd Host.gather Host.scatterAdd in
set_option maxRecDepth 65536 in
set_option maxHeartbeats 40000000 in
/-- The first result buffer: the fold read off operation by operation is, term for term, the specification's
    composition — the edge rows, the degree counts and edge weights, the gathered rows, the two scaled matrix
    products scattered into their entities, the division by three, the bias, then the batch normalisation with
    the variance function's operations in place of its call. The reductions, gathers and scatters are kept
    folded while the two sides are compared: the equation never looks inside them. -/
theorem out0_eq (V : Valuation τ sig (Elt Ideal)) :
    after ops V (main_v136 : DevRef τ sig)
      = RSpec.tail (RSpec.comb (V (main_arg0 : DevRef τ sig)) (V (main_arg1 : DevRef τ sig)) (V (main_arg2 : DevRef τ sig))
          (V (main_arg3 : DevRef τ sig)) (V (main_arg4 : DevRef τ sig)) (V (main_arg6 : DevRef τ sig)) (V (main_arg7 : DevRef τ sig))
          (V (main_arg10 : DevRef τ sig)) (V (main_arg11 : DevRef τ sig)))
          (V (main_arg8 : DevRef τ sig)) (V (main_arg9 : DevRef τ sig)) := by
  simp only [ops, after_app]
  after_results_simp
  rfl

attribute [local irreducible] Host.reduceAdd Host.gather Host.scatterAdd in
set_option maxRecDepth 16384 in
set_option maxHeartbeats 4000000 in
/-- The second result buffer: the relation embeddings times the transposed projection weight. -/
theorem out1_eq (V : Valuation τ sig (Elt Ideal)) :
    after ops V (main_v138 : DevRef τ sig) = RSpec.rel (V (main_arg1 : DevRef τ sig)) (V (main_arg5 : DevRef τ sig)) := by
  simp only [ops, after_app]
  after_results_simp
  rfl

/-! No operation of the line writes an argument buffer: each keeps its launch contents. -/

set_option maxRecDepth 16384 in
set_option maxHeartbeats 4000000 in
theorem arg0_eq (V : Valuation τ sig (Elt Ideal)) :
    after ops V (main_arg0 : DevRef τ sig) = V (main_arg0 : DevRef τ sig) := by
  simp only [ops, after_app]
  after_results_simp

set_option maxRecDepth 16384 in
set_option maxHeartbeats 4000000 in
theorem arg1_eq (V : Valuation τ sig (Elt Ideal)) :
    after ops V (main_arg1 : DevRef τ sig) = V (main_arg1 : DevRef τ sig) := by
  simp only [ops, after_app]
  after_results_simp

set_option maxRecDepth 16384 in
set_option maxHeartbeats 4000000 in
theorem arg2_eq (V : Valuation τ sig (Elt Ideal)) :
    after ops V (main_arg2 : DevRef τ sig) = V (main_arg2 : DevRef τ sig) := by
  simp only [ops, after_app]
  after_results_simp

set_option maxRecDepth 16384 in
set_option maxHeartbeats 4000000 in
theorem arg3_eq (V : Valuation τ sig (Elt Ideal)) :
    after ops V (main_arg3 : DevRef τ sig) = V (main_arg3 : DevRef τ sig) := by
  simp only [ops, after_app]
  after_results_simp

set_option maxRecDepth 16384 in
set_option maxHeartbeats 4000000 in
theorem arg4_eq (V : Valuation τ sig (Elt Ideal)) :
    after ops V (main_arg4 : DevRef τ sig) = V (main_arg4 : DevRef τ sig) := by
  simp only [ops, after_app]
  after_results_simp

set_option maxRecDepth 16384 in
set_option maxHeartbeats 4000000 in
theorem arg5_eq (V : Valuation τ sig (Elt Ideal)) :
    after ops V (main_arg5 : DevRef τ sig) = V (main_arg5 : DevRef τ sig) := by
  simp only [ops, after_app]
  after_results_simp

set_option maxRecDepth 16384 in
set_option maxHeartbeats 4000000 in
theorem arg6_eq (V : Valuation τ sig (Elt Ideal)) :
    after ops V (main_arg6 : DevRef τ sig) = V (main_arg6 : DevRef τ sig) := by
  simp only [ops, after_app]
  after_results_simp

set_option maxRecDepth 16384 in
set_option maxHeartbeats 4000000 in
theorem arg7_eq (V : Valuation τ sig (Elt Ideal)) :
    after ops V (main_arg7 : DevRef τ sig) = V (main_arg7 : DevRef τ sig) := by
  simp only [ops, after_app]
  after_results_simp

set_option maxRecDepth 16384 in
set_option maxHeartbeats 4000000 in
theorem arg8_eq (V : Valuation τ sig (Elt Ideal)) :
    after ops V (main_arg8 : DevRef τ sig) = V (main_arg8 : DevRef τ sig) := by
  simp only [ops, after_app]
  after_results_simp

set_option maxRecDepth 16384 in
set_option maxHeartbeats 4000000 in
theorem arg9_eq (V : Valuation τ sig (Elt Ideal)) :
    after ops V (main_arg9 : DevRef τ sig) = V (main_arg9 : DevRef τ sig) := by
  simp only [ops, after_app]
  after_results_simp

set_option maxRecDepth 16384 in
set_option maxHeartbeats 4000000 in
theorem arg10_eq (V : Valuation τ sig (Elt Ideal)) :
    after ops V (main_arg10 : DevRef τ sig) = V (main_arg10 : DevRef τ sig) := by
  simp only [ops, after_app]
  after_results_simp

set_option maxRecDepth 16384 in
set_option maxHeartbeats 4000000 in
theorem arg11_eq (V : Valuation τ sig (Elt Ideal)) :
    after ops V (main_arg11 : DevRef τ sig) = V (main_arg11 : DevRef τ sig) := by
  simp only [ops, after_app]
  after_results_simp

/-- At the compiled mesh, at the extended reals, from any memory with zero counters: every weakly fair execution of
    the reference's @main terminates with its first result the batch-normalised layer output and its second the
    projected relation embeddings, as the specification's functions of the launch contents of the arguments, and
    the twelve arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v136)
        = RSpec.tail (RSpec.comb (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg6))
            (m ((c.tc : Thread nD τ).loc main_arg7)) (m ((c.tc : Thread nD τ).loc main_arg10)) (m ((c.tc : Thread nD τ).loc main_arg11)))
            (m ((c.tc : Thread nD τ).loc main_arg8)) (m ((c.tc : Thread nD τ).loc main_arg9))
      ∧ r.2.mem ((c.tc : Thread nD τ).loc main_v138) = RSpec.rel (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v136).trans (out0_eq _), (h c main_v138).trans (out1_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _), (h c main_arg8).trans (arg8_eq _), (h c main_arg9).trans (arg9_eq _), (h c main_arg10).trans (arg10_eq _), (h c main_arg11).trans (arg11_eq _)⟩)
    (run_main m ρ)

end Cert.ReferenceIdeal.HandRun

end
-- ==== Proof.BridgeSame.lean ====
/-
  The two programs build the edge list's rows, the wrap-around, the index column, the degree counts, the edge
  weight, the gathered embeddings, the segment sum and the batch normalisation from the same operations: the
  two spellings are one function.
-/
import proofs.«137193_j39762807226645_2_alg».proof.Proof.KSpec
import proofs.«137193_j39762807226645_2_alg».proof.Proof.RSpec

noncomputable section

namespace Cert.Bridge

open Idealize.ShloMosaic

theorem src_same : Cert.KernelIdeal.KSpec.src = Cert.ReferenceIdeal.RSpec.src := rfl
theorem tgt_same : Cert.KernelIdeal.KSpec.tgt = Cert.ReferenceIdeal.RSpec.tgt := rfl
theorem et2_same : Cert.KernelIdeal.KSpec.et2 = Cert.ReferenceIdeal.RSpec.et2 := rfl
theorem et2p1_same : Cert.KernelIdeal.KSpec.et2p1 = Cert.ReferenceIdeal.RSpec.et2p1 := rfl
theorem wrap_same : Cert.KernelIdeal.KSpec.wrap = Cert.ReferenceIdeal.RSpec.wrap := rfl
theorem col_same : Cert.KernelIdeal.KSpec.col = Cert.ReferenceIdeal.RSpec.col := rfl
theorem ew_same : Cert.KernelIdeal.KSpec.ew = Cert.ReferenceIdeal.RSpec.ew := rfl
theorem rowsE_same : Cert.KernelIdeal.KSpec.rowsE = Cert.ReferenceIdeal.RSpec.rowsE := rfl
theorem rowsR_same : Cert.KernelIdeal.KSpec.rowsR = Cert.ReferenceIdeal.RSpec.rowsR := rfl
theorem segsum_same : Cert.KernelIdeal.KSpec.segsum = Cert.ReferenceIdeal.RSpec.segsum := rfl
theorem rep_same : Cert.KernelIdeal.KSpec.rep = Cert.ReferenceIdeal.RSpec.rep := rfl
theorem wT_same : Cert.KernelIdeal.KSpec.wT = Cert.ReferenceIdeal.RSpec.wT := rfl
theorem tail_same : Cert.KernelIdeal.KSpec.tail = Cert.ReferenceIdeal.RSpec.tail := rfl

end Cert.Bridge

end
-- ==== Proof.LibScatterAdd.lean ====
import Idealize.ShloMosaic.PureOps.ShapeOps
import Idealize.ShloMosaic.Lib.ValueIdx
import Mathlib.Data.BitVec

open scoped BigOperators

namespace Idealize.ShloMosaic.ScatterAdd

open Idealize.ShloMosaic Idealize.ShloMosaic.ValueIdx

/-- A left fold of functions whose every step adds `g m` at the point `i` reads there as the start
value at `i` plus the sum of the `g m`. -/
theorem foldl_apply_add {ι β M : Type*} [AddCommMonoid M] (step : (β → M) → ι → (β → M)) (g : ι → M)
    (i : β) (hstep : ∀ r m, step r m i = r i + g m) (l : List ι) (r0 : β → M) :
    (l.foldl step r0) i = r0 i + (l.map g).sum := by
  induction l generalizing r0 with
  | nil => simp
  | cons a l ih => rw [List.foldl_cons, ih, hstep, List.map_cons, List.sum_cons, add_assoc]

/-- A scatter whose body is integer addition, read at an operand index: the operand's element plus the
sum of the updates whose result index is that index (updates landing outside the operand are
dropped). -/
theorem scatter_add_apply {s si u : Shape} {w v : ℕ} (d : ScatterDims s si u) (x : IVec s v)
    (idx : IVec si w) (upd : IVec u v) (i : s.Idx) :
    Host.scatter d IntOp.addi x idx upd i
      = x i + ∑ j : u.Idx, if d.resultIdx? j idx = some i then upd j else 0 := by
  unfold Host.scatter
  refine (foldl_apply_add _
    (fun m => if d.resultIdx? (u.rowMajor.symm m) idx = some i then upd (u.rowMajor.symm m) else 0)
    i ?_ _ _).trans ?_
  · intro r m
    generalize hres : d.resultIdx? (u.rowMajor.symm m) idx = o
    cases o with
    | none => simp
    | some i0 =>
      by_cases hi : i = i0
      · subst hi
        simp [IntOp.addi]
      · have hne : ¬ (some i0 = some i) := fun h => hi (Option.some.inj h).symm
        simp [hne, hi]
  · congr 1
    rw [← Fin.sum_univ_def, ← Equiv.sum_comp u.rowMajor]
    simp only [Equiv.symm_apply_apply]

/-- A rank-one index is its one coordinate. -/
def idxEquiv1 (n : ℕ) : (⟨1, ![n]⟩ : Shape).Idx ≃ Fin n where
  toFun i := i 0
  invFun a := ix1 a
  left_inv i := (eq_ix1 i).symm
  right_inv _ := rfl

/-- A sum over a rank-one index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 n).symm f]
  rfl

/-! ## One index column: scattering `M` scalar updates into a length-`N` operand -/

section Bincount
variable (N M : ℕ)
  (wf : ScatterDims.WF (⟨1, ![N]⟩ : Shape) (⟨2, ![M, 1]⟩ : Shape) (⟨1, ![M]⟩ : Shape) [] [0] [0] 1)

/-- The dimension numbers of a scatter of `M` scalar updates into a length-`N` operand through an
`M × 1` array of indices: no window axes, the operand's one axis inserted and named by the start
index's one component, the index vector along axis one. -/
abbrev bincountDims :
    ScatterDims (⟨1, ![N]⟩ : Shape) (⟨2, ![M, 1]⟩ : Shape) (⟨1, ![M]⟩ : Shape) where
  updateWindowDims := []
  insertedWindowDims := [0]
  scatterDimsToOperandDims := [0]
  indexVectorDim := 1
  wf := wf

/-- The start of update `p` on the operand's axis is index `(p, 0)` read as a signed integer. -/
theorem bincount_start (idx : IVec (⟨2, ![M, 1]⟩ : Shape) 32) (p : Fin M) :
    (bincountDims N M wf).start (ix1 p) idx 0 = (idx (ix2 p ⟨0, Nat.one_pos⟩)).toInt := by
  unfold ScatterDims.start
  rw [dif_pos (show (0 : Fin 1) ∈ (bincountDims N M wf).scatterDimsToOperandDims from
    List.mem_singleton.mpr rfl)]
  have hsi : (bincountDims N M wf).siIdx (ix1 p)
      ⟨List.idxOf (0 : Fin 1) (bincountDims N M wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The window coordinate of every update is zero: the operand's one axis is inserted. -/
theorem bincount_window (p : Fin M) : (bincountDims N M wf).window (ix1 p) 0 = 0 := by
  unfold ScatterDims.window
  rw [dif_neg]
  intro hmem
  have h2 := (List.mem_filter.mp hmem).2
  simp at h2

/-- Update `p` lands on slot `k` exactly when its index, read as a signed integer, is `k`. -/
theorem bincount_resultIdx?_eq_some_iff (idx : IVec (⟨2, ![M, 1]⟩ : Shape) 32) (p : Fin M) (k : Fin N) :
    (bincountDims N M wf).resultIdx? (ix1 p) idx = some (ix1 k)
      ↔ (idx (ix2 p ⟨0, Nat.one_pos⟩)).toInt = (k.val : ℤ) := by
  have hs := bincount_start N M wf idx p
  have hw := bincount_window N M wf p
  have hk := k.isLt
  unfold ScatterDims.resultIdx?
  split
  · rename_i hc
    have h0 := hc 0
    rw [hs, hw] at h0
    change 0 ≤ (idx (ix2 p ⟨0, Nat.one_pos⟩)).toInt + ((0 : ℕ) : ℤ)
      ∧ (idx (ix2 p ⟨0, Nat.one_pos⟩)).toInt + ((0 : ℕ) : ℤ) < (N : ℤ) at h0
    rw [Option.some.injEq]
    constructor
    · intro he
      have h1 := congrArg Fin.val (congrFun he 0)
      change ((bincountDims N M wf).start (ix1 p) idx 0
        + (((bincountDims N M wf).window (ix1 p) 0 : ℕ) : ℤ)).toNat = k.val at h1
      rw [hs, hw] at h1
      omega
    · intro he
      funext a
      obtain rfl : a = 0 := Subsingleton.elim _ _
      apply Fin.ext
      show ((bincountDims N M wf).start (ix1 p) idx 0
        + (((bincountDims N M wf).window (ix1 p) 0 : ℕ) : ℤ)).toNat = k.val
      rw [hs, hw]
      omega
  · rename_i hc
    constructor
    · intro he
      exact absurd he (by simp)
    · intro he
      exfalso
      apply hc
      intro a
      obtain rfl : a = 0 := Subsingleton.elim _ _
      rw [hs, hw]
      show 0 ≤ (idx (ix2 p ⟨0, Nat.one_pos⟩)).toInt + ((0 : ℕ) : ℤ)
        ∧ (idx (ix2 p ⟨0, Nat.one_pos⟩)).toInt + ((0 : ℕ) : ℤ) < (N : ℤ)
      omega

end Bincount

/-- Scattering `M` scalar updates by addition into a length-`N` operand through an `M × 1` array of
indices, read at slot `k`: the operand's element plus the sum of the updates whose index, read as a
signed integer, is `k` (an index outside `[0, N)` lands nowhere). -/
theorem bincount_apply (N M : ℕ)
    (wf : ScatterDims.WF (⟨1, ![N]⟩ : Shape) (⟨2, ![M, 1]⟩ : Shape) (⟨1, ![M]⟩ : Shape) [] [0] [0] 1)
    (x : IVec (⟨1, ![N]⟩ : Shape) 32) (idx : IVec (⟨2, ![M, 1]⟩ : Shape) 32)
    (upd : IVec (⟨1, ![M]⟩ : Shape) 32) (k : Fin N) :
    Host.scatter
      ({ updateWindowDims := [], insertedWindowDims := [0], scatterDimsToOperandDims := [0],
         indexVectorDim := 1, wf := wf } :
        ScatterDims (⟨1, ![N]⟩ : Shape) (⟨2, ![M, 1]⟩ : Shape) (⟨1, ![M]⟩ : Shape))
      IntOp.addi x idx upd (ix1 k)
      = x (ix1 k) + ∑ p : Fin M,
          if (idx (ix2 p ⟨0, Nat.one_pos⟩)).toInt = (k.val : ℤ) then upd (ix1 p) else 0#32 := by
  show Host.scatter (bincountDims N M wf) IntOp.addi x idx upd (ix1 k) = _
  rw [scatter_add_apply, sum_idx1]
  congr 1
  apply Finset.sum_congr rfl
  intro p _
  by_cases hc : (idx (ix2 p ⟨0, Nat.one_pos⟩)).toInt = (k.val : ℤ)
  · rw [if_pos hc, if_pos ((bincount_resultIdx?_eq_some_iff N M wf idx p k).mpr hc)]
  · rw [if_neg hc, if_neg (fun h => hc ((bincount_resultIdx?_eq_some_iff N M wf idx p k).mp h))]
    rfl

end Idealize.ShloMosaic.ScatterAdd
-- ==== Proof.LibGatherScatterCol.lean ====
import Idealize.ShloMosaic.PureOps.ShapeOps
import Idealize.ShloMosaic.PureOps.Ideal
import Idealize.ShloMosaic.Lib.ValueIdx
import proofs.«137193_j39762807226645_2_alg».proof.Proof.LibScatterAdd

/-!
# Gathers and accumulating scatters through one column of indices, read at an index

An `M × 1` array of integer indices addresses the rows of an operand with `N` rows, the operand either a
vector `[N]` or a one-column matrix `[N, 1]`.

* A *gather* reads, for every `p < M`, the operand's row `clamp (idx p)`: the index read as a signed integer
  and clamped into `[0, N − 1]`.
* An *accumulating scatter* at the ideal instance (floats are extended reals) leaves in row `k` the operand's
  element plus the sum of those updates `p` whose index, read as a signed integer, is exactly `k`; an index
  outside `[0, N)` lands nowhere.
-/

open scoped BigOperators

namespace Idealize.ShloMosaic.GatherScatterCol

open Idealize.ShloMosaic Idealize.ShloMosaic.ValueIdx Idealize.ShloMosaic.ScatterAdd

/-- A sum over the index set of an `M × 1` array is the sum over its rows. -/
theorem sum_idxCol {A : Type*} [AddCommMonoid A] {M : ℕ} (f : (⟨2, ![M, 1]⟩ : Shape).Idx → A) :
    ∑ i, f i = ∑ p : Fin M, f (ix2 p ⟨0, Nat.one_pos⟩) := by
  rw [sum_idx2]
  apply Finset.sum_congr rfl
  intro p _
  rw [Fin.sum_univ_one]
  rfl

/-! ## The accumulating scatter into a one-column matrix -/

section ColScatter
variable (N M : ℕ)
  (wf : ScatterDims.WF (⟨2, ![N, 1]⟩ : Shape) (⟨2, ![M, 1]⟩ : Shape) (⟨2, ![M, 1]⟩ : Shape) [1] [0] [0] 1)

/-- The dimension numbers of a scatter of `M` one-element rows into an `N × 1` operand through an `M × 1`
array of indices: the updates' second axis is the window axis and goes to the operand's second axis, the
operand's first axis is inserted and named by the start index's one component. -/
abbrev colDims :
    ScatterDims (⟨2, ![N, 1]⟩ : Shape) (⟨2, ![M, 1]⟩ : Shape) (⟨2, ![M, 1]⟩ : Shape) where
  updateWindowDims := [1]
  insertedWindowDims := [0]
  scatterDimsToOperandDims := [0]
  indexVectorDim := 1
  wf := wf

/-- On the operand's row axis the start of update `(p, q)` is index `(p, 0)` read as a signed integer. -/
theorem col_start0 (idx : IVec (⟨2, ![M, 1]⟩ : Shape) 32) (p : Fin M) (q : Fin 1) :
    (colDims N M wf).start (ix2 p q) idx 0 = (idx (ix2 p ⟨0, Nat.one_pos⟩)).toInt := by
  unfold ScatterDims.start
  rw [dif_pos (show (0 : Fin 2) ∈ (colDims N M wf).scatterDimsToOperandDims from
    List.mem_singleton.mpr rfl)]
  have hsi : (colDims N M wf).siIdx (ix2 p q)
      ⟨List.idxOf (0 : Fin 2) (colDims N M wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- On the operand's column axis, which the start index does not name, the start is zero. -/
theorem col_start1 (idx : IVec (⟨2, ![M, 1]⟩ : Shape) 32) (p : Fin M) (q : Fin 1) :
    (colDims N M wf).start (ix2 p q) idx 1 = 0 := by
  unfold ScatterDims.start
  rw [dif_neg]
  intro h
  exact absurd (congrArg Fin.val (List.mem_singleton.mp h)) Nat.one_ne_zero

/-- The window coordinate on the inserted row axis is zero. -/
theorem col_window0 (p : Fin M) (q : Fin 1) : (colDims N M wf).window (ix2 p q) 0 = 0 := by
  unfold ScatterDims.window
  rw [dif_neg]
  intro hmem
  have h2 := (List.mem_filter.mp hmem).2
  simp at h2

/-- The window coordinate on the column axis is zero: the column has one element. -/
theorem col_window1 (p : Fin M) (q : Fin 1) : (colDims N M wf).window (ix2 p q) 1 = 0 := by
  have hw := ScatterDims.window_size (colDims N M wf) ⟨0, Nat.one_pos⟩
  unfold ScatterDims.window
  split
  · have hq : ∀ r : Fin 1, r.val = 0 := fun r => by omega
    exact hq _
  · rfl

/-- Update `(p, q)` lands on element `(k, r)` exactly when index `p`, read as a signed integer, is `k`. -/
theorem col_resultIdx?_eq_some_iff (idx : IVec (⟨2, ![M, 1]⟩ : Shape) 32) (p : Fin M) (q r : Fin 1)
    (k : Fin N) :
    (colDims N M wf).resultIdx? (ix2 p q) idx = some (ix2 k r)
      ↔ (idx (ix2 p ⟨0, Nat.one_pos⟩)).toInt = (k.val : ℤ) := by
  have hs0 := col_start0 N M wf idx p q
  have hs1 := col_start1 N M wf idx p q
  have hw0 := col_window0 N M wf p q
  have hw1 := col_window1 N M wf p q
  have hk := k.isLt
  have hr : r.val = 0 := by omega
  unfold ScatterDims.resultIdx?
  split
  · rename_i hc
    have h0 := hc 0
    rw [hs0, hw0] at h0
    change 0 ≤ (idx (ix2 p ⟨0, Nat.one_pos⟩)).toInt + ((0 : ℕ) : ℤ)
      ∧ (idx (ix2 p ⟨0, Nat.one_pos⟩)).toInt + ((0 : ℕ) : ℤ) < (N : ℤ) at h0
    rw [Option.some.injEq]
    constructor
    · intro he
      have h1 := congrArg Fin.val (congrFun he 0)
      change ((colDims N M wf).start (ix2 p q) idx 0
        + (((colDims N M wf).window (ix2 p q) 0 : ℕ) : ℤ)).toNat = k.val at h1
      rw [hs0, hw0] at h1
      omega
    · intro he
      funext a
      match a with
      | ⟨0, _⟩ =>
        apply Fin.ext
        show ((colDims N M wf).start (ix2 p q) idx 0
          + (((colDims N M wf).window (ix2 p q) 0 : ℕ) : ℤ)).toNat = k.val
        rw [hs0, hw0]
        omega
      | ⟨1, _⟩ =>
        apply Fin.ext
        show ((colDims N M wf).start (ix2 p q) idx 1
          + (((colDims N M wf).window (ix2 p q) 1 : ℕ) : ℤ)).toNat = r.val
        rw [hs1, hw1]
        omega
  · rename_i hc
    constructor
    · intro he
      exact absurd he (by simp)
    · intro he
      exfalso
      apply hc
      intro a
      match a with
      | ⟨0, _⟩ =>
        show 0 ≤ (colDims N M wf).start (ix2 p q) idx 0
            + (((colDims N M wf).window (ix2 p q) 0 : ℕ) : ℤ)
          ∧ (colDims N M wf).start (ix2 p q) idx 0
            + (((colDims N M wf).window (ix2 p q) 0 : ℕ) : ℤ) < (N : ℤ)
        rw [hs0, hw0]
        omega
      | ⟨1, _⟩ =>
        show 0 ≤ (colDims N M wf).start (ix2 p q) idx 1
            + (((colDims N M wf).window (ix2 p q) 1 : ℕ) : ℤ)
          ∧ (colDims N M wf).start (ix2 p q) idx 1
            + (((colDims N M wf).window (ix2 p q) 1 : ℕ) : ℤ) < ((1 : ℕ) : ℤ)
        rw [hs1, hw1]
        omega

/-- At the ideal instance, the accumulating scatter into an `N × 1` operand read at row `k`: the operand's
element plus the sum of the updates whose index, read as a signed integer, is `k`. -/
theorem ideal_colScatterAdd_apply (x : (⟨2, ![N, 1]⟩ : Shape).Idx → EReal)
    (idx : IVec (⟨2, ![M, 1]⟩ : Shape) 32) (upd : (⟨2, ![M, 1]⟩ : Shape).Idx → EReal) (k : Fin N)
    (r : Fin 1) :
    Ideal.hostScatterAdd (colDims N M wf) x idx upd (ix2 k r)
      = x (ix2 k r) + ∑ p : Fin M,
          if (idx (ix2 p ⟨0, Nat.one_pos⟩)).toInt = (k.val : ℤ) then upd (ix2 p ⟨0, Nat.one_pos⟩) else 0 := by
  unfold Ideal.hostScatterAdd
  rw [Finset.sum_filter, sum_idxCol]
  congr 1
  apply Finset.sum_congr rfl
  intro p _
  exact if_congr (col_resultIdx?_eq_some_iff N M wf idx p ⟨0, Nat.one_pos⟩ r k) rfl rfl

end ColScatter

/-! ## The accumulating scatter into a vector -/

/-- At the ideal instance, the accumulating scatter of `M` scalar updates into a length-`N` operand read at
slot `k`: the operand's element plus the sum of the updates whose index, read as a signed integer, is `k`. -/
theorem ideal_vecScatterAdd_apply (N M : ℕ)
    (wf : ScatterDims.WF (⟨1, ![N]⟩ : Shape) (⟨2, ![M, 1]⟩ : Shape) (⟨1, ![M]⟩ : Shape) [] [0] [0] 1)
    (x : (⟨1, ![N]⟩ : Shape).Idx → EReal) (idx : IVec (⟨2, ![M, 1]⟩ : Shape) 32)
    (upd : (⟨1, ![M]⟩ : Shape).Idx → EReal) (k : Fin N) :
    Ideal.hostScatterAdd (bincountDims N M wf) x idx upd (ix1 k)
      = x (ix1 k) + ∑ p : Fin M,
          if (idx (ix2 p ⟨0, Nat.one_pos⟩)).toInt = (k.val : ℤ) then upd (ix1 p) else 0 := by
  unfold Ideal.hostScatterAdd
  rw [Finset.sum_filter, sum_idx1]
  congr 1
  apply Finset.sum_congr rfl
  intro p _
  exact if_congr (bincount_resultIdx?_eq_some_iff N M wf idx p k) rfl rfl

/-! ## The gathers -/

section Gather
variable {α : Type} (N M : ℕ)

/-- The dimension numbers of `x[idx]` for a vector `x : [N]` and an `M × 1` array of indices: the operand's
one axis collapsed and named by the start index's one component, no offset axis. -/
abbrev vecGatherDims
    (wf : GatherDims.WF (⟨1, ![N]⟩ : Shape) (⟨2, ![M, 1]⟩ : Shape) (⟨1, ![M]⟩ : Shape) [] [0] [] [0] [] 1 ![1]) :
    GatherDims (⟨1, ![N]⟩ : Shape) (⟨2, ![M, 1]⟩ : Shape) (⟨1, ![M]⟩ : Shape) where
  offsetDims := []
  collapsedSliceDims := [0]
  operandBatchingDims := []
  startIndicesBatchingDims := []
  startIndexMap := [0]
  indexVectorDim := 1
  sliceSizes := ![1]
  wf := wf

/-- The vector gather read at `p`: the operand at index `p`, read signed and clamped into `[0, N − 1]`. -/
theorem vecGather_apply (hN : 0 < N)
    (wf : GatherDims.WF (⟨1, ![N]⟩ : Shape) (⟨2, ![M, 1]⟩ : Shape) (⟨1, ![M]⟩ : Shape) [] [0] [] [0] [] 1 ![1])
    (x : (⟨1, ![N]⟩ : Shape).Idx → α) (idx : IVec (⟨2, ![M, 1]⟩ : Shape) 32) (p : Fin M) :
    Host.gather (vecGatherDims N M wf) x idx (ix1 p)
      = x (ix1 ⟨min (idx (ix2 p ⟨0, Nat.one_pos⟩)).toInt.toNat (N - 1), by omega⟩) := by
  unfold Host.gather
  congr 1
  funext a
  obtain rfl : a = 0 := Subsingleton.elim _ _
  refine Fin.ext ?_
  show (vecGatherDims N M wf).start (ix1 p) idx 0 + (vecGatherDims N M wf).batchCoord (ix1 p) 0
    + (vecGatherDims N M wf).offCoord (ix1 p) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 p)
      ⟨List.idxOf (0 : Fin 1) (vecGatherDims N M wf).startIndexMap,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]
  rfl

/-- The dimension numbers of a row gather from a one-column matrix `x : [N, 1]` through an `M × 1` array of
indices: the row axis collapsed and named by the start index's one component, the column axis the offset
axis. -/
abbrev colGatherDims
    (wf : GatherDims.WF (⟨2, ![N, 1]⟩ : Shape) (⟨2, ![M, 1]⟩ : Shape) (⟨2, ![M, 1]⟩ : Shape) [1] [0] [] [0] [] 1
      ![1, 1]) :
    GatherDims (⟨2, ![N, 1]⟩ : Shape) (⟨2, ![M, 1]⟩ : Shape) (⟨2, ![M, 1]⟩ : Shape) where
  offsetDims := [1]
  collapsedSliceDims := [0]
  operandBatchingDims := []
  startIndicesBatchingDims := []
  startIndexMap := [0]
  indexVectorDim := 1
  sliceSizes := ![1, 1]
  wf := wf

/-- The row gather read at `(p, q)`: the operand's element `(clamp (idx p), q)`. -/
theorem colGather_apply (hN : 0 < N)
    (wf : GatherDims.WF (⟨2, ![N, 1]⟩ : Shape) (⟨2, ![M, 1]⟩ : Shape) (⟨2, ![M, 1]⟩ : Shape) [1] [0] [] [0] [] 1
      ![1, 1])
    (x : (⟨2, ![N, 1]⟩ : Shape).Idx → α) (idx : IVec (⟨2, ![M, 1]⟩ : Shape) 32) (p : Fin M) (q : Fin 1) :
    Host.gather (colGatherDims N M wf) x idx (ix2 p q)
      = x (ix2 ⟨min (idx (ix2 p ⟨0, Nat.one_pos⟩)).toInt.toNat (N - 1), by omega⟩ q) := by
  unfold Host.gather
  congr 1
  funext a
  match a with
  | ⟨0, _⟩ =>
    refine Fin.ext ?_
    show (colGatherDims N M wf).start (ix2 p q) idx 0 + (colGatherDims N M wf).batchCoord (ix2 p q) 0
      + (colGatherDims N M wf).offCoord (ix2 p q) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (colGatherDims N M wf).startIndexMap from List.mem_singleton.mpr rfl)]
    have hsi : (colGatherDims N M wf).siIdx (ix2 p q)
        ⟨List.idxOf (0 : Fin 2) (colGatherDims N M wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    refine Fin.ext ?_
    have hq : ∀ r : Fin 1, r.val = 0 := fun r => by omega
    have hlt := GatherDims.lt (colGatherDims N M wf) (ix2 p q) idx 1
    show (colGatherDims N M wf).start (ix2 p q) idx 1 + (colGatherDims N M wf).batchCoord (ix2 p q) 1
      + (colGatherDims N M wf).offCoord (ix2 p q) 1 = q.val
    change (colGatherDims N M wf).start (ix2 p q) idx 1 + (colGatherDims N M wf).batchCoord (ix2 p q) 1
      + (colGatherDims N M wf).offCoord (ix2 p q) 1 < 1 at hlt
    rw [hq q]
    omega

end Gather

end Idealize.ShloMosaic.GatherScatterCol
-- ==== Proof.LibMeanCopies.lean ====
import Idealize.ShloMosaic.PureOps.Ideal
import Idealize.ShloMosaic.Lib.ValueIdx

/-!
# The mean of equal terms over the extended reals

Summing a value `v` once for each element of a finite set that satisfies a predicate, and dividing by the
number of such elements (at least one, as an extended real), gives back `v` when there is such an element —
for EVERY extended real `v`, the two infinities included — and `0` when there is none.  The number of such
elements is itself the sum of ones over them.
-/

open scoped BigOperators

namespace Idealize.ShloMosaic.MeanCopies

/-- A positive natural number of copies of `v`, over that number, is `v`: at the infinities too. -/
theorem div_natCast_mul (c : ℕ) (hc : 1 ≤ c) (v : EReal) :
    Ideal.div ((c : EReal) * v) (max (c : EReal) 1) = v := by
  have hcr : (0 : ℝ) < (c : ℝ) := by exact_mod_cast hc
  have hc1 : (1 : EReal) ≤ (c : EReal) := by
    rw [← EReal.coe_natCast, ← EReal.coe_one, EReal.coe_le_coe_iff]
    exact_mod_cast hc
  rw [max_eq_left hc1, ← EReal.coe_natCast, Ideal.div_coe (ne_of_gt hcr)]
  have hinv : (0 : ℝ) < 1 / (c : ℝ) := by positivity
  induction v using EReal.rec with
  | bot => rw [EReal.coe_mul_bot_of_pos hcr, EReal.bot_mul_coe_of_pos hinv]
  | top => rw [EReal.coe_mul_top_of_pos hcr, EReal.top_mul_coe_of_pos hinv]
  | coe r =>
    rw [← EReal.coe_mul, ← EReal.coe_mul]
    congr 1
    field_simp

/-- No copies, over one, is zero. -/
theorem div_zero_mul (v : EReal) : Ideal.div (((0 : ℕ) : EReal) * v) (max ((0 : ℕ) : EReal) 1) = 0 := by
  rw [Nat.cast_zero, zero_mul, max_eq_right (zero_le_one), Ideal.div, if_neg one_ne_zero, zero_mul]

/-- The sum of ones over the elements that satisfy `P` is their number. -/
theorem sum_ones {ι : Type*} [Fintype ι] (P : ι → Prop) [DecidablePred P] :
    (∑ n : ι, if P n then (1 : EReal) else 0) = ((Finset.univ.filter P).card : EReal) :=
  Finset.sum_boole P Finset.univ

/-- The sum of one value over the elements that satisfy `P` is their number times the value. -/
theorem sum_copies {ι : Type*} [Fintype ι] (P : ι → Prop) [DecidablePred P] (v : EReal) :
    (∑ n : ι, if P n then v else 0) = ((Finset.univ.filter P).card : EReal) * v := by
  rw [← Finset.sum_filter, Finset.sum_const, EReal.nsmul_eq_mul]

/-- The mean of one value over the elements that satisfy `P`, the divisor at least one: the value when some
element does, zero when none does.  `cnt` is the number of such elements, given as the sum of ones. -/
theorem mean_copies {ι : Type*} [Fintype ι] (P : ι → Prop) [DecidablePred P] (v : EReal) :
    Ideal.div (∑ n : ι, if P n then v else 0) (max (∑ n : ι, if P n then (1 : EReal) else 0) 1)
      = if 0 < (∑ n : ι, if P n then (1 : EReal) else 0) then v else 0 := by
  rw [sum_copies, sum_ones]
  rcases Nat.eq_zero_or_pos (Finset.univ.filter P).card with h | h
  · rw [h, div_zero_mul, if_neg]
    simp
  · rw [div_natCast_mul _ h, if_pos]
    exact_mod_cast h

end Idealize.ShloMosaic.MeanCopies
-- ==== Proof.BridgeEw.lean ====
/-
  The symmetric edge weight over an edge list whose entities are in range: the count of edges naming an entity
  that some edge names is a natural number at least one, so every edge weight, one over the square root of a
  product of two such counts, is a positive real; and an index that is not negative is its own wrap-around.
-/
import proofs.«137193_j39762807226645_2_alg».proof.Proof.KSpec
import proofs.«137193_j39762807226645_2_alg».proof.Proof.LibGatherScatterCol
import proofs.«137193_j39762807226645_2_alg».proof.Proof.LibMeanCopies
import Idealize.ShloMosaic.PureOps.Ideal.Laws
import Idealize.ShloMosaic.Lib.IdealHost
import Idealize.ShloMosaic.Lib.Pipeline.Value

set_option maxRecDepth 16384

noncomputable section

namespace Cert.KernelIdeal.Bridge

open Cert.KernelIdeal Cert.KernelIdeal.Facts₀ Cert.KernelIdeal.Facts Cert.KernelIdeal.KSpec
open Idealize.ShloMosaic Idealize.ShloMosaic.ValueIdx
open Idealize.ShloMosaic.GatherScatterCol Idealize.ShloMosaic.ScatterAdd Idealize.ShloMosaic.MeanCopies
open scoped BigOperators

/-- Every entry of an index vector names an entity: it lies in [0, 50000) read as a signed integer. -/
def InRange (v : IVec S600000 32) : Prop :=
  ∀ p : Fin 600000, 0 ≤ (v (ix1 p)).toInt ∧ (v (ix1 p)).toInt < 50000

/-- A signed word that is not negative is not below zero. -/
theorem cmpi_slt_zero_of_nonneg (a : BitVec 32) (h : 0 ≤ a.toInt) : IntOp.cmpi .slt a 0#32 = 0#1 := by
  unfold IntOp.cmpi
  have : a.slt 0#32 = false := by
    simp only [BitVec.slt, decide_eq_false_iff_not, not_lt]
    simpa using h
  rw [this]; rfl

/-- Counting from the end leaves an index that is not negative where it is. -/
theorem wrap_eq (n : BitVec 32) (v : IVec S600000 32) (h : ∀ p : Fin 600000, 0 ≤ (v (ix1 p)).toInt) : wrap n v = v := by
  funext i
  obtain ⟨p, rfl⟩ : ∃ p : Fin 600000, i = ix1 p := ⟨i 0, eq_ix1 i⟩
  unfold wrap
  rw [select_apply]
  have hc : cmpi .slt v (broadcastInDim S600000 ![] bcast_S_S600000 (constantI S_ 32 0#32)) (ix1 p) = 0#1 :=
    cmpi_slt_zero_of_nonneg _ (h p)
  rw [hc]
  rfl

/-- The zero and the one of the counts. -/
theorem zeros1_apply (k : Fin 50000) : zeros1 (ix1 k) = 0 := Ideal.ofBits_zero_f32
theorem ones_apply (p : Fin 600000) : ones (ix1 p) = 1 := Ideal.ofBits_one_f32
theorem col_apply (idx : IVec S600000 32) (p : Fin 600000) : col idx (ix2 p ⟨0, Nat.one_pos⟩) = idx (ix1 p) := by
  unfold col
  refine broadcastInDim_apply _ _ idx (ix2 p ⟨0, Nat.one_pos⟩) (ix1 p) fun a => ?_
  match a with
  | ⟨0, _⟩ => show p.val = if (600000 : ℕ) = 1 then 0 else p.val; rw [if_neg (by decide)]

/-- The count scatter at the ideal instance, for dimension numbers that are the one-column ones. -/
theorem scatterAdd_vec_apply (N M : ℕ)
    (wf : ScatterDims.WF (⟨1, ![N]⟩ : Shape) (⟨2, ![M, 1]⟩ : Shape) (⟨1, ![M]⟩ : Shape) [] [0] [0] 1)
    (d : ScatterDims (⟨1, ![N]⟩ : Shape) (⟨2, ![M, 1]⟩ : Shape) (⟨1, ![M]⟩ : Shape)) (hd : d = bincountDims N M wf)
    (x : FVec Ideal (⟨1, ![N]⟩ : Shape) .f32) (idx : IVec (⟨2, ![M, 1]⟩ : Shape) 32)
    (upd : FVec Ideal (⟨1, ![M]⟩ : Shape) .f32) (k : Fin N) :
    Host.scatterAdd (F := Ideal) d x idx upd (ix1 k)
      = x (ix1 k) + ∑ p : Fin M,
          if (idx (ix2 p ⟨0, Nat.one_pos⟩)).toInt = (k.val : ℤ) then upd (ix1 p) else 0 := by
  subst hd
  exact ideal_vecScatterAdd_apply N M wf x idx upd k

/-- The vector gather through one index column, for dimension numbers that are the one-column ones. -/
theorem gather_vec_apply {α : Type} (N M : ℕ) (hN : 0 < N)
    (wf : GatherDims.WF (⟨1, ![N]⟩ : Shape) (⟨2, ![M, 1]⟩ : Shape) (⟨1, ![M]⟩ : Shape) [] [0] [] [0] [] 1 ![1])
    (d : GatherDims (⟨1, ![N]⟩ : Shape) (⟨2, ![M, 1]⟩ : Shape) (⟨1, ![M]⟩ : Shape)) (hd : d = vecGatherDims N M wf)
    (x : (⟨1, ![N]⟩ : Shape).Idx → α) (idx : IVec (⟨2, ![M, 1]⟩ : Shape) 32) (p : Fin M) :
    Host.gather d x idx (ix1 p)
      = x (ix1 ⟨min (idx (ix2 p ⟨0, Nat.one_pos⟩)).toInt.toNat (N - 1), by omega⟩) := by
  subst hd
  exact vecGather_apply N M hN wf x idx p

/-- The count of the edges that name entity k: the number of edges whose index is k. -/
theorem cnt_apply (idx : IVec S600000 32) (k : Fin 50000) :
    cnt idx (ix1 k) = (((Finset.univ.filter fun p : Fin 600000 => (idx (ix1 p)).toInt = (k.val : ℤ)).card : ℕ) : EReal) := by
  unfold cnt
  refine (scatterAdd_vec_apply 50000 600000 scatter_S50000_S600000x1_S600000_n_0_0_1_wf scatter_S50000_S600000x1_S600000_n_0_0_1 rfl zeros1 (col idx) ones k).trans ?_
  rw [zeros1_apply, zero_add]
  have h2 : ∀ p : Fin 600000, (if (col idx (ix2 p ⟨0, Nat.one_pos⟩)).toInt = (k.val : ℤ) then ones (ix1 p) else 0)
      = (if (idx (ix1 p)).toInt = (k.val : ℤ) then (1 : EReal) else 0) := fun p => by rw [col_apply, ones_apply]
  rw [Finset.sum_congr rfl fun p _ => h2 p]
  exact sum_ones _

/-- The degree an edge reads: the count at the entity the edge names, when that entity is in range. -/
theorem deg_apply (c : FVec Ideal S50000 .f32) (idx : IVec S600000 32) (h : InRange idx) (p : Fin 600000) :
    deg c idx (ix1 p) = c (ix1 ⟨(idx (ix1 p)).toInt.toNat, by have := h p; omega⟩) := by
  unfold deg
  rw [wrap_eq _ _ fun q => (h q).1]
  refine (gather_vec_apply 50000 600000 (by omega) gather_S50000_S600000x1_S600000_n_0_n_n_0_1_1_wf
    gather_S50000_S600000x1_S600000_n_0_n_n_0_1_1 rfl c (col idx) p).trans ?_
  refine congrArg c (congrArg ix1 (Fin.ext ?_))
  show min (col idx (ix2 p ⟨0, Nat.one_pos⟩)).toInt.toNat (50000 - 1) = (idx (ix1 p)).toInt.toNat
  rw [col_apply]
  have := h p
  omega

/-- The degree an edge reads is a natural number at least one: the edge itself is counted. -/
theorem deg_cnt_pos (idx : IVec S600000 32) (h : InRange idx) (p : Fin 600000) :
    ∃ n : ℕ, 1 ≤ n ∧ deg (cnt idx) idx (ix1 p) = ((n : ℝ) : EReal) := by
  rw [deg_apply _ _ h, cnt_apply]
  refine ⟨_, Finset.card_pos.mpr ⟨p, Finset.mem_filter.mpr ⟨Finset.mem_univ _, ?_⟩⟩, by norm_cast⟩
  have := h p
  show (idx (ix1 p)).toInt = (((idx (ix1 p)).toInt.toNat : ℕ) : ℤ)
  omega

/-- One over the square root of a product of two vectors, at an index. -/
theorem rsqrt_mul_apply (A B : FVec Ideal S600000 .f32) (i : S600000.Idx) :
    Host.rsqrt (F := Ideal) (mulf A B) i = Ideal.rsqrt (A i * B i) := rfl

/-- The edge weight of every edge is a positive real. -/
theorem ew_pos (a b : IVec S600000 32) (ha : InRange a) (hb : InRange b) (p : Fin 600000) :
    ∃ r : ℝ, 0 < r ∧ ew a b (ix1 p) = (r : EReal) := by
  obtain ⟨n, hn, en⟩ := deg_cnt_pos a ha p
  obtain ⟨k, hk, ek⟩ := deg_cnt_pos b hb p
  have hn' : (0 : ℝ) < (n : ℝ) := by exact_mod_cast hn
  have hk' : (0 : ℝ) < (k : ℝ) := by exact_mod_cast hk
  have hpos : (0 : ℝ) < (n : ℝ) * (k : ℝ) := mul_pos hn' hk'
  refine ⟨(Real.sqrt ((n : ℝ) * (k : ℝ)))⁻¹, inv_pos.mpr (Real.sqrt_pos.mpr hpos), ?_⟩
  unfold ew
  rw [rsqrt_mul_apply, en, ek, ← EReal.coe_mul, Ideal.rsqrt_coe, if_neg (not_lt.mpr hpos.le), if_neg hpos.ne']

end Cert.KernelIdeal.Bridge

end
-- ==== Proof.BridgeIdx.lean ====
/-
  The two rows of an edge list read at an edge: the source and the target entity of the edge.
-/
import proofs.«137193_j39762807226645_2_alg».proof.Proof.KSpec
import Idealize.ShloMosaic.Lib.ValueLayout
import Idealize.ShloMosaic.Lib.Pipeline.Value

set_option maxRecDepth 16384

noncomputable section

namespace Cert.KernelIdeal.Bridge

open Cert.KernelIdeal Cert.KernelIdeal.Facts₀ Cert.KernelIdeal.Facts Cert.KernelIdeal.KSpec
open Idealize.ShloMosaic Idealize.ShloMosaic.ValueIdx

/-- The source of edge p is the edge list's entry (0, p). -/
theorem src_apply (ei : IVec S2x600000 32) (p : Fin 600000) : src ei (ix1 p) = ei (ix2 (0 : Fin 2) p) := by
  unfold src
  refine (shapeCast_1a_a_apply _ _ p).trans ?_
  refine extractStridedSlice_apply _ ei _ (ix2 (0 : Fin 1) p) (ix2 (0 : Fin 2) p) fun a => ?_
  match a with
  | ⟨0, _⟩ => rfl
  | ⟨1, _⟩ => exact (Nat.zero_add _).symm

/-- The target of edge p is the edge list's entry (1, p). -/
theorem tgt_apply (ei : IVec S2x600000 32) (p : Fin 600000) : tgt ei (ix1 p) = ei (ix2 (1 : Fin 2) p) := by
  unfold tgt
  refine (shapeCast_1a_a_apply _ _ p).trans ?_
  refine extractStridedSlice_apply _ ei _ (ix2 (0 : Fin 1) p) (ix2 (1 : Fin 2) p) fun a => ?_
  match a with
  | ⟨0, _⟩ => rfl
  | ⟨1, _⟩ => exact (Nat.zero_add _).symm

end Cert.KernelIdeal.Bridge

end
-- ==== Proof.BridgeReal.lean ====
/-
  Algebra on the extended reals for finite entries: a finite sum of reals is a real; scaling every term of a dot
  product of real entries by a real factor before the product with the weight, or scaling the dot product after,
  gives the same sum (distributivity, which needs finiteness on the extended reals); a product with the real 1/3
  is the quotient by 3.
-/
import Idealize.ShloMosaic.PureOps.Ideal

noncomputable section

namespace Cert.BridgeReal

open scoped BigOperators

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling each difference by c before the product with the weight, or the whole dot product after. -/
theorem scaled_dot {n : ℕ} (a b w : Fin n → EReal) (c : EReal) (ha : ∀ k, ∃ r : ℝ, a k = r) (hb : ∀ k, ∃ r : ℝ, b k = r)
    (hw : ∀ k, ∃ r : ℝ, w k = r) (hc : ∃ r : ℝ, c = r) :
    ∑ k, ((a k - b k) * c) * w k = (∑ k, (a k - b k) * w k) * c := by
  choose a' ha' using ha
  choose b' hb' using hb
  choose w' hw' using hw
  obtain ⟨c', rfl⟩ := hc
  simp only [ha', hb', hw', ← EReal.coe_sub, ← EReal.coe_mul, ← coe_sum]
  congr 1
  rw [Finset.sum_mul]
  exact Finset.sum_congr rfl fun k _ => by ring

end Cert.BridgeReal

end
-- ==== Proof.BridgeDot.lean ====
/-
  A matrix product with one contracted axis — rows of the left operand against columns of the right — read at an
  index as the plain sum over the contracted coordinate.
-/
import Idealize.ShloMosaic.PureOps.Ideal.Laws
import Idealize.ShloMosaic.Lib.ValueIdx

noncomputable section

namespace Cert.BridgeDot

open Idealize.ShloMosaic Idealize.ShloMosaic.ValueIdx
open scoped BigOperators

variable {M K N : ℕ} (d : DotDims ⟨2, ![M, K]⟩ ⟨2, ![K, N]⟩ ⟨2, ![M, N]⟩)

/-- The left operand's index at result (p, q) and contraction coordinate k is (p, k). -/
theorem lhsIdx_plain (hlc : d.lhsContracting = [1]) (hln : d.lhsNonContracting = [0]) (hlb : d.lhsBatch = [])
    (hr : d.contr.rank = 1) (hs : d.contr.size ⟨0, by omega⟩ = K) (p : Fin M) (q : Fin N) (k : Fin K) :
    d.lhsIdx (ix2 p q) ((contrEquiv1 d K hr hs).symm k) = ix2 p k := by
  funext a
  refine Fin.ext ?_
  match a with
  | ⟨0, _⟩ =>
    have hb : (⟨0, by decide⟩ : Fin 2) ∉ d.lhsBatch := by rw [hlb]; exact List.not_mem_nil
    have hn : (⟨0, by decide⟩ : Fin 2) ∈ d.lhsNonContracting := by rw [hln]; exact List.mem_singleton.mpr rfl
    unfold DotDims.lhsIdx
    rw [dif_neg hb, dif_pos hn]
    simp only [Fin.val_cast]
    have key : ∀ (x y : Nat) (hx : x < 2) (hy : y < 2), x = y → ((ix2 p q : (⟨2, ![M, N]⟩ : Shape).Idx) ⟨x, hx⟩).val = ((ix2 p q : (⟨2, ![M, N]⟩ : Shape).Idx) ⟨y, hy⟩).val :=
      fun x y hx hy h => by subst h; rfl
    exact (key _ 0 _ (by decide) (by simp [hlb, hln])).trans rfl
  | ⟨1, _⟩ =>
    exact (d.lhsIdx_val_of_single hlc _ _).trans (contrEquiv1_symm_val d K hr hs k)

/-- The right operand's index at result (p, q) and contraction coordinate k is (k, q). -/
theorem rhsIdx_plain (hrc : d.rhsContracting = [0]) (hrn : d.rhsNonContracting = [1]) (hrb : d.rhsBatch = [])
    (hlb : d.lhsBatch = []) (hln : d.lhsNonContracting = [0])
    (hr : d.contr.rank = 1) (hs : d.contr.size ⟨0, by omega⟩ = K) (p : Fin M) (q : Fin N) (k : Fin K) :
    d.rhsIdx (ix2 p q) ((contrEquiv1 d K hr hs).symm k) = ix2 k q := by
  funext a
  refine Fin.ext ?_
  match a with
  | ⟨0, _⟩ =>
    exact (d.rhsIdx_val_of_single hrc _ _).trans (contrEquiv1_symm_val d K hr hs k)
  | ⟨1, _⟩ =>
    have hb : (⟨1, by decide⟩ : Fin 2) ∉ d.rhsBatch := by rw [hrb]; exact List.not_mem_nil
    have hn : (⟨1, by decide⟩ : Fin 2) ∈ d.rhsNonContracting := by rw [hrn]; exact List.mem_singleton.mpr rfl
    unfold DotDims.rhsIdx
    rw [dif_neg hb, dif_pos hn]
    simp only [Fin.val_cast]
    have key : ∀ (x y : Nat) (hx : x < 2) (hy : y < 2), x = y → ((ix2 p q : (⟨2, ![M, N]⟩ : Shape).Idx) ⟨x, hx⟩).val = ((ix2 p q : (⟨2, ![M, N]⟩ : Shape).Idx) ⟨y, hy⟩).val :=
      fun x y hx hy h => by subst h; rfl
    exact (key _ 1 _ (by decide) (by simp [hlb, hln, hrn])).trans rfl

/-- The sum over the contraction index of the operands' products is the sum over the contracted coordinate. -/
theorem sum_plain (hlc : d.lhsContracting = [1]) (hln : d.lhsNonContracting = [0]) (hlb : d.lhsBatch = [])
    (hrc : d.rhsContracting = [0]) (hrn : d.rhsNonContracting = [1]) (hrb : d.rhsBatch = [])
    (hr : d.contr.rank = 1) (hs : d.contr.size ⟨0, by omega⟩ = K)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  rw [← Equiv.sum_comp (contrEquiv1 d K hr hs).symm]
  refine Finset.sum_congr rfl fun k _ => ?_
  rw [lhsIdx_plain d hlc hln hlb hr hs, rhsIdx_plain d hrc hrn hrb hlb hln hr hs]

end Cert.BridgeDot

end
-- ==== Proof.BridgeMsg.lean ====
/-
  The per-edge messages: the message region scales each difference x_e[a] − x_r[r] by the edge weight before the
  product with the weight matrix, over rows padded with zeros and cut back to the real edges; the reference scales
  the product afterwards.  On finite entries and finite edge weights the two agree, row by row, by distributivity.
-/
import proofs.«137193_j39762807226645_2_alg».proof.Proof.KSpec
import proofs.«137193_j39762807226645_2_alg».proof.Proof.RSpec
import proofs.«137193_j39762807226645_2_alg».proof.Proof.BridgeReal
import proofs.«137193_j39762807226645_2_alg».proof.Proof.BridgeDot
import proofs.«137193_j39762807226645_2_alg».proof.Proof.LibColumn
import Idealize.ShloMosaic.Lib.KernelVsHost
import Idealize.ShloMosaic.Lib.Pipeline.Value
import Idealize.ShloMosaic.PureOps.Ideal.Laws

set_option maxRecDepth 16384

noncomputable section

namespace Cert.Bridge

open Idealize.ShloMosaic Idealize.ShloMosaic.ValueIdx
open scoped BigOperators

/-- A row of the real edges out of the padded array is that row. -/
theorem sliceRows_apply (y : FVec Ideal Cert.KernelIdeal.S602112x128 .f32) (p : Fin 600000) (q : Fin 128) :
    Cert.KernelIdeal.KSpec.sliceRows y (ix2 p q) = y (ix2 (⟨p.val, by omega⟩ : Fin 602112) q) := by
  unfold Cert.KernelIdeal.KSpec.sliceRows
  refine extractStridedSlice_apply _ y _ (ix2 p q) (ix2 (⟨p.val, by omega⟩ : Fin 602112) q) fun a => ?_
  match a with
  | ⟨0, _⟩ => exact (Nat.zero_add _).symm
  | ⟨1, _⟩ => exact (Nat.zero_add _).symm

/-- A real edge's row of the padded rows is the row. -/
theorem padRows_apply (x : FVec Ideal Cert.KernelIdeal.S600000x128 .f32) (p : Fin 600000) (k : Fin 128) :
    Cert.KernelIdeal.KSpec.padRows x (ix2 (⟨p.val, by omega⟩ : Fin 602112) k) = x (ix2 p k) := by
  unfold Cert.KernelIdeal.KSpec.padRows
  refine pad_apply_of_inside _ _ _ x _ _ _ (ix2 (⟨p.val, by omega⟩ : Fin 602112) k) (ix2 p k) fun a => ?_
  match a with
  | ⟨0, _⟩ => show p.val = 0 + p.val * (0 + 1); omega
  | ⟨1, _⟩ => show k.val = 0 + k.val * (0 + 1); omega

/-- A real edge's entry of the padded weights is the weight. -/
theorem padVec_apply (e : FVec Ideal Cert.KernelIdeal.S600000 .f32) (p : Fin 600000) :
    Cert.KernelIdeal.KSpec.padVec e (ix1 (⟨p.val, by omega⟩ : Fin 602112)) = e (ix1 p) := by
  unfold Cert.KernelIdeal.KSpec.padVec
  refine pad_apply_of_inside _ _ _ e _ _ _ (ix1 (⟨p.val, by omega⟩ : Fin 602112)) (ix1 p) fun a => ?_
  match a with
  | ⟨0, _⟩ => show p.val = 0 + p.val * (0 + 1); omega

/-- A per-edge scalar repeated over the features reads the scalar. -/
theorem repE_apply (e : FVec Ideal Cert.ReferenceIdeal.S600000 .f32) (p : Fin 600000) (q : Fin 128) :
    Cert.ReferenceIdeal.RSpec.repE e (ix2 p q) = e (ix1 p) := by
  unfold Cert.ReferenceIdeal.RSpec.repE
  refine (broadcastInDim_apply _ _ _ (ix2 p q) (ix2 p (0 : Fin 1)) fun a => ?_).trans ?_
  · match a with
    | ⟨0, _⟩ => show p.val = if (600000 : ℕ) = 1 then 0 else p.val; rw [if_neg (by decide)]
    | ⟨1, _⟩ => show (0 : ℕ) = if (1 : ℕ) = 1 then 0 else q.val; rw [if_pos rfl]
  · refine broadcastInDim_apply _ _ e (ix2 p (0 : Fin 1)) (ix1 p) fun a => ?_
    match a with
    | ⟨0, _⟩ => show p.val = if (600000 : ℕ) = 1 then 0 else p.val; rw [if_neg (by decide)]

/-- The reference's per-edge matrix product read at (p, q): the sum over the contracted feature. -/
theorem dotE_apply (l : FVec Ideal Cert.ReferenceIdeal.S600000x128 .f32) (r : FVec Ideal Cert.ReferenceIdeal.S128x128 .f32)
    (p : Fin 600000) (q : Fin 128) :
    Host.dotGeneral (F := Ideal) Cert.ReferenceIdeal.dot_S600000x128_S128x128_S600000x128_1_0_0_1_n_n none l r (ix2 p q)
      = ∑ k : Fin 128, l (ix2 p k) * r (ix2 k q) := by
  refine (Ideal.dotGeneral_apply _ none _ l r (ix2 p q)).trans ?_
  exact Cert.BridgeDot.sum_plain _ rfl rfl rfl rfl rfl rfl rfl rfl l r p q

/-- The message region's rows of the real edges are the reference's scaled per-edge products. -/
theorem msg_eq (xs xr : FVec Ideal Cert.KernelIdeal.S600000x128 .f32) (w : FVec Ideal Cert.KernelIdeal.S128x128 .f32)
    (e : FVec Ideal Cert.KernelIdeal.S600000 .f32)
    (hxs : ∀ i, ∃ r : ℝ, xs i = r) (hxr : ∀ i, ∃ r : ℝ, xr i = r) (hw : ∀ i, ∃ r : ℝ, w i = r) (he : ∀ i, ∃ r : ℝ, e i = r) :
    Cert.KernelIdeal.KSpec.sliceRows (Cert.KernelIdeal.KSpec.Gmsg (Cert.KernelIdeal.KSpec.padRows xs) (Cert.KernelIdeal.KSpec.padRows xr) w
        (shapeCast Cert.KernelIdeal.S602112x1 (Cert.KernelIdeal.KSpec.padVec e) Cert.KernelIdeal.Facts₀.shapeCasts_S602112_S602112x1))
      = mulf (Host.dotGeneral (F := Ideal) Cert.ReferenceIdeal.dot_S600000x128_S128x128_S600000x128_1_0_0_1_n_n none (subf xs xr) w)
          (Cert.ReferenceIdeal.RSpec.repE e) := by
  funext i
  obtain ⟨p, q, rfl⟩ : ∃ (p : Fin 600000) (q : Fin 128), i = ix2 p q := ⟨i 0, i 1, eq_ix2 i⟩
  rw [sliceRows_apply, mulf_apply, dotE_apply, repE_apply]
  show ∑ k : Fin 128, ((Cert.KernelIdeal.KSpec.padRows xs (ix2 (⟨p.val, by omega⟩ : Fin 602112) k)
        - Cert.KernelIdeal.KSpec.padRows xr (ix2 (⟨p.val, by omega⟩ : Fin 602112) k))
        * shapeCast Cert.KernelIdeal.S602112x1 (Cert.KernelIdeal.KSpec.padVec e) Cert.KernelIdeal.Facts₀.shapeCasts_S602112_S602112x1
            (ix2 (⟨p.val, by omega⟩ : Fin 602112) (0 : Fin 1))) * w (ix2 k q) = _
  rw [Cert.Lib.shapeCast_a_a1_apply, padVec_apply]
  simp only [padRows_apply, subf_apply]
  exact Cert.BridgeReal.scaled_dot (fun k => xs (ix2 p k)) (fun k => xr (ix2 p k)) (fun k => w (ix2 k q)) (e (ix1 p))
    (fun k => hxs _) (fun k => hxr _) (fun k => hw _) (he _)

end Cert.Bridge

end
-- ==== Proof.BridgeComb.lean ====
/-
  The layer's output before batch normalisation is the same array in both programs: the self-loop term is the
  same sum, the two message sums are sums of the same per-edge messages over the same entities (an entity index
  in range is its own wrap-around; the edge weights are finite, so scaling before or after the matrix product
  agree; the product of the two degrees does not depend on their order), and the product with the real 1/3 is
  the quotient by 3 on every extended real.
-/
import proofs.«137193_j39762807226645_2_alg».proof.Proof.BridgeSame
import proofs.«137193_j39762807226645_2_alg».proof.Proof.BridgeEw
import proofs.«137193_j39762807226645_2_alg».proof.Proof.BridgeIdx
import proofs.«137193_j39762807226645_2_alg».proof.Proof.BridgeMsg
import Idealize.ShloMosaic.Lib.IdealHost

set_option maxRecDepth 16384

noncomputable section

namespace Cert.Bridge

open Idealize.ShloMosaic Idealize.ShloMosaic.ValueIdx
open Cert.KernelIdeal.Bridge
open scoped BigOperators

/-- The f32 pattern of 3.0 is the real 3. -/
theorem ofBits_three : Ideal.ofBits .f32 0x40400000#32 = ((3 : ℝ) : EReal) := by
  simp [Ideal.ofBits, Ideal.ieee, -EReal.coe_mul]; norm_num

/-- The reference's self-loop matrix product read at (n, j): the sum over the contracted feature. -/
theorem dotN_apply (l : FVec Ideal Cert.ReferenceIdeal.S50000x128 .f32) (r : FVec Ideal Cert.ReferenceIdeal.S128x128 .f32)
    (n : Fin 50000) (j : Fin 128) :
    Host.dotGeneral (F := Ideal) Cert.ReferenceIdeal.dot_S50000x128_S128x128_S50000x128_1_0_0_1_n_n none l r (ix2 n j)
      = ∑ k : Fin 128, l (ix2 n k) * r (ix2 k j) := by
  refine (Ideal.dotGeneral_apply _ none _ l r (ix2 n j)).trans ?_
  exact Cert.BridgeDot.sum_plain _ rfl rfl rfl rfl rfl rfl rfl rfl l r n j

/-- A feature vector repeated over all entities reads the vector at the feature. -/
theorem rep_apply (v : FVec Ideal Cert.ReferenceIdeal.S128 .f32) (n : Fin 50000) (j : Fin 128) :
    Cert.ReferenceIdeal.RSpec.rep v (ix2 n j) = v (ix1 j) := by
  unfold Cert.ReferenceIdeal.RSpec.rep
  refine (broadcastInDim_oneRow_apply _ _ n j).trans ?_
  refine broadcastInDim_apply _ _ v (ix2 (0 : Fin 1) j) (ix1 j) fun a => ?_
  match a with
  | ⟨0, _⟩ => show j.val = if (128 : ℕ) = 1 then 0 else j.val; rw [if_neg (by decide)]

/-- The gathered entity rows are entries of the entity embeddings. -/
theorem rowsE_real (x_e : FVec Ideal Cert.KernelIdeal.S50000x128 .f32) (idx : IVec Cert.KernelIdeal.S600000 32)
    (h : ∀ i, ∃ r : ℝ, x_e i = r) (i : Cert.KernelIdeal.S600000x128.Idx) : ∃ r : ℝ, Cert.KernelIdeal.KSpec.rowsE x_e idx i = r := by
  unfold Cert.KernelIdeal.KSpec.rowsE Host.gather
  exact h _

/-- The gathered relation rows are entries of the relation embeddings. -/
theorem rowsR_real (x_r : FVec Ideal Cert.KernelIdeal.S1000x128 .f32) (idx : IVec Cert.KernelIdeal.S600000 32)
    (h : ∀ i, ∃ r : ℝ, x_r i = r) (i : Cert.KernelIdeal.S600000x128.Idx) : ∃ r : ℝ, Cert.KernelIdeal.KSpec.rowsR x_r idx i = r := by
  unfold Cert.KernelIdeal.KSpec.rowsR Host.gather
  exact h _

/-- The edge weights over an edge list in range are finite. -/
theorem ew_real (a b : IVec Cert.KernelIdeal.S600000 32) (ha : InRange a) (hb : InRange b) (i : Cert.KernelIdeal.S600000.Idx) :
    ∃ r : ℝ, Cert.KernelIdeal.KSpec.ew a b i = r := by
  obtain ⟨p, rfl⟩ : ∃ p : Fin 600000, i = ix1 p := ⟨i 0, eq_ix1 i⟩
  obtain ⟨r, -, hr⟩ := ew_pos a b ha hb p
  exact ⟨r, hr⟩

/-- The product of the two degrees does not depend on their order. -/
theorem ew_comm (a b : IVec Cert.KernelIdeal.S600000 32) : Cert.KernelIdeal.KSpec.ew a b = Cert.KernelIdeal.KSpec.ew b a := by
  funext i
  unfold Cert.KernelIdeal.KSpec.ew
  rw [rsqrt_mul_apply, rsqrt_mul_apply, mul_comm]

/-- The combine region's array over given message sums is the reference's sum, quotient by three and bias. -/
theorem comb_point (x_e : FVec Ideal Cert.KernelIdeal.S50000x128 .f32) (sl : FVec Ideal Cert.KernelIdeal.S1x128 .f32)
    (wl : FVec Ideal Cert.KernelIdeal.S128x128 .f32) (f b : FVec Ideal Cert.KernelIdeal.S50000x128 .f32)
    (bias : FVec Ideal Cert.KernelIdeal.S128 .f32) :
    Cert.KernelIdeal.KSpec.Gcomb x_e sl wl f b (Cert.KernelIdeal.KSpec.bias2 bias)
      = addf
          (Host.divf (F := Ideal)
            (addf
              (addf
                (Host.dotGeneral (F := Ideal) Cert.ReferenceIdeal.dot_S50000x128_S128x128_S50000x128_1_0_0_1_n_n none
                  (subf x_e (broadcastInDim Cert.ReferenceIdeal.S50000x128 ![0, 1] Cert.ReferenceIdeal.Facts₀.bcast_S1x128_S50000x128_0_1 sl)) wl)
                f)
              b)
            (broadcastInDim Cert.ReferenceIdeal.S50000x128 ![] Cert.ReferenceIdeal.Facts₀.bcast_S_S50000x128
              (constant (F := Ideal) Cert.ReferenceIdeal.S_ .f32 0x40400000#32)))
          (Cert.ReferenceIdeal.RSpec.rep bias) := by
  funext i
  obtain ⟨n, j, rfl⟩ : ∃ (n : Fin 50000) (j : Fin 128), i = ix2 n j := ⟨i 0, i 1, eq_ix2 i⟩
  rw [addf_apply, hostDivf_apply, addf_apply, addf_apply, dotN_apply, rep_apply, broadcastInDim_scalar_apply]
  show ((∑ k : Fin 128, (x_e (ix2 n k) - sl (ix2 (0 : Fin 1) k)) * wl (ix2 k j)) + f (ix2 n j) + b (ix2 n j)) * ((1 / 3 : ℝ) : EReal)
      + Cert.KernelIdeal.KSpec.bias2 bias (ix2 (0 : Fin 1) j) = _
  have hb2 : Cert.KernelIdeal.KSpec.bias2 bias (ix2 (0 : Fin 1) j) = bias (ix1 j) := by
    unfold Cert.KernelIdeal.KSpec.bias2
    exact shapeCast_a_1a_apply _ _ _ _
  have h3 : (constant (F := Ideal) Cert.ReferenceIdeal.S_ .f32 0x40400000#32) ix0 = ((3 : ℝ) : EReal) := ofBits_three
  rw [hb2, h3, Ideal.div_coe (by norm_num : (3 : ℝ) ≠ 0)]
  have hsl : ∀ k : Fin 128, broadcastInDim Cert.ReferenceIdeal.S50000x128 ![0, 1] Cert.ReferenceIdeal.Facts₀.bcast_S1x128_S50000x128_0_1 sl (ix2 n k)
      = sl (ix2 (0 : Fin 1) k) := fun k => broadcastInDim_oneRow_apply _ sl n k
  simp only [subf_apply, hsl]

/-- The layer's output before batch normalisation, in the kernel program and in the reference. -/
theorem comb_eq (x_e : FVec Ideal Cert.KernelIdeal.S50000x128 .f32) (x_r : FVec Ideal Cert.KernelIdeal.S1000x128 .f32)
    (wl wf wb : FVec Ideal Cert.KernelIdeal.S128x128 .f32) (sl : FVec Ideal Cert.KernelIdeal.S1x128 .f32)
    (bias : FVec Ideal Cert.KernelIdeal.S128 .f32) (ei : IVec Cert.KernelIdeal.S2x600000 32) (et : IVec Cert.KernelIdeal.S600000 32)
    (hxe : ∀ i, ∃ r : ℝ, x_e i = r) (hxr : ∀ i, ∃ r : ℝ, x_r i = r) (hwf : ∀ i, ∃ r : ℝ, wf i = r) (hwb : ∀ i, ∃ r : ℝ, wb i = r)
    (hei : ∀ i, 0 ≤ (ei i).toInt ∧ (ei i).toInt < 50000) :
    Cert.KernelIdeal.KSpec.comb x_e x_r wl wf wb sl bias ei et = Cert.ReferenceIdeal.RSpec.comb x_e x_r wl wf wb sl bias ei et := by
  have hs : InRange (Cert.KernelIdeal.KSpec.src ei) := fun p => by rw [src_apply]; exact hei _
  have ht : InRange (Cert.KernelIdeal.KSpec.tgt ei) := fun p => by rw [tgt_apply]; exact hei _
  have hF : Cert.KernelIdeal.KSpec.msgFwd x_e x_r wf ei et
      = Cert.ReferenceIdeal.RSpec.msg x_e x_r wf (Cert.KernelIdeal.KSpec.src ei) (Cert.KernelIdeal.KSpec.tgt ei) (Cert.KernelIdeal.KSpec.et2 et) := by
    unfold Cert.KernelIdeal.KSpec.msgFwd Cert.KernelIdeal.KSpec.ewCol Cert.ReferenceIdeal.RSpec.msg
    rw [← rowsE_same, ← rowsR_same, ← ew_same]
    exact msg_eq _ _ wf _ (rowsE_real x_e _ hxe) (rowsR_real x_r _ hxr) hwf (ew_real _ _ hs ht)
  have hB : Cert.KernelIdeal.KSpec.msgBwd x_e x_r wb ei et
      = Cert.ReferenceIdeal.RSpec.msg x_e x_r wb (Cert.KernelIdeal.KSpec.tgt ei) (Cert.KernelIdeal.KSpec.src ei) (Cert.KernelIdeal.KSpec.et2p1 et) := by
    unfold Cert.KernelIdeal.KSpec.msgBwd Cert.KernelIdeal.KSpec.ewCol Cert.ReferenceIdeal.RSpec.msg
    rw [← rowsE_same, ← rowsR_same, ← ew_same, ew_comm (Cert.KernelIdeal.KSpec.tgt ei)]
    exact msg_eq _ _ wb _ (rowsE_real x_e _ hxe) (rowsR_real x_r _ hxr) hwb (ew_real _ _ hs ht)
  unfold Cert.KernelIdeal.KSpec.comb Cert.ReferenceIdeal.RSpec.comb
  rw [← segsum_same, ← col_same, ← wrap_same, ← tgt_same, ← src_same, ← et2_same, ← et2p1_same,
    wrap_eq _ _ (fun q => (ht q).1), wrap_eq _ _ (fun q => (hs q).1), hF, hB]
  exact comb_point x_e sl wl _ _ bias

/-- The new relation embeddings: the projection region's sums are the reference's matrix product. -/
theorem rel_eq (x_r : FVec Ideal Cert.KernelIdeal.S1000x128 .f32) (w_rel : FVec Ideal Cert.KernelIdeal.S128x128 .f32) :
    Cert.KernelIdeal.KSpec.rel x_r w_rel = Cert.ReferenceIdeal.RSpec.rel x_r w_rel := by
  funext i
  obtain ⟨p, q, rfl⟩ : ∃ (p : Fin 1000) (q : Fin 128), i = ix2 p q := ⟨i 0, i 1, eq_ix2 i⟩
  unfold Cert.KernelIdeal.KSpec.rel Cert.ReferenceIdeal.RSpec.rel
  rw [← wT_same]
  refine Eq.symm ((Ideal.dotGeneral_apply _ none _ x_r _ (ix2 p q)).trans ?_)
  exact Cert.BridgeDot.sum_plain _ rfl rfl rfl rfl rfl rfl rfl rfl x_r _ p q

end Cert.Bridge

end
-- ==== Proof.PreDecode.lean ====
/-
  The precondition read back. It states that a conjunction of eleven "all entries satisfy" tests is true: for each
  of the ten float arguments, |x| < +∞ at every entry, and for the edge list, 0 ≤ e and e < 50000 at every entry.
  A conjunction of bits is 1 exactly when both bits are 1; a reduction by "and" into one result that is 1 met a 1
  at every entry; an extended real whose absolute value max x (−x) is below +∞ is a real; the signed comparisons
  of 32-bit words are the comparisons of their integer values.
-/
import proofs.«137193_j39762807226645_2_alg».proof.Defs
import proofs.«137193_j39762807226645_2_alg».proof.Proof.Gen.KernelIdeal
import proofs.«137193_j39762807226645_2_alg».proof.Proof.Gen.Pre_finite_inputs
import Idealize.ShloMosaic.Lib.ReduceAll
import Idealize.ShloMosaic.Lib.Affine
import Idealize.ShloMosaic.Lib.ValueIdx

set_option maxRecDepth 16384

noncomputable section

namespace Cert.KernelIdeal.PreDecode

open Idealize.ShloMosaic Idealize.ShloMosaic.ValueIdx Idealize.SL.Sem

/-- The scalar shape has one index. -/
instance scalarIdx_subsingleton : Subsingleton (⟨0, ![]⟩ : Shape).Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max x (−x) is below +∞ is a real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- "All entries of x have absolute value below +∞" true: every entry of x is a real. -/
theorem all_real {s : Shape} {axes : List (Fin s.rank)} (x : FVec Ideal s .f32)
    (hb : (⟨0, ![]⟩ : Shape).BroadcastsInDim s (![] : Fin 0 → Fin s.rank))
    (init : (⟨0, ![]⟩ : Shape).Idx → BitVec 1) (h : s.ReducesTo axes (⟨0, ![]⟩ : Shape)) (hu : 0 < (⟨0, ![]⟩ : Shape).numel)
    (j : (⟨0, ![]⟩ : Shape).Idx)
    (e : Host.reduce IntOp.andi
        (cmpf .olt (Host.absf x) (broadcastInDim s ![] hb (constant (F := Ideal) (⟨0, ![]⟩ : Shape) .f32 0x7F800000#32)))
        init h hu j = 1#1) :
    ∀ i, ∃ r : ℝ, x i = (r : EReal) := fun i =>
  real_of_abs_lt_inf (x i) (Host.reduce_andi_all _ init h hu j e i)

/-- "All entries e of v satisfy lo ≤ e and e < hi" true: every entry's integer value is in [lo, hi). -/
theorem all_in_range {s : Shape} {axes : List (Fin s.rank)} (v : IVec s 32) (lo hi : BitVec 32)
    (hb : (⟨0, ![]⟩ : Shape).BroadcastsInDim s (![] : Fin 0 → Fin s.rank))
    (init : (⟨0, ![]⟩ : Shape).Idx → BitVec 1) (h : s.ReducesTo axes (⟨0, ![]⟩ : Shape)) (hu : 0 < (⟨0, ![]⟩ : Shape).numel)
    (j : (⟨0, ![]⟩ : Shape).Idx)
    (e : Host.reduce IntOp.andi
        (andi (cmpi .sge v (broadcastInDim s ![] hb (constantI (⟨0, ![]⟩ : Shape) 32 lo)))
          (cmpi .slt v (broadcastInDim s ![] hb (constantI (⟨0, ![]⟩ : Shape) 32 hi))))
        init h hu j = 1#1) :
    ∀ i, lo.toInt ≤ (v i).toInt ∧ (v i).toInt < hi.toInt := fun i => by
  have k := Host.reduce_andi_all _ init h hu j e i
  obtain ⟨k0, k1⟩ := IntOp.andi_eq_one.1 k
  exact ⟨IntOp.cmpi_sge.1 k0, IntOp.cmpi_slt.1 k1⟩

/-- THE PRECONDITION DECODED: the entity and relation embeddings and the two message weight matrices hold reals,
    and every entry of the edge list is an entity number, 0 ≤ e < 50000. -/
theorem decode [hK : Cert.KernelIdeal.Facts] [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, 0 ≤ (m ((c.tc : Thread Cert.KernelIdeal.nD Cert.KernelIdeal.τ).loc Cert.KernelIdeal.main_arg10) i).toInt ∧ (m ((c.tc : Thread Cert.KernelIdeal.nD Cert.KernelIdeal.τ).loc Cert.KernelIdeal.main_arg10) i).toInt < 50000) := by
  have e := congrFun (h c) ix0
  dsimp only [Cert.Pre_finite_inputs.fn, Cert.Pre_finite_inputs.fn_part1, Cert.Pre_finite_inputs.fn_part2,
    Cert.Pre_finite_inputs.fn_part3] at e
  have split : ∀ (a b : IVec (⟨0, ![]⟩ : Shape) 1), andi a b ix0 = 1#1 → a ix0 = 1#1 ∧ b ix0 = 1#1 :=
    fun a b hab => IntOp.andi_eq_one.1 hab
  obtain ⟨e10, h54⟩ := split _ _ e
  obtain ⟨e9, h47⟩ := split _ _ e10
  obtain ⟨e8, h42⟩ := split _ _ e9
  obtain ⟨e7, h37⟩ := split _ _ e8
  obtain ⟨e6, h32⟩ := split _ _ e7
  obtain ⟨e5, h27⟩ := split _ _ e6
  obtain ⟨e4, h22⟩ := split _ _ e5
  obtain ⟨e3, h17⟩ := split _ _ e4
  obtain ⟨e2, h12⟩ := split _ _ e3
  obtain ⟨h3, h7⟩ := split _ _ e2
  refine ⟨all_real _ _ _ _ _ ix0 h3, all_real _ _ _ _ _ ix0 h7, all_real _ _ _ _ _ ix0 h17, all_real _ _ _ _ _ ix0 h22, ?_⟩
  exact all_in_range _ 0#32 50000#32 _ _ _ _ ix0 h54

end Cert.KernelIdeal.PreDecode

end
-- ==== Proof.lean ====
/-
  A CompGCN layer: per edge, the difference of the source (or target) entity's embedding and the relation's,
  scaled by the symmetric edge weight and multiplied by a weight matrix, is summed into the target (or source)
  entity; a self-loop term is added, the sum is divided by three, a bias is added, and the result is batch-normalised;
  the relation embeddings are projected.  The kernel program scales before the matrix product, pads the edges to whole
  blocks, and multiplies by the real 1/3; the reference scales after, and divides by 3.  Over finite embeddings and
  weights and an edge list whose entities are in range the two programs compute the same arrays on the extended reals:
  every edge weight is then a positive real (each degree counts the edge itself), so distributivity applies.
-/
import proofs.«137193_j39762807226645_2_alg».proof.Defs
import proofs.«137193_j39762807226645_2_alg».proof.Proof.Gen.Kernel
import proofs.«137193_j39762807226645_2_alg».proof.Proof.Gen.Kernel.Skeleton
import proofs.«137193_j39762807226645_2_alg».proof.Proof.Gen.Kernel.Launch
import proofs.«137193_j39762807226645_2_alg».proof.Proof.Gen.Kernel.Points
import proofs.«137193_j39762807226645_2_alg».proof.Proof.Gen.Kernel.Frame
import proofs.«137193_j39762807226645_2_alg».proof.Proof.Gen.KernelIdeal
import proofs.«137193_j39762807226645_2_alg».proof.Proof.Gen.KernelIdeal.Skeleton
import proofs.«137193_j39762807226645_2_alg».proof.Proof.Gen.KernelIdeal.Launch
import proofs.«137193_j39762807226645_2_alg».proof.Proof.Gen.KernelIdeal.Points
import proofs.«137193_j39762807226645_2_alg».proof.Proof.Gen.KernelIdeal.Frame
import proofs.«137193_j39762807226645_2_alg».proof.Proof.Gen.ReferenceIdeal
import proofs.«137193_j39762807226645_2_alg».proof.Proof.Gen.Pre_finite_inputs
import proofs.«137193_j39762807226645_2_alg».proof.Proof.KerRun
import proofs.«137193_j39762807226645_2_alg».proof.Proof.KerFold
import proofs.«137193_j39762807226645_2_alg».proof.Proof.Msg0Value
import proofs.«137193_j39762807226645_2_alg».proof.Proof.Msg1Value
import proofs.«137193_j39762807226645_2_alg».proof.Proof.CombValue
import proofs.«137193_j39762807226645_2_alg».proof.Proof.RelValue
import proofs.«137193_j39762807226645_2_alg».proof.Proof.RefVal
import proofs.«137193_j39762807226645_2_alg».proof.Proof.BridgeComb
import proofs.«137193_j39762807226645_2_alg».proof.Proof.PreDecode
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.HandRun.run m ρ)

/-- The one rewrite of the idealization: the kernel's literal 0.3333333432674408 is read as the rational 1/3. -/
theorem preserves : Cert.preserves_Kernel_KernelIdeal :=
  IdealRules.named_const.statement Cert.KernelIdeal.κ "inv_3" .f32 0x3EAAAAAB#32 ((1 / 3 : ℝ) : EReal) rfl

/-- Both programs end with the batch-normalised layer output and the projected relation embeddings of the
    arguments: the kernel program by its regions' values folded through the host operations, the reference by its
    run; the two layer outputs before normalisation are one array, and so are the two projections. -/
theorem algebraic : Cert.algebraic_KernelIdeal_ReferenceIdeal := by
  intro m ρ m' ρ' hpre hagree
  refine ⟨fun c => Cert.KernelIdeal.KSpec.tail (Cert.KernelIdeal.KSpec.comb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.KernelIdeal.KSpec.rel (m ((c.tc : Thread Cert.KernelIdeal.nD Cert.KernelIdeal.τ).loc Cert.KernelIdeal.main_arg1)) (m ((c.tc : Thread Cert.KernelIdeal.nD Cert.KernelIdeal.τ).loc Cert.KernelIdeal.main_arg5)), ?_, ?_⟩
  · refine (θ_run Cert.KernelIdeal.defs _ _).mono (fun r h c => ⟨?_, ?_, (h c _ (Cert.KernelIdeal.Gen.mem_uc Cert.KernelIdeal.main_arg0 (by decide))).trans (Cert.KernelIdeal.Gen.W20_main_arg0 m ρ c),
      (h c _ (Cert.KernelIdeal.Gen.mem_uc Cert.KernelIdeal.main_arg1 (by decide))).trans (Cert.KernelIdeal.Gen.W20_main_arg1 m ρ c),
      (h c _ (Cert.KernelIdeal.Gen.mem_uc Cert.KernelIdeal.main_arg2 (by decide))).trans (Cert.KernelIdeal.Gen.W20_main_arg2 m ρ c),
      (h c _ (Cert.KernelIdeal.Gen.mem_uc Cert.KernelIdeal.main_arg3 (by decide))).trans (Cert.KernelIdeal.Gen.W20_main_arg3 m ρ c),
      (h c _ (Cert.KernelIdeal.Gen.mem_uc Cert.KernelIdeal.main_arg4 (by decide))).trans (Cert.KernelIdeal.Gen.W20_main_arg4 m ρ c),
      (h c _ (Cert.KernelIdeal.Gen.mem_uc Cert.KernelIdeal.main_arg5 (by decide))).trans (Cert.KernelIdeal.Gen.W20_main_arg5 m ρ c),
      (h c _ (Cert.KernelIdeal.Gen.mem_uc Cert.KernelIdeal.main_arg6 (by decide))).trans (Cert.KernelIdeal.Gen.W20_main_arg6 m ρ c),
      (h c _ (Cert.KernelIdeal.Gen.mem_uc Cert.KernelIdeal.main_arg7 (by decide))).trans (Cert.KernelIdeal.Gen.W20_main_arg7 m ρ c),
      (h c _ (Cert.KernelIdeal.Gen.mem_uc Cert.KernelIdeal.main_arg8 (by decide))).trans (Cert.KernelIdeal.Gen.W20_main_arg8 m ρ c),
      (h c _ (Cert.KernelIdeal.Gen.mem_uc Cert.KernelIdeal.main_arg9 (by decide))).trans (Cert.KernelIdeal.Gen.W20_main_arg9 m ρ c),
      (h c _ (Cert.KernelIdeal.Gen.mem_uc Cert.KernelIdeal.main_arg10 (by decide))).trans (Cert.KernelIdeal.Gen.W20_main_arg10 m ρ c),
      (h c _ (Cert.KernelIdeal.Gen.mem_uc Cert.KernelIdeal.main_arg11 (by decide))).trans (Cert.KernelIdeal.Gen.W20_main_arg11 m ρ c)⟩)
      (Cert.KernelIdeal.HandRun.run_W20 (F := Ideal) m ρ)
    · exact (Cert.KernelIdeal.HandRun.read_v95 m ρ h c).trans
        (Cert.KernelIdeal.HandRun.out0_K m ρ c Cert.KernelIdeal.RegVal.final0 Cert.KernelIdeal.RegVal.final1 Cert.KernelIdeal.RegVal.final2)
    · exact (Cert.KernelIdeal.HandRun.read_v97 m ρ h c).trans (Cert.KernelIdeal.HandRun.out1_K m ρ c Cert.KernelIdeal.RegVal.final3)
  · refine (θ_run Cert.ReferenceIdeal.defs _ _).mono (fun r h c => ⟨(h c).1.trans ?_, (h c).2.1.trans ?_, (h c).2.2⟩)
      (Cert.ReferenceIdeal.HandRun.run m' ρ')
    · obtain ⟨h0, h1, h3, h4, h10⟩ := Cert.KernelIdeal.PreDecode.decode m hpre c
      obtain ⟨e0, e1, e2, e3, e4, e5, e6, e7, e8, e9, e10, e11⟩ := hagree c
      rw [e0, e1, e2, e3, e4, e6, e7, e8, e9, e10, e11, ← Cert.Bridge.tail_same]
      exact congrArg (fun x => Cert.KernelIdeal.KSpec.tail x _ _) (Cert.Bridge.comb_eq _ _ _ _ _ _ _ _ _ h0 h1 h3 h4 h10).symm
    · obtain ⟨e0, e1, e2, e3, e4, e5, e6, e7, e8, e9, e10, e11⟩ := hagree c
      rw [e1, e5]
      exact (Cert.Bridge.rel_eq _ _).symm

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
